-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S50000x5 : Shape := ⟨2, ![50000, 5]⟩
abbrev S50000x7 : Shape := ⟨2, ![50000, 7]⟩
abbrev S2x1600000 : Shape := ⟨2, ![2, 1600000]⟩
abbrev S768x16 : Shape := ⟨2, ![768, 16]⟩
abbrev S16 : Shape := ⟨1, ![16]⟩
abbrev S5x8 : Shape := ⟨2, ![5, 8]⟩
abbrev S8 : Shape := ⟨1, ![8]⟩
abbrev S7x8 : Shape := ⟨2, ![7, 8]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S50000x5 : S_.BroadcastsInDim S50000x5 (![] : Fin 0 → Fin S50000x5.rank)
  reducesTo_S50000x5_S_d0_1 : S50000x5.ReducesTo [0, 1] S_
  bcast_S_S50000x7 : S_.BroadcastsInDim S50000x7 (![] : Fin 0 → Fin S50000x7.rank)
  reducesTo_S50000x7_S_d0_1 : S50000x7.ReducesTo [0, 1] S_
  bcast_S_S768x16 : S_.BroadcastsInDim S768x16 (![] : Fin 0 → Fin S768x16.rank)
  reducesTo_S768x16_S_d0_1 : S768x16.ReducesTo [0, 1] S_
  bcast_S_S16 : S_.BroadcastsInDim S16 (![] : Fin 0 → Fin S16.rank)
  reducesTo_S16_S_d0 : S16.ReducesTo [0] S_
  bcast_S_S5x8 : S_.BroadcastsInDim S5x8 (![] : Fin 0 → Fin S5x8.rank)
  reducesTo_S5x8_S_d0_1 : S5x8.ReducesTo [0, 1] S_
  bcast_S_S8 : S_.BroadcastsInDim S8 (![] : Fin 0 → Fin S8.rank)
  reducesTo_S8_S_d0 : S8.ReducesTo [0] S_
  bcast_S_S7x8 : S_.BroadcastsInDim S7x8 (![] : Fin 0 → Fin S7x8.rank)
  reducesTo_S7x8_S_d0_1 : S7x8.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_arg26 : FVec F S64x2 .f32) (main_arg27 : FVec F S2 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x2 .f32 := Host.absf main_arg26
  let main_cst_48 : FVec F S_ .f32 := constant S_ .f32 0x7F800000#32
  let main_v125 : FVec F S64x2 .f32 := broadcastInDim S64x2 ![] bcast_S_S64x2 main_cst_48
  let main_v126 : IVec S64x2 1 := cmpf .olt main_v124 main_v125
  let main_c_49 : IVec S_ 1 := constantI S_ 1 1#1
  let main_v127 : IVec S_ 1 := (fun x v => Host.reduce IntOp.andi x v reducesTo_S64x2_S_d0_1 h_S_) main_v126 main_c_49
  let main_v128 : IVec S_ 1 := andi main_v123 main_v127
  let main_v129 : FVec F S2 .f32 := Host.absf main_arg27
  let main_cst_50 : FVec F S_ .f32 := constant S_ .f32 0x7F800000#32
  let main_v130 : FVec F S2 .f32 := broadcastInDim S2 ![] bcast_S_S2 main_cst_50
  let main_v131 : IVec S2 1 := cmpf .olt main_v129 main_v130
  let main_c_51 : IVec S_ 1 := constantI S_ 1 1#1
  let main_v132 : IVec S_ 1 := (fun x v => Host.reduce IntOp.andi x v reducesTo_S2_S_d0 h_S_) main_v131 main_c_51
  let main_v133 : IVec S_ 1 := andi main_v128 main_v132
  main_v133

def fn_part6 {F : FTy → Type} [FloatOps F] (main_arg22 : FVec F S64x64 .f32) (main_arg23 : FVec F S64 .f32) (main_arg24 : FVec F S64x64 .f32) (main_arg25 : FVec F S64 .f32) (main_arg26 : FVec F S64x2 .f32) (main_arg27 : FVec F S2 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x64 .f32 := Host.absf main_arg22
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg23
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg24
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg25
  fn_part7 (F := F) main_arg26 main_arg27 main_v118 main_v119

def fn_part5 {F : FTy → Type} [FloatOps F] (main_arg19 : FVec F S64 .f32) (main_arg20 : FVec F S64x64 .f32) (main_arg21 : FVec F S64 .f32) (main_arg22 : FVec F S64x64 .f32) (main_arg23 : FVec F S64 .f32) (main_arg24 : FVec F S64x64 .f32) (main_arg25 : FVec F S64 .f32) (main_arg26 : FVec F S64x2 .f32) (main_arg27 : FVec F S2 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg20
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S8 .f32) (main_arg16 : FVec F S64x64 .f32) (main_arg17 : FVec F S64 .f32) (main_arg18 : FVec F S64x64 .f32) (main_arg19 : FVec F S64 .f32) (main_arg20 : FVec F S64x64 .f32) (main_arg21 : FVec F S64 .f32) (main_arg22 : FVec F S64x64 .f32) (main_arg23 : FVec F S64 .f32) (main_arg24 : FVec F S64x64 .f32) (main_arg25 : FVec F S64 .f32) (main_arg26 : FVec F S64x2 .f32) (main_arg27 : FVec F S2 .f32) (main_v63 : IVec S_ 1) (main_v67 : IVec S_ 1) : IVec S_ 1 :=
  let main_v68 : IVec S_ 1 := andi main_v63 main_v67
  let main_v69 : FVec F S8 .f32 := Host.absf main_arg15
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S5x8 .f32) (main_arg13 : FVec F S8 .f32) (main_arg14 : FVec F S7x8 .f32) (main_arg15 : FVec F S8 .f32) (main_arg16 : FVec F S64x64 .f32) (main_arg17 : FVec F S64 .f32) (main_arg18 : FVec F S64x64 .f32) (main_arg19 : FVec F S64 .f32) (main_arg20 : FVec F S64x64 .f32) (main_arg21 : FVec F S64 .f32) (main_arg22 : FVec F S64x64 .f32) (main_arg23 : FVec F S64 .f32) (main_arg24 : FVec F S64x64 .f32) (main_arg25 : FVec F S64 .f32) (main_arg26 : FVec F S64x2 .f32) (main_arg27 : FVec F S2 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S5x8 .f32 := Host.absf main_arg12
  let main_cst_20 : FVec F S_ .f32 := constant S_ .f32 0x7F800000#32
  let main_v55 : FVec F S5x8 .f32 := broadcastInDim S5x8 ![] bcast_S_S5x8 main_cst_20
  let main_v56 : IVec S5x8 1 := cmpf .olt main_v54 main_v55
  let main_c_21 : IVec S_ 1 := constantI S_ 1 1#1
  let main_v57 : IVec S_ 1 := (fun x v => Host.reduce IntOp.andi x v reducesTo_S5x8_S_d0_1 h_S_) main_v56 main_c_21
  let main_v58 : IVec S_ 1 := andi main_v53 main_v57
  let main_v59 : FVec F S8 .f32 := Host.absf main_arg13
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S7x8 .f32 := Host.absf main_arg14
  let main_cst_24 : FVec F S_ .f32 := constant S_ .f32 0x7F800000#32
  let main_v65 : FVec F S7x8 .f32 := broadcastInDim S7x8 ![] bcast_S_S7x8 main_cst_24
  let main_v66 : IVec S7x8 1 := cmpf .olt main_v64 main_v65
  let main_c_25 : IVec S_ 1 := constantI S_ 1 1#1
  let main_v67 : IVec S_ 1 := (fun x v => Host.reduce IntOp.andi x v reducesTo_S7x8_S_d0_1 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S768x16 .f32) (main_arg9 : FVec F S16 .f32) (main_arg10 : FVec F S768x16 .f32) (main_arg11 : FVec F S16 .f32) (main_arg12 : FVec F S5x8 .f32) (main_arg13 : FVec F S8 .f32) (main_arg14 : FVec F S7x8 .f32) (main_arg15 : FVec F S8 .f32) (main_arg16 : FVec F S64x64 .f32) (main_arg17 : FVec F S64 .f32) (main_arg18 : FVec F S64x64 .f32) (main_arg19 : FVec F S64 .f32) (main_arg20 : FVec F S64x64 .f32) (main_arg21 : FVec F S64 .f32) (main_arg22 : FVec F S64x64 .f32) (main_arg23 : FVec F S64 .f32) (main_arg24 : FVec F S64x64 .f32) (main_arg25 : FVec F S64 .f32) (main_arg26 : FVec F S64x2 .f32) (main_arg27 : FVec F S2 .f32) (main_v33 : IVec S_ 1) : IVec S_ 1 :=
  let main_v34 : FVec F S768x16 .f32 := Host.absf main_arg8
  let main_cst_12 : FVec F S_ .f32 := constant S_ .f32 0x7F800000#32
  let main_v35 : FVec F S768x16 .f32 := broadcastInDim S768x16 ![] bcast_S_S768x16 main_cst_12
  let main_v36 : IVec S768x16 1 := cmpf .olt main_v34 main_v35
  let main_c_13 : IVec S_ 1 := constantI S_ 1 1#1
  let main_v37 : IVec S_ 1 := (fun x v => Host.reduce IntOp.andi x v reducesTo_S768x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S768x16 .f32 := Host.absf main_arg10
  let main_cst_16 : FVec F S_ .f32 := constant S_ .f32 0x7F800000#32
  let main_v45 : FVec F S768x16 .f32 := broadcastInDim S768x16 ![] bcast_S_S768x16 main_cst_16
  let main_v46 : IVec S768x16 1 := cmpf .olt main_v44 main_v45
  let main_c_17 : IVec S_ 1 := constantI S_ 1 1#1
  let main_v47 : IVec S_ 1 := (fun x v => Host.reduce IntOp.andi x v reducesTo_S768x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S50000x7 .f32) (main_arg6 : FVec F S768x16 .f32) (main_arg7 : FVec F S16 .f32) (main_arg8 : FVec F S768x16 .f32) (main_arg9 : FVec F S16 .f32) (main_arg10 : FVec F S768x16 .f32) (main_arg11 : FVec F S16 .f32) (main_arg12 : FVec F S5x8 .f32) (main_arg13 : FVec F S8 .f32) (main_arg14 : FVec F S7x8 .f32) (main_arg15 : FVec F S8 .f32) (main_arg16 : FVec F S64x64 .f32) (main_arg17 : FVec F S64 .f32) (main_arg18 : FVec F S64x64 .f32) (main_arg19 : FVec F S64 .f32) (main_arg20 : FVec F S64x64 .f32) (main_arg21 : FVec F S64 .f32) (main_arg22 : FVec F S64x64 .f32) (main_arg23 : FVec F S64 .f32) (main_arg24 : FVec F S64x64 .f32) (main_arg25 : FVec F S64 .f32) (main_arg26 : FVec F S64x2 .f32) (main_arg27 : FVec F S2 .f32) (main_v13 : IVec S_ 1) (main_v16 : IVec S50000x5 1) : IVec S_ 1 :=
  let main_c_5 : IVec S_ 1 := constantI S_ 1 1#1
  let main_v17 : IVec S_ 1 := (fun x v => Host.reduce IntOp.andi x v reducesTo_S50000x5_S_d0_1 h_S_) main_v16 main_c_5
  let main_v18 : IVec S_ 1 := andi main_v13 main_v17
  let main_v19 : FVec F S50000x7 .f32 := Host.absf main_arg4
  let main_cst_6 : FVec F S_ .f32 := constant S_ .f32 0x7F800000#32
  let main_v20 : FVec F S50000x7 .f32 := broadcastInDim S50000x7 ![] bcast_S_S50000x7 main_cst_6
  let main_v21 : IVec S50000x7 1 := cmpf .olt main_v19 main_v20
  let main_c_7 : IVec S_ 1 := constantI S_ 1 1#1
  let main_v22 : IVec S_ 1 := (fun x v => Host.reduce IntOp.andi x v reducesTo_S50000x7_S_d0_1 h_S_) main_v21 main_c_7
  let main_v23 : IVec S_ 1 := andi main_v18 main_v22
  let main_v24 : FVec F S768x16 .f32 := Host.absf main_arg6
  let main_cst_8 : FVec F S_ .f32 := constant S_ .f32 0x7F800000#32
  let main_v25 : FVec F S768x16 .f32 := broadcastInDim S768x16 ![] bcast_S_S768x16 main_cst_8
  let main_v26 : IVec S768x16 1 := cmpf .olt main_v24 main_v25
  let main_c_9 : IVec S_ 1 := constantI S_ 1 1#1
  let main_v27 : IVec S_ 1 := (fun x v => Host.reduce IntOp.andi x v reducesTo_S768x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x768 .f32) (main_arg1 : FVec F S50000x768 .f32) (main_arg2 : FVec F S50000x768 .f32) (main_arg3 : FVec F S50000x5 .f32) (main_arg4 : FVec F S50000x7 .f32) (main_arg5 : IVec S2x1600000 32) (main_arg6 : FVec F S768x16 .f32) (main_arg7 : FVec F S16 .f32) (main_arg8 : FVec F S768x16 .f32) (main_arg9 : FVec F S16 .f32) (main_arg10 : FVec F S768x16 .f32) (main_arg11 : FVec F S16 .f32) (main_arg12 : FVec F S5x8 .f32) (main_arg13 : FVec F S8 .f32) (main_arg14 : FVec F S7x8 .f32) (main_arg15 : FVec F S8 .f32) (main_arg16 : FVec F S64x64 .f32) (main_arg17 : FVec F S64 .f32) (main_arg18 : FVec F S64x64 .f32) (main_arg19 : FVec F S64 .f32) (main_arg20 : FVec F S64x64 .f32) (main_arg21 : FVec F S64 .f32) (main_arg22 : FVec F S64x64 .f32) (main_arg23 : FVec F S64 .f32) (main_arg24 : FVec F S64x64 .f32) (main_arg25 : FVec F S64 .f32) (main_arg26 : FVec F S64x2 .f32) (main_arg27 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S50000x768 .f32 := Host.absf main_arg1
  let main_cst_0 : FVec F S_ .f32 := constant S_ .f32 0x7F800000#32
  let main_v5 : FVec F S50000x768 .f32 := broadcastInDim S50000x768 ![] bcast_S_S50000x768 main_cst_0
  let main_v6 : IVec S50000x768 1 := cmpf .olt main_v4 main_v5
  let main_c_1 : IVec S_ 1 := constantI S_ 1 1#1
  let main_v7 : IVec S_ 1 := (fun x v => Host.reduce IntOp.andi x v reducesTo_S50000x768_S_d0_1 h_S_) main_v6 main_c_1
  let main_v8 : IVec S_ 1 := andi main_v3 main_v7
  let main_v9 : FVec F S50000x768 .f32 := Host.absf main_arg2
  let main_cst_2 : FVec F S_ .f32 := constant S_ .f32 0x7F800000#32
  let main_v10 : FVec F S50000x768 .f32 := broadcastInDim S50000x768 ![] bcast_S_S50000x768 main_cst_2
  let main_v11 : IVec S50000x768 1 := cmpf .olt main_v9 main_v10
  let main_c_3 : IVec S_ 1 := constantI S_ 1 1#1
  let main_v12 : IVec S_ 1 := (fun x v => Host.reduce IntOp.andi x v reducesTo_S50000x768_S_d0_1 h_S_) main_v11 main_c_3
  let main_v13 : IVec S_ 1 := andi main_v8 main_v12
  let main_v14 : FVec F S50000x5 .f32 := Host.absf main_arg3
  let main_cst_4 : FVec F S_ .f32 := constant S_ .f32 0x7F800000#32
  let main_v15 : FVec F S50000x5 .f32 := broadcastInDim S50000x5 ![] bcast_S_S50000x5 main_cst_4
  let main_v16 : IVec S50000x5 1 := cmpf .olt main_v14 main_v15
  fn_part1 (F := F) main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x768 : Shape := ⟨2, ![50000, 768]⟩
abbrev S50000x5 : Shape := ⟨2, ![50000, 5]⟩
abbrev S50000x7 : Shape := ⟨2, ![50000, 7]⟩
abbrev S2x1600000 : Shape := ⟨2, ![2, 1600000]⟩
abbrev S768x16 : Shape := ⟨2, ![768, 16]⟩
abbrev S16 : Shape := ⟨1, ![16]⟩
abbrev S5x8 : Shape := ⟨2, ![5, 8]⟩
abbrev S8 : Shape := ⟨1, ![8]⟩
abbrev S7x8 : Shape := ⟨2, ![7, 8]⟩
abbrev S64x64 : Shape := ⟨2, ![64, 64]⟩
abbrev S64 : Shape := ⟨1, ![64]⟩
abbrev S64x2 : Shape := ⟨2, ![64, 2]⟩
abbrev S2 : Shape := ⟨1, ![2]⟩
abbrev S50000x64 : Shape := ⟨2, ![50000, 64]⟩
abbrev S1000x768 : Shape := ⟨2, ![1000, 768]⟩
abbrev S1000x5 : Shape := ⟨2, ![1000, 5]⟩
abbrev S1000x7 : Shape := ⟨2, ![1000, 7]⟩
abbrev S1000x64 : Shape := ⟨2, ![1000, 64]⟩
abbrev S1000x16 : Shape := ⟨2, ![1000, 16]⟩
abbrev S1x16 : Shape := ⟨2, ![1, 16]⟩
abbrev S1000x8 : Shape := ⟨2, ![1000, 8]⟩
abbrev S1x8 : Shape := ⟨2, ![1, 8]⟩
abbrev S1x64 : Shape := ⟨2, ![1, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S50000x2 : Shape := ⟨2, ![50000, 2]⟩
abbrev S1000x2 : Shape := ⟨2, ![1000, 2]⟩
abbrev S1x2 : Shape := ⟨2, ![1, 2]⟩

abbrev nBuf : Space → Nat
  | .hbm => 134
  | .vmem => 49
  | .smem => 0
  | _ => 0

abbrev hbmTy0_0 (i : Nat) : BufTy := match i % 128 with
  | 0 => ⟨S50000x768, .f32⟩
  | 1 => ⟨S50000x768, .f32⟩
  | 2 => ⟨S50000x768, .f32⟩
  | 3 => ⟨S50000x5, .f32⟩
  | 4 => ⟨S50000x7, .f32⟩
  | 5 => ⟨S2x1600000, .i32⟩
  | 6 => ⟨S768x16, .f32⟩
  | 7 => ⟨S16, .f32⟩
  | 8 => ⟨S768x16, .f32⟩
  | 9 => ⟨S16, .f32⟩
  | 10 => ⟨S768x16, .f32⟩
  | 11 => ⟨S16, .f32⟩
  | 12 => ⟨S5x8, .f32⟩
  | 13 => ⟨S8, .f32⟩
  | 14 => ⟨S7x8, .f32⟩
  | 15 => ⟨S8, .f32⟩
  | 16 => ⟨S64x64, .f32⟩
  | 17 => ⟨S64, .f32⟩
  | 18 => ⟨S64x64, .f32⟩
  | 19 => ⟨S64, .f32⟩
  | 20 => ⟨S64x64, .f32⟩
  | 21 => ⟨S64, .f32⟩
  | 22 => ⟨S64x64, .f32⟩
  | 23 => ⟨S64, .f32⟩
  | 24 => ⟨S64x64, .f32⟩
  | 25 => ⟨S64, .f32⟩
  | 26 => ⟨S64x2, .f32⟩
  | 27 => ⟨S2, .f32⟩
  | 28 => ⟨S50000x64, .f32⟩
  | 29 => ⟨S50000x64, .f32⟩
  | 30 => ⟨S50000, .i32⟩
  | 31 => ⟨S1x1600000, .i32⟩
  | 32 => ⟨S1600000, .i32⟩
  | 33 => ⟨S1650000, .i32⟩
  | 34 => ⟨S1x1600000, .i32⟩
  | 35 => ⟨S1600000, .i32⟩
  | 36 => ⟨S1650000, .i32⟩
  | 37 => ⟨S_, .f32⟩
  | 38 => ⟨S1650000, .f32⟩
  | 39 => ⟨S_, .f32⟩
  | 40 => ⟨S50000, .f32⟩
  | 41 => ⟨S1650000x1, .i32⟩
  | 42 => ⟨S50000, .f32⟩
  | 43 => ⟨S_, .f32⟩
  | 44 => ⟨S50000, .f32⟩
  | 45 => ⟨S50000, .i1⟩
  | 46 => ⟨S50000, .f32⟩
  | 47 => ⟨S_, .f32⟩
  | 48 => ⟨S_, .f32⟩
  | 49 => ⟨S50000, .f32⟩
  | 50 => ⟨S50000, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000, .f32⟩
  | 60 => ⟨S_, .i32⟩
  | 61 => ⟨S1650000, .i32⟩
  | 62 => ⟨S1650000, .i1⟩
  | 63 => ⟨S_, .i32⟩
  | 64 => ⟨S1650000, .i32⟩
  | 65 => ⟨S1650000, .i32⟩
  | 66 => ⟨S1650000, .i32⟩
  | 67 => ⟨S1650000x1, .i32⟩
  | 68 => ⟨S1650000, .f32⟩
  | 69 => ⟨S1650000, .f32⟩
  | 70 => ⟨S50000x64, .f32⟩
  | 71 => ⟨S_, .i32⟩
  | 72 => ⟨S1650000, .i32⟩
  | 73 => ⟨S1650000, .i1⟩
  | 74 => ⟨S_, .i32⟩
  | 75 => ⟨S1650000, .i32⟩
  | 76 => ⟨S1650000, .i32⟩
  | 77 => ⟨S1650000, .i32⟩
  | 78 => ⟨S1650000x1, .i32⟩
  | 79 => ⟨S1650000x64, .f32⟩
  | 80 => ⟨S1650000x1, .f32⟩
  | 81 => ⟨S1650000x64, .f32⟩
  | 82 => ⟨S1650000x64, .f32⟩
  | 83 => ⟨S_, .f32⟩
  | 84 => ⟨S50000x64, .f32⟩
  | 85 => ⟨S1650000x1, .i32⟩
  | 86 => ⟨S50000x64, .f32⟩
  | 87 => ⟨S1x64, .f32⟩
  | 88 => ⟨S50000x64, .f32⟩
  | 89 => ⟨S50000x64, .f32⟩
  | 90 => ⟨S50000x64, .f32⟩
  | 91 => ⟨S50000x64, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000x64, .f32⟩
  | 101 => ⟨S1650000x1, .f32⟩
  | 102 => ⟨S1650000x64, .f32⟩
  | 103 => ⟨S1650000x64, .f32⟩
  | 104 => ⟨S_, .f32⟩
  | 105 => ⟨S50000x64, .f32⟩
  | 106 => ⟨S1650000x1, .i32⟩
  | 107 => ⟨S50000x64, .f32⟩
  | 108 => ⟨S1x64, .f32⟩
  | 109 => ⟨S50000x64, .f32⟩
  | 110 => ⟨S50000x64, .f32⟩
  | 111 => ⟨S50000x64, .f32⟩
  | 112 => ⟨S50000x64, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000x64, .f32⟩
  | 122 => ⟨S1650000x1, .f32⟩
  | 123 => ⟨S1650000x64, .f32⟩
  | 124 => ⟨S1650000x64, .f32⟩
  | 125 => ⟨S_, .f32⟩
  | 126 => ⟨S50000x64, .f32⟩
  | 127 => ⟨S1650000x1, .i32⟩
  | _ => ⟨S50000x768, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S50000x64, .f32⟩
  | 5 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | .local _ .vmem, ⟨0, _⟩ => ⟨S1000x768, .f32⟩
  | .local _ .vmem, ⟨1, _⟩ => ⟨S1000x768, .f32⟩
  | .local _ .vmem, ⟨2, _⟩ => ⟨S1000x768, .f32⟩
  | .local _ .vmem, ⟨3, _⟩ => ⟨S1000x768, .f32⟩
  | .local _ .vmem, ⟨4, _⟩ => ⟨S1000x768, .f32⟩
  | .local _ .vmem, ⟨5, _⟩ => ⟨S1000x768, .f32⟩
  | .local _ .vmem, ⟨6, _⟩ => ⟨S1000x5, .f32⟩
  | .local _ .vmem, ⟨7, _⟩ => ⟨S1000x5, .f32⟩
  | .local _ .vmem, ⟨8, _⟩ => ⟨S1000x7, .f32⟩
  | .local _ .vmem, ⟨9, _⟩ => ⟨S1000x7, .f32⟩
  | .local _ .vmem, ⟨10, _⟩ => ⟨S768x16, .f32⟩
  | .local _ .vmem, ⟨11, _⟩ => ⟨S16, .f32⟩
  | .local _ .vmem, ⟨12, _⟩ => ⟨S768x16, .f32⟩
  | .local _ .vmem, ⟨13, _⟩ => ⟨S16, .f32⟩
  | .local _ .vmem, ⟨14, _⟩ => ⟨S768x16, .f32⟩
  | .local _ .vmem, ⟨15, _⟩ => ⟨S16, .f32⟩
  | .local _ .vmem, ⟨16, _⟩ => ⟨S5x8, .f32⟩
  | .local _ .vmem, ⟨17, _⟩ => ⟨S8, .f32⟩
  | .local _ .vmem, ⟨18, _⟩ => ⟨S7x8, .f32⟩
  | .local _ .vmem, ⟨19, _⟩ => ⟨S8, .f32⟩
  | .local _ .vmem, ⟨20, _⟩ => ⟨S64x64, .f32⟩
  | .local _ .vmem, ⟨21, _⟩ => ⟨S64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S1000x64, .f32⟩
  | .local _ .vmem, ⟨28, _⟩ => ⟨S64x64, .f32⟩
  | .local _ .vmem, ⟨29, _⟩ => ⟨S1000x64, .f32⟩
  | .local _ .vmem, ⟨30, _⟩ => ⟨S1000x64, .f32⟩
  | .local _ .vmem, ⟨31, _⟩ => ⟨S1000x64, .f32⟩
  | .local _ .vmem, ⟨32, _⟩ => ⟨S1000x64, .f32⟩
  | .local _ .vmem, ⟨33, _⟩ => ⟨S64x64, .f32⟩
  | .local _ .vmem, ⟨34, _⟩ => ⟨S1000x64, .f32⟩
  | .local _ .vmem, ⟨35, _⟩ => ⟨S1000x64, .f32⟩
  | .local _ .vmem, ⟨36, _⟩ => ⟨S1000x64, .f32⟩
  | .local _ .vmem, ⟨37, _⟩ => ⟨S1000x64, .f32⟩
  | .local _ .vmem, ⟨38, _⟩ => ⟨S64x64, .f32⟩
  | .local _ .vmem, ⟨39, _⟩ => ⟨S1000x64, .f32⟩
  | .local _ .vmem, ⟨40, _⟩ => ⟨S1000x64, .f32⟩
  | .local _ .vmem, ⟨41, _⟩ => ⟨S1000x64, .f32⟩
  | .local _ .vmem, ⟨42, _⟩ => ⟨S1000x64, .f32⟩
  | .local _ .vmem, ⟨43, _⟩ => ⟨S64x64, .f32⟩
  | .local _ .vmem, ⟨44, _⟩ => ⟨S64, .f32⟩
  | .local _ .vmem, ⟨45, _⟩ => ⟨S64x2, .f32⟩
  | .local _ .vmem, ⟨46, _⟩ => ⟨S2, .f32⟩
  | .local _ .vmem, ⟨47, _⟩ => ⟨S1000x2, .f32⟩
  | .local _ .vmem, ⟨48, _⟩ => ⟨S1000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_2 : Ref sig .tc := ⟨.hbm, 47, rfl⟩
abbrev main_call0_v0 : Ref sig .tc := ⟨.hbm, 48, rfl⟩
abbrev main_call0_v1 : Ref sig .tc := ⟨.hbm, 49, rfl⟩
abbrev main_v15 : Ref sig .tc := ⟨.hbm, 50, rfl⟩
abbrev main_c : Ref sig .tc := ⟨.hbm, 51, rfl⟩
abbrev main_v16 : Ref sig .tc := ⟨.hbm, 52, rfl⟩
abbrev main_v17 : Ref sig .tc := ⟨.hbm, 53, rfl⟩
abbrev main_c_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_c_4 : Ref sig .tc := ⟨.hbm, 60, rfl⟩
abbrev main_v23 : Ref sig .tc := ⟨.hbm, 61, rfl⟩
abbrev main_v24 : Ref sig .tc := ⟨.hbm, 62, rfl⟩
abbrev main_c_5 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_6 : Ref sig .tc := ⟨.hbm, 71, rfl⟩
abbrev main_v32 : Ref sig .tc := ⟨.hbm, 72, rfl⟩
abbrev main_v33 : Ref sig .tc := ⟨.hbm, 73, rfl⟩
abbrev main_c_7 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_8 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_c_9 : Ref sig .tc := ⟨.hbm, 92, rfl⟩
abbrev main_v50 : Ref sig .tc := ⟨.hbm, 93, rfl⟩
abbrev main_v51 : Ref sig .tc := ⟨.hbm, 94, rfl⟩
abbrev main_c_10 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_11 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_12 : Ref sig .tc := ⟨.hbm, 113, rfl⟩
abbrev main_v68 : Ref sig .tc := ⟨.hbm, 114, rfl⟩
abbrev main_v69 : Ref sig .tc := ⟨.hbm, 115, rfl⟩
abbrev main_c_13 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_14 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg2_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg2_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg2_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem2_1 : DmaSem sig := 30
abbrev cc2_sem0_0 : DmaSem sig := 31
abbrev cc2_sem0_1 : DmaSem sig := 32
abbrev cc2_sem1_0 : DmaSem sig := 33
abbrev cc2_sem2_0 : DmaSem sig := 34
abbrev cc2_sem2_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem2_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem5_1 : DmaSem sig := 48

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x7 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S7x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1000x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1000x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S1000x768_S1000x768_0_0 : ∀ a, (![0, 0] : Fin 2 → Nat) a + S1000x768.size a ≤ S1000x768.size a
  h_S1000x768 : 0 < S1000x768.numel
  inb_S768x16_S768x16_0_0 : ∀ a, (![0, 0] : Fin 2 → Nat) a + S768x16.size a ≤ S768x16.size a
  h_S768x16 : 0 < S768x16.numel
  bitsLt_bf16_f32 : FTy.bits .bf16 < FTy.bits .f32
  inb_S16_S16_0 : ∀ a, (![0] : Fin 1 → Nat) a + S16.size a ≤ S16.size a
  h_S16 : 0 < S16.numel
  shapeCasts_S16_S1x16 : S16.ShapeCasts S1x16
  broadcasts_S1x16_S1000x16 : S1x16.Broadcasts S1000x16
  inb_S1000x5_S1000x5_0_0 : ∀ a, (![0, 0] : Fin 2 → Nat) a + S1000x5.size a ≤ S1000x5.size a
  h_S1000x5 : 0 < S1000x5.numel
  inb_S5x8_S5x8_0_0 : ∀ a, (![0, 0] : Fin 2 → Nat) a + S5x8.size a ≤ S5x8.size a
  h_S5x8 : 0 < S5x8.numel
  inb_S8_S8_0 : ∀ a, (![0] : Fin 1 → Nat) a + S8.size a ≤ S8.size a
  h_S8 : 0 < S8.numel
  shapeCasts_S8_S1x8 : S8.ShapeCasts S1x8
  broadcasts_S1x8_S1000x8 : S1x8.Broadcasts S1000x8
  inb_S1000x7_S1000x7_0_0 : ∀ a, (![0, 0] : Fin 2 → Nat) a + S1000x7.size a ≤ S1000x7.size a
  h_S1000x7 : 0 < S1000x7.numel
  inb_S7x8_S7x8_0_0 : ∀ a, (![0, 0] : Fin 2 → Nat) a + S7x8.size a ≤ S7x8.size a
  h_S7x8 : 0 < S7x8.numel
  inb_S1000x64_S1000x16_0_0 : ∀ a, (![0, 0] : Fin 2 → Nat) a + S1000x16.size a ≤ S1000x64.size a
  h_S1000x16 : 0 < S1000x16.numel
  inb_S1000x64_S1000x16_0_16 : ∀ a, (![0, 16] : Fin 2 → Nat) a + S1000x16.size a ≤ S1000x64.size a
  inb_S1000x64_S1000x16_0_32 : ∀ a, (![0, 32] : Fin 2 → Nat) a + S1000x16.size a ≤ S1000x64.size a
  inb_S1000x64_S1000x8_0_48 : ∀ a, (![0, 48] : Fin 2 → Nat) a + S1000x8.size a ≤ S1000x64.size a
  h_S1000x8 : 0 < S1000x8.numel
  inb_S1000x64_S1000x8_0_56 : ∀ a, (![0, 56] : Fin 2 → Nat) a + S1000x8.size a ≤ S1000x64.size a
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  dot_S1000x768_S768x16_S1000x16_1_0_0_1_n_n_wf : DotDims.WF S1000x768 S768x16 S1000x16 [1] [0] [0] [1] [] []
  dot_S1000x5_S5x8_S1000x8_1_0_0_1_n_n_wf : DotDims.WF S1000x5 S5x8 S1000x8 [1] [0] [0] [1] [] []
  dot_S1000x7_S7x8_S1000x8_1_0_0_1_n_n_wf : DotDims.WF S1000x7 S7x8 S1000x8 [1] [0] [0] [1] [] []
  dot_S1000x64_S64x64_S1000x64_1_0_0_1_n_n_wf : DotDims.WF S1000x64 S64x64 S1000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S1000x64_S64x2_S1000x2_1_0_0_1_n_n_wf : DotDims.WF S1000x64 S64x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S50000x768.size a
  hwx0_0 : ∀ i : grid0.Coords, EltTy.bits .f32 = 32 ∨ (Rect.block (s := S50000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S50000x768.size a
  hwx0_1 : ∀ i : grid0.Coords, EltTy.bits .f32 = 32 ∨ (Rect.block (s := S50000x768) S1000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x768.size a ≤ S50000x768.size a
  hwx0_2 : ∀ i : grid0.Coords, EltTy.bits .f32 = 32 ∨ (Rect.block (s := S50000x768) S1000x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x5.size a ≤ S50000x5.size a
  hwx0_3 : ∀ i : grid0.Coords, EltTy.bits .f32 = 32 ∨ (Rect.block (s := S50000x5) S1000x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x7.size a ≤ S50000x7.size a
  hwx0_4 : ∀ i : grid0.Coords, EltTy.bits .f32 = 32 ∨ (Rect.block (s := S50000x7) S1000x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x16.size a ≤ S768x16.size a
  hwx0_5 : ∀ i : grid0.Coords, EltTy.bits .f32 = 32 ∨ (Rect.block (s := S768x16) S768x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x16.size a ≤ S768x16.size a
  hwx0_7 : ∀ i : grid0.Coords, EltTy.bits .f32 = 32 ∨ (Rect.block (s := S768x16) S768x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x16.size a ≤ S768x16.size a
  hwx0_9 : ∀ i : grid0.Coords, EltTy.bits .f32 = 32 ∨ (Rect.block (s := S768x16) S768x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x8.size a ≤ S5x8.size a
  hwx0_11 : ∀ i : grid0.Coords, EltTy.bits .f32 = 32 ∨ (Rect.block (s := S5x8) S5x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S7x8.size a ≤ S7x8.size a
  hwx0_13 : ∀ i : grid0.Coords, EltTy.bits .f32 = 32 ∨ (Rect.block (s := S7x8) S7x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8.size a ≤ S8.size a
  hwx0_14 : ∀ i : grid0.Coords, EltTy.bits .f32 = 32 ∨ (Rect.block (s := S8) S8.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x64.size a ≤ S50000x64.size a
  hwx0_17 : ∀ i : grid0.Coords, EltTy.bits .f32 = 32 ∨ (Rect.block (s := S50000x64) S1000x64.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1000x64.size a ≤ S50000x64.size a
  hwx0_18 : ∀ i : grid0.Coords, EltTy.bits .f32 = 32 ∨ (Rect.block (s := S50000x64) S1000x64.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S50000x64.size a
  hwx1_2 : ∀ i : grid1.Coords, EltTy.bits .f32 = 32 ∨ (Rect.block (s := S50000x64) S1000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S50000x64.size a
  hwx2_2 : ∀ i : grid2.Coords, EltTy.bits .f32 = 32 ∨ (Rect.block (s := S50000x64) S1000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S50000x64.size a
  hwx3_0 : ∀ i : grid3.Coords, EltTy.bits .f32 = 32 ∨ (Rect.block (s := S50000x64) S1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S50000x64.size a
  hwx3_2 : ∀ i : grid3.Coords, EltTy.bits .f32 = 32 ∨ (Rect.block (s := S50000x64) S1000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S50000x64.size a
  hwx4_0 : ∀ i : grid4.Coords, EltTy.bits .f32 = 32 ∨ (Rect.block (s := S50000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2.size a ≤ S2.size a
  hwx4_4 : ∀ i : grid4.Coords, EltTy.bits .f32 = 32 ∨ (Rect.block (s := S2) S2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x2.size a ≤ S50000x2.size a
  hwx4_5 : ∀ i : grid4.Coords, EltTy.bits .f32 = 32 ∨ (Rect.block (s := S50000x2) S1000x2.size (cc4_transform_5 i) (hinb4_5 i)).WholeWords (EltTy.packing .f32)

variable [Facts₀]

def dot_S1000x768_S768x16_S1000x16_1_0_0_1_n_n : DotDims S1000x768 S768x16 S1000x16 where
  lhsContracting := [1]
  rhsContracting := [0]
  lhsNonContracting := [0]
  rhsNonContracting := [1]
  lhsBatch := []
  rhsBatch := []
  wf := dot_S1000x768_S768x16_S1000x16_1_0_0_1_n_n_wf
def dot_S1000x5_S5x8_S1000x8_1_0_0_1_n_n : DotDims S1000x5 S5x8 S1000x8 where
  lhsContracting := [1]
  rhsContracting := [0]
  lhsNonContracting := [0]
  rhsNonContracting := [1]
  lhsBatch := []
  rhsBatch := []
  wf := dot_S1000x5_S5x8_S1000x8_1_0_0_1_n_n_wf
def dot_S1000x7_S7x8_S1000x8_1_0_0_1_n_n : DotDims S1000x7 S7x8 S1000x8 where
  lhsContracting := [1]
  rhsContracting := [0]
  lhsNonContracting := [0]
  rhsNonContracting := [1]
  lhsBatch := []
  rhsBatch := []
  wf := dot_S1000x7_S7x8_S1000x8_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1000x7.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S768x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S768x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S768x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S5x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S7x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0_0) S1000x64.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v0_1) S1000x64.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v0_1) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg18) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg20) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg22) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg24) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg25) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg26) S64x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg27) S2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S1000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x768 : Shape := ⟨2, ![50000, 768]⟩
abbrev S50000x5 : Shape := ⟨2, ![50000, 5]⟩
abbrev S50000x7 : Shape := ⟨2, ![50000, 7]⟩
abbrev S2x1600000 : Shape := ⟨2, ![2, 1600000]⟩
abbrev S768x16 : Shape := ⟨2, ![768, 16]⟩
abbrev S16 : Shape := ⟨1, ![16]⟩
abbrev S5x8 : Shape := ⟨2, ![5, 8]⟩
abbrev S8 : Shape := ⟨1, ![8]⟩
abbrev S7x8 : Shape := ⟨2, ![7, 8]⟩
abbrev S64x64 : Shape := ⟨2, ![64, 64]⟩
abbrev S64 : Shape := ⟨1, ![64]⟩
abbrev S64x2 : Shape := ⟨2, ![64, 2]⟩
abbrev S2 : Shape := ⟨1, ![2]⟩
abbrev S50000x16 : Shape := ⟨2, ![50000, 16]⟩
abbrev S1x16 : Shape := ⟨2, ![1, 16]⟩
abbrev S_ : Shape := ⟨0, ![]⟩
abbrev S50000x8 : Shape := ⟨2, ![50000, 8]⟩
abbrev S1x8 : Shape := ⟨2, ![1, 8]⟩
abbrev S50000x64 : Shape := ⟨2, ![50000, 64]⟩
abbrev S1x64 : Shape := ⟨2, ![1, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x64 : Shape := ⟨2, ![1650000, 64]⟩
abbrev S50000x2 : Shape := ⟨2, ![50000, 2]⟩
abbrev S1x2 : Shape := ⟨2, ![1, 2]⟩

abbrev nBuf : Space → Nat
  | .hbm => 287
  | .vmem => 0
  | .smem => 0
  | _ => 0

abbrev hbmTy0_0 (i : Nat) : BufTy := match i % 128 with
  | 0 => ⟨S50000x768, .f32⟩
  | 1 => ⟨S50000x768, .f32⟩
  | 2 => ⟨S50000x768, .f32⟩
  | 3 => ⟨S50000x5, .f32⟩
  | 4 => ⟨S50000x7, .f32⟩
  | 5 => ⟨S2x1600000, .i32⟩
  | 6 => ⟨S768x16, .f32⟩
  | 7 => ⟨S16, .f32⟩
  | 8 => ⟨S768x16, .f32⟩
  | 9 => ⟨S16, .f32⟩
  | 10 => ⟨S768x16, .f32⟩
  | 11 => ⟨S16, .f32⟩
  | 12 => ⟨S5x8, .f32⟩
  | 13 => ⟨S8, .f32⟩
  | 14 => ⟨S7x8, .f32⟩
  | 15 => ⟨S8, .f32⟩
  | 16 => ⟨S64x64, .f32⟩
  | 17 => ⟨S64, .f32⟩
  | 18 => ⟨S64x64, .f32⟩
  | 19 => ⟨S64, .f32⟩
  | 20 => ⟨S64x64, .f32⟩
  | 21 => ⟨S64, .f32⟩
  | 22 => ⟨S64x64, .f32⟩
  | 23 => ⟨S64, .f32⟩
  | 24 => ⟨S64x64, .f32⟩
  | 25 => ⟨S64, .f32⟩
  | 26 => ⟨S64x2, .f32⟩
  | 27 => ⟨S2, .f32⟩
  | 28 => ⟨S50000x16, .f32⟩
  | 29 => ⟨S1x16, .f32⟩
  | 30 => ⟨S50000x16, .f32⟩
  | 31 => ⟨S50000x16, .f32⟩
  | 32 => ⟨S_, .f32⟩
  | 33 => ⟨S50000x16, .f32⟩
  | 34 => ⟨S50000x16, .i1⟩
  | 35 => ⟨S_, .f32⟩
  | 36 => ⟨S50000x16, .f32⟩
  | 37 => ⟨S50000x16, .f32⟩
  | 38 => ⟨S50000x16, .f32⟩
  | 39 => ⟨S50000x16, .f32⟩
  | 40 => ⟨S1x16, .f32⟩
  | 41 => ⟨S50000x16, .f32⟩
  | 42 => ⟨S50000x16, .f32⟩
  | 43 => ⟨S_, .f32⟩
  | 44 => ⟨S50000x16, .f32⟩
  | 45 => ⟨S50000x16, .i1⟩
  | 46 => ⟨S_, .f32⟩
  | 47 => ⟨S50000x16, .f32⟩
  | 48 => ⟨S50000x16, .f32⟩
  | 49 => ⟨S50000x16, .f32⟩
  | 50 => ⟨S50000x16, .f32⟩
  | 51 => ⟨S1x16, .f32⟩
  | 52 => ⟨S50000x16, .f32⟩
  | 53 => ⟨S50000x16, .f32⟩
  | 54 => ⟨S_, .f32⟩
  | 55 => ⟨S50000x16, .f32⟩
  | 56 => ⟨S50000x16, .i1⟩
  | 57 => ⟨S_, .f32⟩
  | 58 => ⟨S50000x16, .f32⟩
  | 59 => ⟨S50000x16, .f32⟩
  | 60 => ⟨S50000x16, .f32⟩
  | 61 => ⟨S50000x8, .f32⟩
  | 62 => ⟨S1x8, .f32⟩
  | 63 => ⟨S50000x8, .f32⟩
  | 64 => ⟨S50000x8, .f32⟩
  | 65 => ⟨S_, .f32⟩
  | 66 => ⟨S50000x8, .f32⟩
  | 67 => ⟨S50000x8, .i1⟩
  | 68 => ⟨S_, .f32⟩
  | 69 => ⟨S50000x8, .f32⟩
  | 70 => ⟨S50000x8, .f32⟩
  | 71 => ⟨S50000x8, .f32⟩
  | 72 => ⟨S50000x8, .f32⟩
  | 73 => ⟨S1x8, .f32⟩
  | 74 => ⟨S50000x8, .f32⟩
  | 75 => ⟨S50000x8, .f32⟩
  | 76 => ⟨S_, .f32⟩
  | 77 => ⟨S50000x8, .f32⟩
  | 78 => ⟨S50000x8, .i1⟩
  | 79 => ⟨S_, .f32⟩
  | 80 => ⟨S50000x8, .f32⟩
  | 81 => ⟨S50000x8, .f32⟩
  | 82 => ⟨S50000x8, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .i1⟩
  | 91 => ⟨S_, .f32⟩
  | 92 => ⟨S50000x64, .f32⟩
  | 93 => ⟨S50000x64, .f32⟩
  | 94 => ⟨S50000x64, .f32⟩
  | 95 => ⟨S50000, .i32⟩
  | 96 => ⟨S1x1600000, .i32⟩
  | 97 => ⟨S1600000, .i32⟩
  | 98 => ⟨S1650000, .i32⟩
  | 99 => ⟨S1x1600000, .i32⟩
  | 100 => ⟨S1600000, .i32⟩
  | 101 => ⟨S1650000, .i32⟩
  | 102 => ⟨S50000x64, .f32⟩
  | 103 => ⟨S_, .f32⟩
  | 104 => ⟨S1650000, .f32⟩
  | 105 => ⟨S_, .f32⟩
  | 106 => ⟨S50000, .f32⟩
  | 107 => ⟨S1650000x1, .i32⟩
  | 108 => ⟨S50000, .f32⟩
  | 109 => ⟨S_, .f32⟩
  | 110 => ⟨S50000, .f32⟩
  | 111 => ⟨S50000, .i1⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S1650000, .i32⟩
  | 119 => ⟨S1650000, .i1⟩
  | 120 => ⟨S_, .i32⟩
  | 121 => ⟨S1650000, .i32⟩
  | 122 => ⟨S1650000, .i32⟩
  | 123 => ⟨S1650000, .i32⟩
  | 124 => ⟨S1650000x1, .i32⟩
  | 125 => ⟨S1650000, .f32⟩
  | 126 => ⟨S_, .i32⟩
  | 127 => ⟨S1650000, .i32⟩
  | _ => ⟨S50000x768, .f32⟩

abbrev hbmTy0_1 (i : Nat) : BufTy := match i % 128 with
  | 0 => ⟨S1650000, .i1⟩
  | 1 => ⟨S_, .i32⟩
  | 2 => ⟨S1650000, .i32⟩
  | 3 => ⟨S1650000, .i32⟩
  | 4 => ⟨S1650000, .i32⟩
  | 5 => ⟨S1650000x1, .i32⟩
  | 6 => ⟨S1650000, .f32⟩
  | 7 => ⟨S1650000, .f32⟩
  | 8 => ⟨S_, .i32⟩
  | 9 => ⟨S1650000, .i32⟩
  | 10 => ⟨S1650000, .i1⟩
  | 11 => ⟨S_, .i32⟩
  | 12 => ⟨S1650000, .i32⟩
  | 13 => ⟨S1650000, .i32⟩
  | 14 => ⟨S1650000, .i32⟩
  | 15 => ⟨S1650000x1, .i32⟩
  | 16 => ⟨S1650000x64, .f32⟩
  | 17 => ⟨S1650000x1, .f32⟩
  | 18 => ⟨S1650000x64, .f32⟩
  | 19 => ⟨S1650000x64, .f32⟩
  | 20 => ⟨S_, .f32⟩
  | 21 => ⟨S50000x64, .f32⟩
  | 22 => ⟨S1650000x1, .i32⟩
  | 23 => ⟨S50000x64, .f32⟩
  | 24 => ⟨S1x64, .f32⟩
  | 25 => ⟨S50000x64, .f32⟩
  | 26 => ⟨S50000x64, .f32⟩
  | 27 => ⟨S50000x64, .f32⟩
  | 28 => ⟨S50000x64, .f32⟩
  | 29 => ⟨S_, .f32⟩
  | 30 => ⟨S1650000, .f32⟩
  | 31 => ⟨S_, .f32⟩
  | 32 => ⟨S50000, .f32⟩
  | 33 => ⟨S1650000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000, .f32⟩
  | 61 => ⟨S1650000, .f32⟩
  | 62 => ⟨S_, .i32⟩
  | 63 => ⟨S1650000, .i32⟩
  | 64 => ⟨S1650000, .i1⟩
  | 65 => ⟨S_, .i32⟩
  | 66 => ⟨S1650000, .i32⟩
  | 67 => ⟨S1650000, .i32⟩
  | 68 => ⟨S1650000, .i32⟩
  | 69 => ⟨S1650000x1, .i32⟩
  | 70 => ⟨S1650000x64, .f32⟩
  | 71 => ⟨S1650000x1, .f32⟩
  | 72 => ⟨S1650000x64, .f32⟩
  | 73 => ⟨S1650000x64, .f32⟩
  | 74 => ⟨S_, .f32⟩
  | 75 => ⟨S50000x64, .f32⟩
  | 76 => ⟨S1650000x1, .i32⟩
  | 77 => ⟨S50000x64, .f32⟩
  | 78 => ⟨S1x64, .f32⟩
  | 79 => ⟨S50000x64, .f32⟩
  | 80 => ⟨S50000x64, .f32⟩
  | 81 => ⟨S50000x64, .f32⟩
  | 82 => ⟨S50000x64, .f32⟩
  | 83 => ⟨S_, .f32⟩
  | 84 => ⟨S1650000, .f32⟩
  | 85 => ⟨S_, .f32⟩
  | 86 => ⟨S50000, .f32⟩
  | 87 => ⟨S1650000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S1650000, .i32⟩
  | 99 => ⟨S1650000, .i1⟩
  | 100 => ⟨S_, .i32⟩
  | 101 => ⟨S1650000, .i32⟩
  | 102 => ⟨S1650000, .i32⟩
  | 103 => ⟨S1650000, .i32⟩
  | 104 => ⟨S1650000x1, .i32⟩
  | 105 => ⟨S1650000, .f32⟩
  | 106 => ⟨S_, .i32⟩
  | 107 => ⟨S1650000, .i32⟩
  | 108 => ⟨S1650000, .i1⟩
  | 109 => ⟨S_, .i32⟩
  | 110 => ⟨S1650000, .i32⟩
  | 111 => ⟨S1650000, .i32⟩
  | 112 => ⟨S1650000, .i32⟩
  | 113 => ⟨S1650000x1, .i32⟩
  | 114 => ⟨S1650000, .f32⟩
  | 115 => ⟨S1650000, .f32⟩
  | 116 => ⟨S_, .i32⟩
  | 117 => ⟨S1650000, .i32⟩
  | 118 => ⟨S1650000, .i1⟩
  | 119 => ⟨S_, .i32⟩
  | 120 => ⟨S1650000, .i32⟩
  | 121 => ⟨S1650000, .i32⟩
  | 122 => ⟨S1650000, .i32⟩
  | 123 => ⟨S1650000x1, .i32⟩
  | 124 => ⟨S1650000x64, .f32⟩
  | 125 => ⟨S1650000x1, .f32⟩
  | 126 => ⟨S1650000x64, .f32⟩
  | 127 => ⟨S1650000x64, .f32⟩
  | _ => ⟨S50000x768, .f32⟩

abbrev hbmTy0_2 (i : Nat) : BufTy := match i % 128 with
  | 0 => ⟨S_, .f32⟩
  | 1 => ⟨S50000x64, .f32⟩
  | 2 => ⟨S1650000x1, .i32⟩
  | 3 => ⟨S50000x64, .f32⟩
  | 4 => ⟨S1x64, .f32⟩
  | 5 => ⟨S50000x64, .f32⟩
  | 6 => ⟨S50000x64, .f32⟩
  | 7 => ⟨S50000x64, .f32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .i1⟩
  | 15 => ⟨S_, .f32⟩
  | 16 => ⟨S50000x64, .f32⟩
  | 17 => ⟨S50000x64, .f32⟩
  | 18 => ⟨S50000x64, .f32⟩
  | 19 => ⟨S50000x2, .f32⟩
  | 20 => ⟨S1x2, .f32⟩
  | 21 => ⟨S50000x2, .f32⟩
  | 22 => ⟨S50000x2, .f32⟩
  | 23 => ⟨S50000x2, .f32⟩
  | 24 => ⟨S50000x2, .f32⟩
  | 25 => ⟨S_, .f32⟩
  | 26 => ⟨S50000x2, .f32⟩
  | 27 => ⟨S50000x2, .f32⟩
  | 28 => ⟨S_, .f32⟩
  | 29 => ⟨S50000x2, .f32⟩
  | 30 => ⟨S50000x2, .f32⟩
  | _ => ⟨S50000x768, .f32⟩

abbrev hbmTy (i : Nat) : BufTy := match i / 128 with
  | 0 => hbmTy0_0 i
  | 1 => hbmTy0_1 i
  | 2 => hbmTy0_2 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_v5 : Ref sig .tc := ⟨.hbm, 34, rfl⟩
abbrev main_cst_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_5 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_cst_10 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_11 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_13 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_14 : Ref sig .tc := ⟨.hbm, 113, rfl⟩
abbrev main_call6_v0 : Ref sig .tc := ⟨.hbm, 114, rfl⟩
abbrev main_call6_v1 : Ref sig .tc := ⟨.hbm, 115, rfl⟩
abbrev main_v70 : Ref sig .tc := ⟨.hbm, 116, rfl⟩
abbrev main_c : Ref sig .tc := ⟨.hbm, 117, rfl⟩
abbrev main_v71 : Ref sig .tc := ⟨.hbm, 118, rfl⟩
abbrev main_v72 : Ref sig .tc := ⟨.hbm, 119, rfl⟩
abbrev main_c_15 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_16 : Ref sig .tc := ⟨.hbm, 126, rfl⟩
abbrev main_v78 : Ref sig .tc := ⟨.hbm, 127, rfl⟩
abbrev main_v79 : Ref sig .tc := ⟨.hbm, 128, rfl⟩
abbrev main_c_17 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_c_18 : Ref sig .tc := ⟨.hbm, 136, rfl⟩
abbrev main_v86 : Ref sig .tc := ⟨.hbm, 137, rfl⟩
abbrev main_v87 : Ref sig .tc := ⟨.hbm, 138, rfl⟩
abbrev main_c_19 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_20 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_21 : Ref sig .tc := ⟨.hbm, 157, rfl⟩
abbrev main_v104 : Ref sig .tc := ⟨.hbm, 158, rfl⟩
abbrev main_cst_22 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_23 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_24 : Ref sig .tc := ⟨.hbm, 167, rfl⟩
abbrev main_call7_v0 : Ref sig .tc := ⟨.hbm, 168, rfl⟩
abbrev main_call7_v1 : Ref sig .tc := ⟨.hbm, 169, rfl⟩
abbrev main_v111 : Ref sig .tc := ⟨.hbm, 170, rfl⟩
abbrev main_c_25 : Ref sig .tc := ⟨.hbm, 171, rfl⟩
abbrev main_v112 : Ref sig .tc := ⟨.hbm, 172, rfl⟩
abbrev main_v113 : Ref sig .tc := ⟨.hbm, 173, rfl⟩
abbrev main_c_26 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_c_27 : Ref sig .tc := ⟨.hbm, 180, rfl⟩
abbrev main_v119 : Ref sig .tc := ⟨.hbm, 181, rfl⟩
abbrev main_v120 : Ref sig .tc := ⟨.hbm, 182, rfl⟩
abbrev main_c_28 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_c_29 : Ref sig .tc := ⟨.hbm, 190, rfl⟩
abbrev main_v127 : Ref sig .tc := ⟨.hbm, 191, rfl⟩
abbrev main_v128 : Ref sig .tc := ⟨.hbm, 192, rfl⟩
abbrev main_c_30 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_cst_31 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_32 : Ref sig .tc := ⟨.hbm, 211, rfl⟩
abbrev main_v145 : Ref sig .tc := ⟨.hbm, 212, rfl⟩
abbrev main_cst_33 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_34 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_cst_35 : Ref sig .tc := ⟨.hbm, 221, rfl⟩
abbrev main_call8_v0 : Ref sig .tc := ⟨.hbm, 222, rfl⟩
abbrev main_call8_v1 : Ref sig .tc := ⟨.hbm, 223, rfl⟩
abbrev main_v152 : Ref sig .tc := ⟨.hbm, 224, rfl⟩
abbrev main_c_36 : Ref sig .tc := ⟨.hbm, 225, rfl⟩
abbrev main_v153 : Ref sig .tc := ⟨.hbm, 226, rfl⟩
abbrev main_v154 : Ref sig .tc := ⟨.hbm, 227, rfl⟩
abbrev main_c_37 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_c_38 : Ref sig .tc := ⟨.hbm, 234, rfl⟩
abbrev main_v160 : Ref sig .tc := ⟨.hbm, 235, rfl⟩
abbrev main_v161 : Ref sig .tc := ⟨.hbm, 236, rfl⟩
abbrev main_c_39 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_c_40 : Ref sig .tc := ⟨.hbm, 244, rfl⟩
abbrev main_v168 : Ref sig .tc := ⟨.hbm, 245, rfl⟩
abbrev main_v169 : Ref sig .tc := ⟨.hbm, 246, rfl⟩
abbrev main_c_41 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_cst_42 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_cst_43 : Ref sig .tc := ⟨.hbm, 268, rfl⟩
abbrev main_v189 : Ref sig .tc := ⟨.hbm, 269, rfl⟩
abbrev main_v190 : Ref sig .tc := ⟨.hbm, 270, rfl⟩
abbrev main_cst_44 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_cst_45 : Ref sig .tc := ⟨.hbm, 281, rfl⟩
abbrev main_v200 : Ref sig .tc := ⟨.hbm, 282, rfl⟩
abbrev main_v201 : Ref sig .tc := ⟨.hbm, 283, rfl⟩
abbrev main_cst_46 : Ref sig .tc := ⟨.hbm, 284, rfl⟩
abbrev main_v202 : Ref sig .tc := ⟨.hbm, 285, rfl⟩
abbrev main_v203 : Ref sig .tc := ⟨.hbm, 286, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  bcast_S_S50000x8 : S_.BroadcastsInDim S50000x8 (![] : Fin 0 → Fin S50000x8.rank)
  concatenates_S50000x16_S50000x16_S50000x16_S50000x8_S50000x8_S50000x64_d1 : Shape.Concatenates [S50000x16, S50000x16, S50000x16, S50000x8, S50000x8] S50000x64 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  dot_S50000x768_S768x16_S50000x16_1_0_0_1_n_n_wf : DotDims.WF S50000x768 S768x16 S50000x16 [1] [0] [0] [1] [] []
  dot_S50000x5_S5x8_S50000x8_1_0_0_1_n_n_wf : DotDims.WF S50000x5 S5x8 S50000x8 [1] [0] [0] [1] [] []
  dot_S50000x7_S7x8_S50000x8_1_0_0_1_n_n_wf : DotDims.WF S50000x7 S7x8 S50000x8 [1] [0] [0] [1] [] []
  dot_S50000x64_S64x64_S50000x64_1_0_0_1_n_n_wf : DotDims.WF S50000x64 S64x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x2_S50000x2_1_0_0_1_n_n_wf : DotDims.WF S50000x64 S64x2 S50000x2 [1] [0] [0] [1] [] []

variable [Facts₀]

def dot_S50000x768_S768x16_S50000x16_1_0_0_1_n_n : DotDims S50000x768 S768x16 S50000x16 where
  lhsContracting := [1]
  rhsContracting := [0]
  lhsNonContracting := [0]
  rhsNonContracting := [1]
  lhsBatch := []
  rhsBatch := []
  wf := dot_S50000x768_S768x16_S50000x16_1_0_0_1_n_n_wf
def dot_S50000x5_S5x8_S50000x8_1_0_0_1_n_n : DotDims S50000x5 S5x8 S50000x8 where
  lhsContracting := [1]
  rhsContracting := [0]
  lhsNonContracting := [0]
  rhsNonContracting := [1]
  lhsBatch := []
  rhsBatch := []
  wf := dot_S50000x5_S5x8_S50000x8_1_0_0_1_n_n_wf
def dot_S50000x7_S7x8_S50000x8_1_0_0_1_n_n : DotDims S50000x7 S7x8 S50000x8 where
  lhsContracting := [1]
  rhsContracting := [0]
  lhsNonContracting := [0]
  rhsNonContracting := [1]
  lhsBatch := []
  rhsBatch := []
  wf := dot_S50000x7_S7x8_S50000x8_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelRun.lean ====
/-
  The idealized kernel program's run, with its result kept.

  @main is eleven segments: five kernel launches and the stretches of host operations between them.  The run
  below follows every weakly fair execution through them.  Each boundary between two segments has a known
  contents for every buffer that lives across segments: a stretch of host operations leaves what its
  operations compute from the contents before it, and a launch leaves each of its arrays at what its grid's
  write-backs fold to and every other buffer as it was.  At the return the buffer of the last launch's output,
  which is @main's result, therefore holds the last boundary's contents of that buffer, and the twenty-eight
  argument arrays hold what they held at launch, since no segment writes one.
-/
import proofs.«129910_j60979945669188_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents of it, and every argument array ends as launched. -/
theorem run : θ_run defs (onTc (τ := τ) (main (F := F))) ⟨m, fun _ => 0, ρ⟩ (fun r => ∀ c : Dev nD,
      r.2.mem ((c.tc : Thread nD τ).loc main_v85) = W11 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v85 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c),
       (h c _ (mem_uc main_arg22 (by decide))).trans (W11_main_arg22 m ρ c),
       (h c _ (mem_uc main_arg23 (by decide))).trans (W11_main_arg23 m ρ c),
       (h c _ (mem_uc main_arg24 (by decide))).trans (W11_main_arg24 m ρ c),
       (h c _ (mem_uc main_arg25 (by decide))).trans (W11_main_arg25 m ρ c),
       (h c _ (mem_uc main_arg26 (by decide))).trans (W11_main_arg26 m ρ c),
       (h c _ (mem_uc main_arg27 (by decide))).trans (W11_main_arg27 m ρ c)⟩)

end Cert.KernelIdeal.RunValue

end
-- ==== Proof.Boundaries.lean ====
/-
  Which buffers each segment of the kernel program leaves alone.

  Between two segments of @main every buffer that lives across segments has a known contents; boundary 0 is the
  launch memory, boundary 1 follows the encoder's launch, boundaries 2, 3, 4 the three stretches that compute
  the edges' indices and normalisation, boundary 5 the first layer's launch, and so on to boundary 10, where the
  head's launch starts.  A launch rewrites only its own arrays, and a stretch of host operations only the
  buffers its operations name as results.  So a buffer written once and read several segments later still
  holds, where it is read, what it held where it was written: each lemma below walks one buffer back across the
  segments between, one step per segment.  Nothing here looks at what any buffer holds.
-/
import proofs.«129910_j60979945669188_1_alg».proof.Proof.Gen.KernelIdeal.Frame

set_option maxRecDepth 16384

noncomputable section

namespace Cert.KernelIdeal.Boundaries

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer that none of its operations writes: every operation's result
    buffer is compared with it. -/
macro "stretch_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes,
    StableHlo.binaryIndexed_writes, Finset.mem_singleton]
  repeat' apply And.intro
  all_goals exact StableHlo.devRef_ne_of_ne (by decide)))

/-- The encoder's second output, read by the first layer's launch: untouched from boundary 1 to boundary 4. -/
theorem W4_main_v0_1_from1 (c : Dev nD) : W4 m ρ c (Proc.devRef .tc main_v0_1) = W1 m ρ c (Proc.devRef .tc main_v0_1) :=
  calc W4 m ρ c (Proc.devRef .tc main_v0_1)
    _ = W3 m ρ c (Proc.devRef .tc main_v0_1) := by stretch_keeps hostOps1_2
    _ = W2 m ρ c (Proc.devRef .tc main_v0_1) := by stretch_keeps hostOps1_1
    _ = W1 m ρ c (Proc.devRef .tc main_v0_1) := by stretch_keeps hostOps1

/-- The first layer's weights: untouched from boundary 0 to boundary 4. -/
theorem W4_main_arg18_from0 (c : Dev nD) : W4 m ρ c (Proc.devRef .tc main_arg18) = W0 m ρ c (Proc.devRef .tc main_arg18) :=
  calc W4 m ρ c (Proc.devRef .tc main_arg18)
    _ = W3 m ρ c (Proc.devRef .tc main_arg18) := by stretch_keeps hostOps1_2
    _ = W2 m ρ c (Proc.devRef .tc main_arg18) := by stretch_keeps hostOps1_1
    _ = W1 m ρ c (Proc.devRef .tc main_arg18) := by stretch_keeps hostOps1
    _ = W0 m ρ c (Proc.devRef .tc main_arg18) := W1_of_ne m ρ c main_arg18 (by decide)

/-- The edge list, read by the first stretch: untouched from boundary 0 to boundary 1. -/
theorem W1_main_arg5_from0 (c : Dev nD) : W1 m ρ c (Proc.devRef .tc main_arg5) = W0 m ρ c (Proc.devRef .tc main_arg5) :=
  calc W1 m ρ c (Proc.devRef .tc main_arg5)
    _ = W0 m ρ c (Proc.devRef .tc main_arg5) := W1_of_ne m ρ c main_arg5 (by decide)

/-- The source index of every edge and self-loop: untouched from boundary 2 to boundary 5. -/
theorem W5_main_v4_from2 (c : Dev nD) : W5 m ρ c (Proc.devRef .tc main_v4) = W2 m ρ c (Proc.devRef .tc main_v4) :=
  calc W5 m ρ c (Proc.devRef .tc main_v4)
    _ = W4 m ρ c (Proc.devRef .tc main_v4) := W5_of_ne m ρ c main_v4 (by decide)
    _ = W3 m ρ c (Proc.devRef .tc main_v4) := by stretch_keeps hostOps1_2
    _ = W2 m ρ c (Proc.devRef .tc main_v4) := by stretch_keeps hostOps1_1

theorem W7_main_v4_from5 (c : Dev nD) : W7 m ρ c (Proc.devRef .tc main_v4) = W5 m ρ c (Proc.devRef .tc main_v4) :=
  calc W7 m ρ c (Proc.devRef .tc main_v4)
    _ = W6 m ρ c (Proc.devRef .tc main_v4) := W7_of_ne m ρ c main_v4 (by decide)
    _ = W5 m ρ c (Proc.devRef .tc main_v4) := by stretch_keeps hostOps2

theorem W9_main_v4_from7 (c : Dev nD) : W9 m ρ c (Proc.devRef .tc main_v4) = W7 m ρ c (Proc.devRef .tc main_v4) :=
  calc W9 m ρ c (Proc.devRef .tc main_v4)
    _ = W8 m ρ c (Proc.devRef .tc main_v4) := W9_of_ne m ρ c main_v4 (by decide)
    _ = W7 m ρ c (Proc.devRef .tc main_v4) := by stretch_keeps hostOps3

/-- The target index of every edge and self-loop: untouched from boundary 2 to boundary 5. -/
theorem W5_main_v7_from2 (c : Dev nD) : W5 m ρ c (Proc.devRef .tc main_v7) = W2 m ρ c (Proc.devRef .tc main_v7) :=
  calc W5 m ρ c (Proc.devRef .tc main_v7)
    _ = W4 m ρ c (Proc.devRef .tc main_v7) := W5_of_ne m ρ c main_v7 (by decide)
    _ = W3 m ρ c (Proc.devRef .tc main_v7) := by stretch_keeps hostOps1_2
    _ = W2 m ρ c (Proc.devRef .tc main_v7) := by stretch_keeps hostOps1_1

theorem W7_main_v7_from5 (c : Dev nD) : W7 m ρ c (Proc.devRef .tc main_v7) = W5 m ρ c (Proc.devRef .tc main_v7) :=
  calc W7 m ρ c (Proc.devRef .tc main_v7)
    _ = W6 m ρ c (Proc.devRef .tc main_v7) := W7_of_ne m ρ c main_v7 (by decide)
    _ = W5 m ρ c (Proc.devRef .tc main_v7) := by stretch_keeps hostOps2

theorem W9_main_v7_from7 (c : Dev nD) : W9 m ρ c (Proc.devRef .tc main_v7) = W7 m ρ c (Proc.devRef .tc main_v7) :=
  calc W9 m ρ c (Proc.devRef .tc main_v7)
    _ = W8 m ρ c (Proc.devRef .tc main_v7) := W9_of_ne m ρ c main_v7 (by decide)
    _ = W7 m ρ c (Proc.devRef .tc main_v7) := by stretch_keeps hostOps3

/-- The normalisation factor of every edge and self-loop: untouched from boundary 4 to boundary 5. -/
theorem W5_main_v30_from4 (c : Dev nD) : W5 m ρ c (Proc.devRef .tc main_v30) = W4 m ρ c (Proc.devRef .tc main_v30) :=
  calc W5 m ρ c (Proc.devRef .tc main_v30)
    _ = W4 m ρ c (Proc.devRef .tc main_v30) := W5_of_ne m ρ c main_v30 (by decide)

theorem W7_main_v30_from5 (c : Dev nD) : W7 m ρ c (Proc.devRef .tc main_v30) = W5 m ρ c (Proc.devRef .tc main_v30) :=
  calc W7 m ρ c (Proc.devRef .tc main_v30)
    _ = W6 m ρ c (Proc.devRef .tc main_v30) := W7_of_ne m ρ c main_v30 (by decide)
    _ = W5 m ρ c (Proc.devRef .tc main_v30) := by stretch_keeps hostOps2

theorem W9_main_v30_from7 (c : Dev nD) : W9 m ρ c (Proc.devRef .tc main_v30) = W7 m ρ c (Proc.devRef .tc main_v30) :=
  calc W9 m ρ c (Proc.devRef .tc main_v30)
    _ = W8 m ρ c (Proc.devRef .tc main_v30) := W9_of_ne m ρ c main_v30 (by decide)
    _ = W7 m ρ c (Proc.devRef .tc main_v30) := by stretch_keeps hostOps3

/-- The encoder's first output, added back after every layer: untouched from boundary 1 to boundary 5. -/
theorem W5_main_v0_0_from1 (c : Dev nD) : W5 m ρ c (Proc.devRef .tc main_v0_0) = W1 m ρ c (Proc.devRef .tc main_v0_0) :=
  calc W5 m ρ c (Proc.devRef .tc main_v0_0)
    _ = W4 m ρ c (Proc.devRef .tc main_v0_0) := W5_of_ne m ρ c main_v0_0 (by decide)
    _ = W3 m ρ c (Proc.devRef .tc main_v0_0) := by stretch_keeps hostOps1_2
    _ = W2 m ρ c (Proc.devRef .tc main_v0_0) := by stretch_keeps hostOps1_1
    _ = W1 m ρ c (Proc.devRef .tc main_v0_0) := by stretch_keeps hostOps1

theorem W7_main_v0_0_from5 (c : Dev nD) : W7 m ρ c (Proc.devRef .tc main_v0_0) = W5 m ρ c (Proc.devRef .tc main_v0_0) :=
  calc W7 m ρ c (Proc.devRef .tc main_v0_0)
    _ = W6 m ρ c (Proc.devRef .tc main_v0_0) := W7_of_ne m ρ c main_v0_0 (by decide)
    _ = W5 m ρ c (Proc.devRef .tc main_v0_0) := by stretch_keeps hostOps2

theorem W9_main_v0_0_from7 (c : Dev nD) : W9 m ρ c (Proc.devRef .tc main_v0_0) = W7 m ρ c (Proc.devRef .tc main_v0_0) :=
  calc W9 m ρ c (Proc.devRef .tc main_v0_0)
    _ = W8 m ρ c (Proc.devRef .tc main_v0_0) := W9_of_ne m ρ c main_v0_0 (by decide)
    _ = W7 m ρ c (Proc.devRef .tc main_v0_0) := by stretch_keeps hostOps3

/-- The first layer's bias: untouched from boundary 0 to boundary 5. -/
theorem W5_main_arg19_from0 (c : Dev nD) : W5 m ρ c (Proc.devRef .tc main_arg19) = W0 m ρ c (Proc.devRef .tc main_arg19) :=
  calc W5 m ρ c (Proc.devRef .tc main_arg19)
    _ = W4 m ρ c (Proc.devRef .tc main_arg19) := W5_of_ne m ρ c main_arg19 (by decide)
    _ = W3 m ρ c (Proc.devRef .tc main_arg19) := by stretch_keeps hostOps1_2
    _ = W2 m ρ c (Proc.devRef .tc main_arg19) := by stretch_keeps hostOps1_1
    _ = W1 m ρ c (Proc.devRef .tc main_arg19) := by stretch_keeps hostOps1
    _ = W0 m ρ c (Proc.devRef .tc main_arg19) := W1_of_ne m ρ c main_arg19 (by decide)

/-- The second layer's weights: untouched from boundary 0 to boundary 6. -/
theorem W6_main_arg20_from0 (c : Dev nD) : W6 m ρ c (Proc.devRef .tc main_arg20) = W0 m ρ c (Proc.devRef .tc main_arg20) :=
  calc W6 m ρ c (Proc.devRef .tc main_arg20)
    _ = W5 m ρ c (Proc.devRef .tc main_arg20) := by stretch_keeps hostOps2
    _ = W4 m ρ c (Proc.devRef .tc main_arg20) := W5_of_ne m ρ c main_arg20 (by decide)
    _ = W3 m ρ c (Proc.devRef .tc main_arg20) := by stretch_keeps hostOps1_2
    _ = W2 m ρ c (Proc.devRef .tc main_arg20) := by stretch_keeps hostOps1_1
    _ = W1 m ρ c (Proc.devRef .tc main_arg20) := by stretch_keeps hostOps1
    _ = W0 m ρ c (Proc.devRef .tc main_arg20) := W1_of_ne m ρ c main_arg20 (by decide)

/-- The second layer's bias: untouched from boundary 0 to boundary 7. -/
theorem W7_main_arg21_from0 (c : Dev nD) : W7 m ρ c (Proc.devRef .tc main_arg21) = W0 m ρ c (Proc.devRef .tc main_arg21) :=
  calc W7 m ρ c (Proc.devRef .tc main_arg21)
    _ = W6 m ρ c (Proc.devRef .tc main_arg21) := W7_of_ne m ρ c main_arg21 (by decide)
    _ = W5 m ρ c (Proc.devRef .tc main_arg21) := by stretch_keeps hostOps2
    _ = W4 m ρ c (Proc.devRef .tc main_arg21) := W5_of_ne m ρ c main_arg21 (by decide)
    _ = W3 m ρ c (Proc.devRef .tc main_arg21) := by stretch_keeps hostOps1_2
    _ = W2 m ρ c (Proc.devRef .tc main_arg21) := by stretch_keeps hostOps1_1
    _ = W1 m ρ c (Proc.devRef .tc main_arg21) := by stretch_keeps hostOps1
    _ = W0 m ρ c (Proc.devRef .tc main_arg21) := W1_of_ne m ρ c main_arg21 (by decide)

/-- The third layer's weights: untouched from boundary 0 to boundary 8. -/
theorem W8_main_arg22_from0 (c : Dev nD) : W8 m ρ c (Proc.devRef .tc main_arg22) = W0 m ρ c (Proc.devRef .tc main_arg22) :=
  calc W8 m ρ c (Proc.devRef .tc main_arg22)
    _ = W7 m ρ c (Proc.devRef .tc main_arg22) := by stretch_keeps hostOps3
    _ = W6 m ρ c (Proc.devRef .tc main_arg22) := W7_of_ne m ρ c main_arg22 (by decide)
    _ = W5 m ρ c (Proc.devRef .tc main_arg22) := by stretch_keeps hostOps2
    _ = W4 m ρ c (Proc.devRef .tc main_arg22) := W5_of_ne m ρ c main_arg22 (by decide)
    _ = W3 m ρ c (Proc.devRef .tc main_arg22) := by stretch_keeps hostOps1_2
    _ = W2 m ρ c (Proc.devRef .tc main_arg22) := by stretch_keeps hostOps1_1
    _ = W1 m ρ c (Proc.devRef .tc main_arg22) := by stretch_keeps hostOps1
    _ = W0 m ρ c (Proc.devRef .tc main_arg22) := W1_of_ne m ρ c main_arg22 (by decide)

/-- The third layer's bias: untouched from boundary 0 to boundary 9. -/
theorem W9_main_arg23_from0 (c : Dev nD) : W9 m ρ c (Proc.devRef .tc main_arg23) = W0 m ρ c (Proc.devRef .tc main_arg23) :=
  calc W9 m ρ c (Proc.devRef .tc main_arg23)
    _ = W8 m ρ c (Proc.devRef .tc main_arg23) := W9_of_ne m ρ c main_arg23 (by decide)
    _ = W7 m ρ c (Proc.devRef .tc main_arg23) := by stretch_keeps hostOps3
    _ = W6 m ρ c (Proc.devRef .tc main_arg23) := W7_of_ne m ρ c main_arg23 (by decide)
    _ = W5 m ρ c (Proc.devRef .tc main_arg23) := by stretch_keeps hostOps2
    _ = W4 m ρ c (Proc.devRef .tc main_arg23) := W5_of_ne m ρ c main_arg23 (by decide)
    _ = W3 m ρ c (Proc.devRef .tc main_arg23) := by stretch_keeps hostOps1_2
    _ = W2 m ρ c (Proc.devRef .tc main_arg23) := by stretch_keeps hostOps1_1
    _ = W1 m ρ c (Proc.devRef .tc main_arg23) := by stretch_keeps hostOps1
    _ = W0 m ρ c (Proc.devRef .tc main_arg23) := W1_of_ne m ρ c main_arg23 (by decide)

/-- The head's first weights: untouched from boundary 0 to boundary 10. -/
theorem W10_main_arg24_from0 (c : Dev nD) : W10 m ρ c (Proc.devRef .tc main_arg24) = W0 m ρ c (Proc.devRef .tc main_arg24) :=
  calc W10 m ρ c (Proc.devRef .tc main_arg24)
    _ = W9 m ρ c (Proc.devRef .tc main_arg24) := by stretch_keeps hostOps4
    _ = W8 m ρ c (Proc.devRef .tc main_arg24) := W9_of_ne m ρ c main_arg24 (by decide)
    _ = W7 m ρ c (Proc.devRef .tc main_arg24) := by stretch_keeps hostOps3
    _ = W6 m ρ c (Proc.devRef .tc main_arg24) := W7_of_ne m ρ c main_arg24 (by decide)
    _ = W5 m ρ c (Proc.devRef .tc main_arg24) := by stretch_keeps hostOps2
    _ = W4 m ρ c (Proc.devRef .tc main_arg24) := W5_of_ne m ρ c main_arg24 (by decide)
    _ = W3 m ρ c (Proc.devRef .tc main_arg24) := by stretch_keeps hostOps1_2
    _ = W2 m ρ c (Proc.devRef .tc main_arg24) := by stretch_keeps hostOps1_1
    _ = W1 m ρ c (Proc.devRef .tc main_arg24) := by stretch_keeps hostOps1
    _ = W0 m ρ c (Proc.devRef .tc main_arg24) := W1_of_ne m ρ c main_arg24 (by decide)

/-- The head's first bias: untouched from boundary 0 to boundary 10. -/
theorem W10_main_arg25_from0 (c : Dev nD) : W10 m ρ c (Proc.devRef .tc main_arg25) = W0 m ρ c (Proc.devRef .tc main_arg25) :=
  calc W10 m ρ c (Proc.devRef .tc main_arg25)
    _ = W9 m ρ c (Proc.devRef .tc main_arg25) := by stretch_keeps hostOps4
    _ = W8 m ρ c (Proc.devRef .tc main_arg25) := W9_of_ne m ρ c main_arg25 (by decide)
    _ = W7 m ρ c (Proc.devRef .tc main_arg25) := by stretch_keeps hostOps3
    _ = W6 m ρ c (Proc.devRef .tc main_arg25) := W7_of_ne m ρ c main_arg25 (by decide)
    _ = W5 m ρ c (Proc.devRef .tc main_arg25) := by stretch_keeps hostOps2
    _ = W4 m ρ c (Proc.devRef .tc main_arg25) := W5_of_ne m ρ c main_arg25 (by decide)
    _ = W3 m ρ c (Proc.devRef .tc main_arg25) := by stretch_keeps hostOps1_2
    _ = W2 m ρ c (Proc.devRef .tc main_arg25) := by stretch_keeps hostOps1_1
    _ = W1 m ρ c (Proc.devRef .tc main_arg25) := by stretch_keeps hostOps1
    _ = W0 m ρ c (Proc.devRef .tc main_arg25) := W1_of_ne m ρ c main_arg25 (by decide)

/-- The head's second weights: untouched from boundary 0 to boundary 10. -/
theorem W10_main_arg26_from0 (c : Dev nD) : W10 m ρ c (Proc.devRef .tc main_arg26) = W0 m ρ c (Proc.devRef .tc main_arg26) :=
  calc W10 m ρ c (Proc.devRef .tc main_arg26)
    _ = W9 m ρ c (Proc.devRef .tc main_arg26) := by stretch_keeps hostOps4
    _ = W8 m ρ c (Proc.devRef .tc main_arg26) := W9_of_ne m ρ c main_arg26 (by decide)
    _ = W7 m ρ c (Proc.devRef .tc main_arg26) := by stretch_keeps hostOps3
    _ = W6 m ρ c (Proc.devRef .tc main_arg26) := W7_of_ne m ρ c main_arg26 (by decide)
    _ = W5 m ρ c (Proc.devRef .tc main_arg26) := by stretch_keeps hostOps2
    _ = W4 m ρ c (Proc.devRef .tc main_arg26) := W5_of_ne m ρ c main_arg26 (by decide)
    _ = W3 m ρ c (Proc.devRef .tc main_arg26) := by stretch_keeps hostOps1_2
    _ = W2 m ρ c (Proc.devRef .tc main_arg26) := by stretch_keeps hostOps1_1
    _ = W1 m ρ c (Proc.devRef .tc main_arg26) := by stretch_keeps hostOps1
    _ = W0 m ρ c (Proc.devRef .tc main_arg26) := W1_of_ne m ρ c main_arg26 (by decide)

/-- The head's second bias: untouched from boundary 0 to boundary 10. -/
theorem W10_main_arg27_from0 (c : Dev nD) : W10 m ρ c (Proc.devRef .tc main_arg27) = W0 m ρ c (Proc.devRef .tc main_arg27) :=
  calc W10 m ρ c (Proc.devRef .tc main_arg27)
    _ = W9 m ρ c (Proc.devRef .tc main_arg27) := by stretch_keeps hostOps4
    _ = W8 m ρ c (Proc.devRef .tc main_arg27) := W9_of_ne m ρ c main_arg27 (by decide)
    _ = W7 m ρ c (Proc.devRef .tc main_arg27) := by stretch_keeps hostOps3
    _ = W6 m ρ c (Proc.devRef .tc main_arg27) := W7_of_ne m ρ c main_arg27 (by decide)
    _ = W5 m ρ c (Proc.devRef .tc main_arg27) := by stretch_keeps hostOps2
    _ = W4 m ρ c (Proc.devRef .tc main_arg27) := W5_of_ne m ρ c main_arg27 (by decide)
    _ = W3 m ρ c (Proc.devRef .tc main_arg27) := by stretch_keeps hostOps1_2
    _ = W2 m ρ c (Proc.devRef .tc main_arg27) := by stretch_keeps hostOps1_1
    _ = W1 m ρ c (Proc.devRef .tc main_arg27) := by stretch_keeps hostOps1
    _ = W0 m ρ c (Proc.devRef .tc main_arg27) := W1_of_ne m ρ c main_arg27 (by decide)

end Cert.KernelIdeal.Boundaries

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibRowProduct.lean ====
/-
  The dense product of two matrices of extended reals, as one whole-array function.

  For `X : [a, K]` and `W : [K, b]` the product is, at the entry `(r, q)`, the sum over `k < K` of
  `X (r, k) · W (k, q)` (`rowProduct`).  Sums and products on the extended reals are those of a commutative
  monoid, so the order and grouping of the sum never matter and no entry need be finite.

  Two readings of that one function are joined here, for any extents and any float formats of the operands:
  • the host's `dot_general` contracting the one shared axis IS the product, as whole arrays
    (`dotGeneral_eq_rowProduct`) — the dimension numbers enter only through four coordinate facts (which operand
    coordinate is the output's, which is the contraction's), so the lemma serves any record;
  • a product into a zero accumulator whose left operand has first passed through a change of float format
    (the identity on the extended reals) is, at any entry, the same sum (`matmul_trunc_entry`).
  Since entry `(r, q)` reads only row `r` of `X`, a row block of the product is the product of the same row
  block of `X` with `W`: a grid over row blocks computes the product block by block, and a certificate reads
  the blocks' entries with the second lemma and the whole array with the first.
  (It imports LibRowOps.lean, which sits beside it.)
-/
import proofs.«129910_j60979945669188_1_alg».proof.Proof.LibRowOps

noncomputable section

namespace Cert.RowProduct

open Idealize.ShloMosaic Idealize.ShloMosaic.ValueIdx
open scoped BigOperators

/-- The matrix product `X · W`, entry by entry: `(X · W) (r, q) = ∑ k, X (r, k) · W (k, q)`. -/
def rowProduct {a K b : ℕ} {φ₁ φ₂ : FTy} (x : FVec Ideal ⟨2, ![a, K]⟩ φ₁) (w : FVec Ideal ⟨2, ![K, b]⟩ φ₂) :
    FVec Ideal ⟨2, ![a, b]⟩ .f32 :=
  fun i => ∑ k : Fin K, x (ix2 (i 0) k) * w (ix2 k (i 1))

theorem rowProduct_entry {a K b : ℕ} {φ₁ φ₂ : FTy} (x : FVec Ideal ⟨2, ![a, K]⟩ φ₁) (w : FVec Ideal ⟨2, ![K, b]⟩ φ₂)
    (r : Fin a) (q : Fin b) : rowProduct x w (ix2 r q) = ∑ k : Fin K, x (ix2 r k) * w (ix2 k q) := rfl

/-- The host's product contracting the shared axis is the product. -/
theorem dotGeneral_eq_rowProduct {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x : FVec Ideal ⟨2, ![a, K]⟩ φ₁) (w : FVec Ideal ⟨2, ![K, b]⟩ φ₂) :
    Host.dotGeneral (F := Ideal) d prec x w = rowProduct x w := by
  funext i
  obtain ⟨r, q, rfl⟩ : ∃ (r : Fin a) (q : Fin b), i = ix2 r q := ⟨i 0, i 1, eq_ix2 i⟩
  exact Cert.RowOps.dotGeneral_entry d hr hs hl0 hl1 hr0 hr1 prec x w r q

/-- A product into a zero accumulator whose left operand was first narrowed to another float format: on the
    extended reals the narrowing is the identity, so the entry is the plain sum over the contracted axis. -/
theorem matmul_trunc_entry {a K b : ℕ} {φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, b]⟩ φ₂) (h : FTy.bits .bf16 < FTy.bits .f32)
    (j : (⟨2, ![a, b]⟩ : Shape).Idx) :
    matmul d none (truncf .bf16 x h) w (constant (F := Ideal) ⟨2, ![a, b]⟩ .f32 0x00000000#32) j
      = ∑ k : Fin K, x (ix2 (j 0) k) * w (ix2 k (j 1)) := by
  obtain ⟨r, q, rfl⟩ : ∃ (r : Fin a) (q : Fin b), j = ix2 r q := ⟨j 0, j 1, eq_ix2 j⟩
  exact (Cert.RowOps.matmul_zero_entry d hr hs hl0 hl1 hr0 hr1 none (truncf .bf16 x h) w r q).trans
    (Finset.sum_congr rfl fun k _ => rfl)

end Cert.RowProduct

end
-- ==== Proof.LibDualLinear.lean ====
/-
  Two matrix products added to a row of biases, on the extended reals, read at an entry.

  For matrices `x₁, x₂ : [a, K]`, `w₁, w₂ : [K, n]` and a bias per column, the entry `(r, q)` of
  `x₁ · w₁ + x₂ · w₂ + b` is `(∑ₖ x₁(r,k) · w₁(k,q)) + (∑ₖ x₂(r,k) · w₂(k,q)) + b(q)`.  The same number is
  reached two ways: by two products into zero accumulators, added, plus the bias row repeated down the rows
  (`kernel_entry`), and by two host products, added, plus the bias vector laid out as one row and then repeated
  (`host_entry`).  Only the order of the additions matters here, and it is the same on both sides, so nothing
  is asked of the numbers: the lemmas hold for every extended real.

  Last, a product over a contraction axis of extent `K + K'` whose left operand is two matrices side by side is
  the sum of the two products over `K` and `K'` (`sum_split`): a finite sum split at `K`.
-/
import Idealize.ShloMosaic.Lib.Pipeline.Value
import Idealize.ShloMosaic.Lib.ValueIdx
import Idealize.ShloMosaic.PureOps.Ideal.Laws
import proofs.«129910_j60979945669188_1_alg».proof.Proof.LibRowOps

namespace Cert.DualLinear

open Idealize.ShloMosaic Idealize.ShloMosaic.ValueIdx
open scoped BigOperators

/-- Entry `(r, q)` of `x₁ · w₁ + x₂ · w₂ + b`. -/
noncomputable def entry {a K n : ℕ} {φ₁ φ₂ : FTy} (x1 x2 : FVec Ideal ⟨2, ![a, K]⟩ φ₁) (w1 w2 : FVec Ideal ⟨2, ![K, n]⟩ φ₂)
    (b : Fin n → EReal) (r : Fin a) (q : Fin n) : EReal :=
  (∑ k : Fin K, x1 (ix2 r k) * w1 (ix2 k q)) + (∑ k : Fin K, x2 (ix2 r k) * w2 (ix2 k q)) + b q

/-- The entry depends only on row `r` of the left matrices, column `q` of the right ones and the bias of column `q`:
    two settings that agree there, of whatever extents, have the same entry. -/
theorem entry_congr {a a' K n n' : ℕ} {φ₁ φ₂ φ₁' φ₂' : FTy}
    (x1 x2 : FVec Ideal ⟨2, ![a, K]⟩ φ₁) (w1 w2 : FVec Ideal ⟨2, ![K, n]⟩ φ₂) (b : Fin n → EReal)
    (x1' x2' : FVec Ideal ⟨2, ![a', K]⟩ φ₁') (w1' w2' : FVec Ideal ⟨2, ![K, n']⟩ φ₂') (b' : Fin n' → EReal)
    (r : Fin a) (q : Fin n) (r' : Fin a') (q' : Fin n')
    (hx1 : ∀ k, x1 (ix2 r k) = x1' (ix2 r' k)) (hx2 : ∀ k, x2 (ix2 r k) = x2' (ix2 r' k))
    (hw1 : ∀ k, w1 (ix2 k q) = w1' (ix2 k q')) (hw2 : ∀ k, w2 (ix2 k q) = w2' (ix2 k q')) (hb : b q = b' q') :
    entry x1 x2 w1 w2 b r q = entry x1' x2' w1' w2' b' r' q' := by
  have h1 : (∑ k : Fin K, x1 (ix2 r k) * w1 (ix2 k q)) = ∑ k : Fin K, x1' (ix2 r' k) * w1' (ix2 k q') :=
    Finset.sum_congr rfl fun k _ => by rw [hx1 k, hw1 k]
  have h2 : (∑ k : Fin K, x2 (ix2 r k) * w2 (ix2 k q)) = ∑ k : Fin K, x2' (ix2 r' k) * w2' (ix2 k q') :=
    Finset.sum_congr rfl fun k _ => by rw [hx2 k, hw2 k]
  unfold entry
  rw [h1, h2, hb]

/-- Two products into zero accumulators, added, plus a one-row bias repeated down the rows: at an entry. -/
theorem kernel_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨2, ![1, n]⟩ .f32) (hb : (⟨2, ![1, n]⟩ : Shape).Broadcasts ⟨2, ![a, n]⟩) (hn : n ≠ 1)
    (r : Fin a) (q : Fin n) :
    addf (addf (matmul d prec x1 w1 (constant (F := Ideal) ⟨2, ![a, n]⟩ .f32 0x00000000#32))
        (matmul d prec x2 w2 (constant (F := Ideal) ⟨2, ![a, n]⟩ .f32 0x00000000#32)))
      (broadcastTo ⟨2, ![a, n]⟩ b hb) (ix2 r q)
      = entry x1 x2 w1 w2 (fun q => b (ix2 0 q)) r q := by
  rw [addf_apply, addf_apply, RowOps.matmul_zero_entry d hr hs hl0 hl1 hr0 hr1,
    RowOps.matmul_zero_entry d hr hs hl0 hl1 hr0 hr1]
  rw [broadcastTo_apply b hb (ix2 r q) (ix2 0 q) (fun ax => by
    match ax with
    | ⟨0, _⟩ => simp
    | ⟨1, _⟩ => simp [hn])]
  rfl

/-- A vector laid out as one row, read at column `q`. -/
theorem row_of_vector {n : ℕ} {α : Type} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine (shapeCast_addUnit_apply ![n] b h (ix2 0 q)).trans (congrArg b ?_)
  funext a
  match a with
  | ⟨0, _⟩ => rfl

/-- A bias vector laid out as one row and repeated down the rows, at an entry. -/
theorem bias_entry {a n : ℕ} {α : Type} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1) (r : Fin a) (q : Fin n) :
    broadcastInDim ⟨2, ![a, n]⟩ ![0, 1] h2 (broadcastInDim ⟨2, ![1, n]⟩ ![1] h1 b) (ix2 r q) = b (ix1 q) := by
  rw [broadcastInDim_apply ![0, 1] h2 _ (ix2 r q) (ix2 0 q) (fun ax => by
    match ax with
    | ⟨0, _⟩ => simp
    | ⟨1, _⟩ => simp [hn]; rfl)]
  rw [broadcastInDim_apply ![1] h1 b (ix2 0 q) (ix1 q) (fun ax => by
    match ax with
    | ⟨0, _⟩ => simp [hn]; rfl)]

/-- Two host products, added, plus a bias vector laid out as one row and repeated down the rows: at an entry. -/
theorem host_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1)
    (r : Fin a) (q : Fin n) :
    addf (addf (Host.dotGeneral (F := Ideal) d prec x1 w1) (Host.dotGeneral (F := Ideal) d prec x2 w2))
      (broadcastInDim ⟨2, ![a, n]⟩ ![0, 1] h2 (broadcastInDim ⟨2, ![1, n]⟩ ![1] h1 b)) (ix2 r q)
      = entry x1 x2 w1 w2 (fun q => b (ix1 q)) r q := by
  rw [addf_apply, addf_apply, RowOps.dotGeneral_entry d hr hs hl0 hl1 hr0 hr1,
    RowOps.dotGeneral_entry d hr hs hl0 hl1 hr0 hr1]
  rw [bias_entry b h1 h2 hn r q]
  rfl

/-- A sum over `K + K'` terms is the sum of its first `K` and its last `K'` terms. -/
theorem sum_split {K K' : ℕ} (f : Fin (K + K') → EReal) :
    ∑ k : Fin (K + K'), f k = (∑ k : Fin K, f (Fin.castAdd K' k)) + ∑ k : Fin K', f (Fin.natAdd K k) :=
  Fin.sum_univ_add f

end Cert.DualLinear
-- ==== Proof.DenseLayer.lean ====
/-
  One dense layer on the extended reals, read at an entry.

  A layer takes a matrix `x : [a, K]`, weights `w : [K, n]` and a bias per column, and gives at the entry
  `(r, q)` the number `(∑ₖ x(r,k) · w(k,q)) + β(q)` (`affineEntry`); most layers then pass it through the
  rectifier with slope 0.01 on the negatives, `z ↦ z` if `z ≥ 0` and `0.01f · z` otherwise (`leaky`), spelt as
  a comparison and a selection so that it means the same on every extended real, the infinities included.

  The same entry is reached two ways.  A kernel narrows both operands to a shorter float format (the identity
  on the extended reals), multiplies into a zero accumulator, lays the bias out as one row and repeats it down
  the rows.  The host contracts the shared axis and broadcasts the bias twice.  Either way the sum over `k` is
  a sum in a commutative monoid and the bias is added last, so the two agree on every input: nothing is asked
  of the numbers.

  Entry `(r, q)` reads row `r` of `x` only.  So a block of rows of the layer's output is the layer of the same
  block of rows of `x`: a grid over row blocks computes the layer block by block.
-/
import proofs.«129910_j60979945669188_1_alg».proof.Proof.LibRowProduct
import proofs.«129910_j60979945669188_1_alg».proof.Proof.LibDualLinear

noncomputable section

namespace Cert.DenseLayer

open Idealize.ShloMosaic Idealize.ShloMosaic.ValueIdx
open scoped BigOperators

/-- The rectifier with slope `0.01f` on the negatives, as a comparison and a selection. -/
def leaky (z : EReal) : EReal :=
  Scalar.select (FloatOps.cmpf (F := Ideal) (φ := .f32) .oge z (Ideal.ofBits .f32 0x00000000#32)) z
    (Ideal.ofBits .f32 0x3C23D70A#32 * z)

/-- Entry `(r, q)` of `x · w + β`. -/
def affineEntry {a K n : ℕ} (x : FVec Ideal ⟨2, ![a, K]⟩ .f32) (w : FVec Ideal ⟨2, ![K, n]⟩ .f32)
    (β : FVec Ideal ⟨1, ![n]⟩ .f32) (r : Fin a) (q : Fin n) : EReal :=
  (∑ k : Fin K, x (ix2 r k) * w (ix2 k q)) + β (ix1 q)

/-- The entry reads row `r` of `x` only: two left matrices, of whatever heights, that agree on that row give
    the same entry. -/
theorem affineEntry_congr {a a' K n : ℕ} (x : FVec Ideal ⟨2, ![a, K]⟩ .f32) (x' : FVec Ideal ⟨2, ![a', K]⟩ .f32)
    (w : FVec Ideal ⟨2, ![K, n]⟩ .f32) (β : FVec Ideal ⟨1, ![n]⟩ .f32) (r : Fin a) (r' : Fin a') (q : Fin n)
    (hx : ∀ k, x (ix2 r k) = x' (ix2 r' k)) : affineEntry x w β r q = affineEntry x' w β r' q := by
  unfold affineEntry
  rw [Finset.sum_congr rfl fun k _ => by rw [hx k]]

/-- The rectifier in a kernel's spelling, at an index: the two constants are splatted scalars. -/
theorem kernel_leaky_apply {s : Shape} (z : FVec Ideal s .f32) (j : s.Idx) :
    select (cmpf .oge z (broadcast s (Scalar.ofBits (F := Ideal) .f32 0x00000000#32))) z
      (mulf (broadcast s (Scalar.ofBits (F := Ideal) .f32 0x3C23D70A#32)) z) j = leaky (z j) := rfl

/-- A kernel's layer before the rectifier, at an index: both operands narrowed, a product into a zero
    accumulator, the bias laid out as one row and repeated down the rows. -/
theorem kernel_affine_apply {a K n : ℕ} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, n]⟩ .f32) (β : FVec Ideal ⟨1, ![n]⟩ .f32)
    (hlt : FTy.bits .bf16 < FTy.bits .f32)
    (hc : (⟨1, ![n]⟩ : Shape).ShapeCasts ⟨2, ![1, n]⟩) (hb : (⟨2, ![1, n]⟩ : Shape).Broadcasts ⟨2, ![a, n]⟩)
    (hn : n ≠ 1) (j : (⟨2, ![a, n]⟩ : Shape).Idx) :
    addf (matmul d none (truncf .bf16 x hlt) (truncf .bf16 w hlt)
        (constant (F := Ideal) ⟨2, ![a, n]⟩ .f32 0x00000000#32))
      (broadcastTo ⟨2, ![a, n]⟩ (shapeCast ⟨2, ![1, n]⟩ β hc) hb) j
      = affineEntry x w β (j 0) (j 1) := by
  obtain ⟨r, q, rfl⟩ : ∃ (r : Fin a) (q : Fin n), j = ix2 r q := ⟨j 0, j 1, eq_ix2 j⟩
  rw [addf_apply, Cert.RowProduct.matmul_trunc_entry d hr hs hl0 hl1 hr0 hr1 x (truncf .bf16 w hlt) hlt (ix2 r q)]
  rw [broadcastTo_apply (shapeCast ⟨2, ![1, n]⟩ β hc) hb (ix2 r q) (ix2 0 q) (fun ax => by
    match ax with
    | ⟨0, _⟩ => simp
    | ⟨1, _⟩ => simp [hn])]
  rw [Cert.DualLinear.row_of_vector β hc q]
  rfl

/-- A kernel's product alone (no bias, no rectifier), at an index. -/
theorem kernel_product_apply {a K n : ℕ} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, n]⟩ .f32) (hlt : FTy.bits .bf16 < FTy.bits .f32)
    (j : (⟨2, ![a, n]⟩ : Shape).Idx) :
    matmul d none (truncf .bf16 x hlt) (truncf .bf16 w hlt) (constant (F := Ideal) ⟨2, ![a, n]⟩ .f32 0x00000000#32) j
      = ∑ k : Fin K, x (ix2 (j 0) k) * w (ix2 k (j 1)) :=
  Cert.RowProduct.matmul_trunc_entry d hr hs hl0 hl1 hr0 hr1 x (truncf .bf16 w hlt) hlt j

/-- The host's layer before the rectifier, at an index: the contraction of the shared axis, the bias broadcast
    to one row and then down the rows. -/
theorem host_affine_apply {a K n : ℕ} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1)
    (j : (⟨2, ![a, n]⟩ : Shape).Idx) :
    addf (Host.dotGeneral (F := Ideal) d none x w)
      (broadcastInDim ⟨2, ![a, n]⟩ ![0, 1] h2 (broadcastInDim ⟨2, ![1, n]⟩ ![1] h1 β)) j
      = affineEntry x w β (j 0) (j 1) := by
  obtain ⟨r, q, rfl⟩ : ∃ (r : Fin a) (q : Fin n), j = ix2 r q := ⟨j 0, j 1, eq_ix2 j⟩
  rw [addf_apply, Cert.RowOps.dotGeneral_entry d hr hs hl0 hl1 hr0 hr1 none x w r q,
    Cert.DualLinear.bias_entry β h1 h2 hn r q]
  rfl

/-- The rectifier in the host's spelling, at an index: the two constants are scalars broadcast to the shape. -/
theorem host_leaky_apply {s : Shape} (h0 : (⟨0, ![]⟩ : Shape).BroadcastsInDim s ![]) (z : FVec Ideal s .f32)
    (j : s.Idx) :
    select (cmpf .oge z (broadcastInDim s ![] h0 (constant (F := Ideal) ⟨0, ![]⟩ .f32 0x00000000#32))) z
      (mulf (broadcastInDim s ![] h0 (constant (F := Ideal) ⟨0, ![]⟩ .f32 0x3C23D70A#32)) z) j = leaky (z j) := by
  rw [select_apply, cmpf_apply, mulf_apply,
    broadcastInDim_apply ![] h0 _ j ix0 (fun ax => ax.elim0),
    broadcastInDim_apply ![] h0 _ j ix0 (fun ax => ax.elim0)]
  rfl

/-! ## Layers side by side -/

/-- A layer with the rectifier, at an entry. -/
def layerEntry {a K n : ℕ} (x : FVec Ideal ⟨2, ![a, K]⟩ .f32) (w : FVec Ideal ⟨2, ![K, n]⟩ .f32)
    (β : FVec Ideal ⟨1, ![n]⟩ .f32) (r : Fin a) (q : Fin n) : EReal :=
  leaky (affineEntry x w β r q)

/-- A layer's entry `(r, q)` reads row `r` of the left matrix, column `q` of the weights and the bias of
    column `q`: two settings that agree there, of whatever heights, have the same entry. -/
theorem affineEntry_congr_all {a a' K n : ℕ} (x : FVec Ideal ⟨2, ![a, K]⟩ .f32) (x' : FVec Ideal ⟨2, ![a', K]⟩ .f32)
    (w w' : FVec Ideal ⟨2, ![K, n]⟩ .f32) (β β' : FVec Ideal ⟨1, ![n]⟩ .f32) (r : Fin a) (r' : Fin a') (q : Fin n)
    (hx : ∀ k, x (ix2 r k) = x' (ix2 r' k)) (hw : ∀ k, w (ix2 k q) = w' (ix2 k q)) (hβ : β (ix1 q) = β' (ix1 q)) :
    affineEntry x w β r q = affineEntry x' w' β' r' q := by
  unfold affineEntry
  rw [Finset.sum_congr rfl fun k _ => by rw [hx k, hw k], hβ]

theorem layerEntry_congr_all {a a' K n : ℕ} (x : FVec Ideal ⟨2, ![a, K]⟩ .f32) (x' : FVec Ideal ⟨2, ![a', K]⟩ .f32)
    (w w' : FVec Ideal ⟨2, ![K, n]⟩ .f32) (β β' : FVec Ideal ⟨1, ![n]⟩ .f32) (r : Fin a) (r' : Fin a') (q : Fin n)
    (hx : ∀ k, x (ix2 r k) = x' (ix2 r' k)) (hw : ∀ k, w (ix2 k q) = w' (ix2 k q)) (hβ : β (ix1 q) = β' (ix1 q)) :
    layerEntry x w β r q = layerEntry x' w' β' r' q :=
  congrArg leaky (affineEntry_congr_all x x' w w' β β' r r' q hx hw hβ)

/-- Five matrices of widths 16, 16, 16, 8, 8 laid side by side into one of width 64, at an entry: column `q`
    belongs to the matrix whose column range holds it, at `q` less the widths before it. -/
def joinEntry {a : ℕ} (s de t : Fin a → Fin 16 → EReal) (p pe : Fin a → Fin 8 → EReal) (r : Fin a) (q : Fin 64) :
    EReal :=
  if h0 : q.val < 16 then s r ⟨q.val, h0⟩
  else if h1 : q.val < 32 then de r ⟨q.val - 16, by omega⟩
  else if h2 : q.val < 48 then t r ⟨q.val - 32, by omega⟩
  else if h3 : q.val < 56 then p r ⟨q.val - 48, by omega⟩
  else pe r ⟨q.val - 56, by have := q.isLt; omega⟩

section JoinSegments
variable {a : ℕ} (s de t : Fin a → Fin 16 → EReal) (p pe : Fin a → Fin 8 → EReal) (r : Fin a)

theorem joinEntry_seg0 (q : Fin 64) (x : Fin 16) (h : q.val = x.val) : joinEntry s de t p pe r q = s r x := by
  unfold joinEntry
  rw [dif_pos (by omega)]
  exact congrArg (s r) (Fin.ext h)
theorem joinEntry_seg1 (q : Fin 64) (x : Fin 16) (h : q.val = 16 + x.val) : joinEntry s de t p pe r q = de r x := by
  unfold joinEntry
  rw [dif_neg (by omega), dif_pos (by omega)]
  exact congrArg (de r) (Fin.ext (by show q.val - 16 = x.val; omega))
theorem joinEntry_seg2 (q : Fin 64) (x : Fin 16) (h : q.val = 32 + x.val) : joinEntry s de t p pe r q = t r x := by
  unfold joinEntry
  rw [dif_neg (by omega), dif_neg (by omega), dif_pos (by omega)]
  exact congrArg (t r) (Fin.ext (by show q.val - 32 = x.val; omega))
theorem joinEntry_seg3 (q : Fin 64) (x : Fin 8) (h : q.val = 48 + x.val) : joinEntry s de t p pe r q = p r x := by
  unfold joinEntry
  rw [dif_neg (by omega), dif_neg (by omega), dif_neg (by omega), dif_pos (by omega)]
  exact congrArg (p r) (Fin.ext (by show q.val - 48 = x.val; omega))
theorem joinEntry_seg4 (q : Fin 64) (x : Fin 8) (h : q.val = 56 + x.val) : joinEntry s de t p pe r q = pe r x := by
  unfold joinEntry
  rw [dif_neg (by omega), dif_neg (by omega), dif_neg (by omega), dif_neg (by omega)]
  exact congrArg (pe r) (Fin.ext (by show q.val - 56 = x.val; omega))

end JoinSegments

/-- Row `r` of the joined matrix reads row `r` of each part only. -/
theorem joinEntry_congr {a a' : ℕ} (s de t : Fin a → Fin 16 → EReal) (p pe : Fin a → Fin 8 → EReal)
    (s' de' t' : Fin a' → Fin 16 → EReal) (p' pe' : Fin a' → Fin 8 → EReal) (r : Fin a) (r' : Fin a') (q : Fin 64)
    (hs : ∀ x, s r x = s' r' x) (hde : ∀ x, de r x = de' r' x) (ht : ∀ x, t r x = t' r' x)
    (hp : ∀ x, p r x = p' r' x) (hpe : ∀ x, pe r x = pe' r' x) :
    joinEntry s de t p pe r q = joinEntry s' de' t' p' pe' r' q := by
  unfold joinEntry
  split
  · exact hs _
  split
  · exact hde _
  split
  · exact ht _
  split
  · exact hp _
  · exact hpe _

/-! ## The encoder -/

/-- Five encoders side by side: three of 768 features and ones of 5 and 7, each a layer with the rectifier, their
    outputs of widths 16, 16, 16, 8, 8 laid into one matrix of width 64. -/
def joinedLayers {a : ℕ} (x0 x1 x2 : FVec Ideal ⟨2, ![a, 768]⟩ .f32) (x3 : FVec Ideal ⟨2, ![a, 5]⟩ .f32)
    (x4 : FVec Ideal ⟨2, ![a, 7]⟩ .f32)
    (w0 : FVec Ideal ⟨2, ![768, 16]⟩ .f32) (b0 : FVec Ideal ⟨1, ![16]⟩ .f32)
    (w1 : FVec Ideal ⟨2, ![768, 16]⟩ .f32) (b1 : FVec Ideal ⟨1, ![16]⟩ .f32)
    (w2 : FVec Ideal ⟨2, ![768, 16]⟩ .f32) (b2 : FVec Ideal ⟨1, ![16]⟩ .f32)
    (w3 : FVec Ideal ⟨2, ![5, 8]⟩ .f32) (b3 : FVec Ideal ⟨1, ![8]⟩ .f32)
    (w4 : FVec Ideal ⟨2, ![7, 8]⟩ .f32) (b4 : FVec Ideal ⟨1, ![8]⟩ .f32) : FVec Ideal ⟨2, ![a, 64]⟩ .f32 :=
  fun y => joinEntry (layerEntry x0 w0 b0) (layerEntry x1 w1 b1) (layerEntry x2 w2 b2) (layerEntry x3 w3 b3)
    (layerEntry x4 w4 b4) (y 0) (y 1)

/-- Row `r` of the joined matrix reads row `r` of each input only. -/
theorem joinedLayers_rows {a a' : ℕ} (x0 x1 x2 : FVec Ideal ⟨2, ![a, 768]⟩ .f32) (x3 : FVec Ideal ⟨2, ![a, 5]⟩ .f32)
    (x4 : FVec Ideal ⟨2, ![a, 7]⟩ .f32)
    (x0' x1' x2' : FVec Ideal ⟨2, ![a', 768]⟩ .f32) (x3' : FVec Ideal ⟨2, ![a', 5]⟩ .f32)
    (x4' : FVec Ideal ⟨2, ![a', 7]⟩ .f32)
    (w0 : FVec Ideal ⟨2, ![768, 16]⟩ .f32) (b0 : FVec Ideal ⟨1, ![16]⟩ .f32)
    (w1 : FVec Ideal ⟨2, ![768, 16]⟩ .f32) (b1 : FVec Ideal ⟨1, ![16]⟩ .f32)
    (w2 : FVec Ideal ⟨2, ![768, 16]⟩ .f32) (b2 : FVec Ideal ⟨1, ![16]⟩ .f32)
    (w3 : FVec Ideal ⟨2, ![5, 8]⟩ .f32) (b3 : FVec Ideal ⟨1, ![8]⟩ .f32)
    (w4 : FVec Ideal ⟨2, ![7, 8]⟩ .f32) (b4 : FVec Ideal ⟨1, ![8]⟩ .f32) (r : Fin a) (r' : Fin a') (q : Fin 64)
    (h0 : ∀ k, x0 (ix2 r k) = x0' (ix2 r' k)) (h1 : ∀ k, x1 (ix2 r k) = x1' (ix2 r' k))
    (h2 : ∀ k, x2 (ix2 r k) = x2' (ix2 r' k)) (h3 : ∀ k, x3 (ix2 r k) = x3' (ix2 r' k))
    (h4 : ∀ k, x4 (ix2 r k) = x4' (ix2 r' k)) :
    joinedLayers x0 x1 x2 x3 x4 w0 b0 w1 b1 w2 b2 w3 b3 w4 b4 (ix2 r q) = joinedLayers x0' x1' x2' x3' x4' w0 b0 w1 b1 w2 b2 w3 b3 w4 b4 (ix2 r' q) :=
  joinEntry_congr _ _ _ _ _ _ _ _ _ _ r r' q
    (fun x => layerEntry_congr_all x0 x0' w0 w0 b0 b0 r r' x h0 (fun _ => rfl) rfl)
    (fun x => layerEntry_congr_all x1 x1' w1 w1 b1 b1 r r' x h1 (fun _ => rfl) rfl)
    (fun x => layerEntry_congr_all x2 x2' w2 w2 b2 b2 r r' x h2 (fun _ => rfl) rfl)
    (fun x => layerEntry_congr_all x3 x3' w3 w3 b3 b3 r r' x h3 (fun _ => rfl) rfl)
    (fun x => layerEntry_congr_all x4 x4' w4 w4 b4 b4 r r' x h4 (fun _ => rfl) rfl)

/-- The encoder's second output: one more layer with the rectifier on the joined matrix. -/
def encoded {a : ℕ} (x0 x1 x2 : FVec Ideal ⟨2, ![a, 768]⟩ .f32) (x3 : FVec Ideal ⟨2, ![a, 5]⟩ .f32)
    (x4 : FVec Ideal ⟨2, ![a, 7]⟩ .f32)
    (w0 : FVec Ideal ⟨2, ![768, 16]⟩ .f32) (b0 : FVec Ideal ⟨1, ![16]⟩ .f32)
    (w1 : FVec Ideal ⟨2, ![768, 16]⟩ .f32) (b1 : FVec Ideal ⟨1, ![16]⟩ .f32)
    (w2 : FVec Ideal ⟨2, ![768, 16]⟩ .f32) (b2 : FVec Ideal ⟨1, ![16]⟩ .f32)
    (w3 : FVec Ideal ⟨2, ![5, 8]⟩ .f32) (b3 : FVec Ideal ⟨1, ![8]⟩ .f32)
    (w4 : FVec Ideal ⟨2, ![7, 8]⟩ .f32) (b4 : FVec Ideal ⟨1, ![8]⟩ .f32) (wl : FVec Ideal ⟨2, ![64, 64]⟩ .f32) (bl : FVec Ideal ⟨1, ![64]⟩ .f32) :
    FVec Ideal ⟨2, ![a, 64]⟩ .f32 :=
  fun y => layerEntry (joinedLayers x0 x1 x2 x3 x4 w0 b0 w1 b1 w2 b2 w3 b3 w4 b4) wl bl (y 0) (y 1)

/-- Row `r` of it reads row `r` of each input only. -/
theorem encoded_rows {a a' : ℕ} (x0 x1 x2 : FVec Ideal ⟨2, ![a, 768]⟩ .f32) (x3 : FVec Ideal ⟨2, ![a, 5]⟩ .f32)
    (x4 : FVec Ideal ⟨2, ![a, 7]⟩ .f32)
    (x0' x1' x2' : FVec Ideal ⟨2, ![a', 768]⟩ .f32) (x3' : FVec Ideal ⟨2, ![a', 5]⟩ .f32)
    (x4' : FVec Ideal ⟨2, ![a', 7]⟩ .f32)
    (w0 : FVec Ideal ⟨2, ![768, 16]⟩ .f32) (b0 : FVec Ideal ⟨1, ![16]⟩ .f32)
    (w1 : FVec Ideal ⟨2, ![768, 16]⟩ .f32) (b1 : FVec Ideal ⟨1, ![16]⟩ .f32)
    (w2 : FVec Ideal ⟨2, ![768, 16]⟩ .f32) (b2 : FVec Ideal ⟨1, ![16]⟩ .f32)
    (w3 : FVec Ideal ⟨2, ![5, 8]⟩ .f32) (b3 : FVec Ideal ⟨1, ![8]⟩ .f32)
    (w4 : FVec Ideal ⟨2, ![7, 8]⟩ .f32) (b4 : FVec Ideal ⟨1, ![8]⟩ .f32) (wl : FVec Ideal ⟨2, ![64, 64]⟩ .f32) (bl : FVec Ideal ⟨1, ![64]⟩ .f32)
    (r : Fin a) (r' : Fin a') (q : Fin 64)
    (h0 : ∀ k, x0 (ix2 r k) = x0' (ix2 r' k)) (h1 : ∀ k, x1 (ix2 r k) = x1' (ix2 r' k))
    (h2 : ∀ k, x2 (ix2 r k) = x2' (ix2 r' k)) (h3 : ∀ k, x3 (ix2 r k) = x3' (ix2 r' k))
    (h4 : ∀ k, x4 (ix2 r k) = x4' (ix2 r' k)) :
    encoded x0 x1 x2 x3 x4 w0 b0 w1 b1 w2 b2 w3 b3 w4 b4 wl bl (ix2 r q) = encoded x0' x1' x2' x3' x4' w0 b0 w1 b1 w2 b2 w3 b3 w4 b4 wl bl (ix2 r' q) :=
  layerEntry_congr_all _ _ wl wl bl bl r r' q
    (fun k => joinedLayers_rows x0 x1 x2 x3 x4 x0' x1' x2' x3' x4' w0 b0 w1 b1 w2 b2 w3 b3 w4 b4 r r' k h0 h1 h2 h3 h4) (fun _ => rfl) rfl

/-! ## The host's spellings, whole -/

/-- The host's layer with the rectifier, at an index. -/
theorem host_layer_apply {a K n : ℕ} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) (hn : n ≠ 1)
    (j : (⟨2, ![a, n]⟩ : Shape).Idx) :
    select (cmpf .oge (addf (Host.dotGeneral (F := Ideal) d none x w)
          (broadcastInDim ⟨2, ![a, n]⟩ ![0, 1] h2 (broadcastInDim ⟨2, ![1, n]⟩ ![1] h1 β)))
        (broadcastInDim ⟨2, ![a, n]⟩ ![] h0 (constant (F := Ideal) ⟨0, ![]⟩ .f32 0x00000000#32)))
      (addf (Host.dotGeneral (F := Ideal) d none x w)
        (broadcastInDim ⟨2, ![a, n]⟩ ![0, 1] h2 (broadcastInDim ⟨2, ![1, n]⟩ ![1] h1 β)))
      (mulf (broadcastInDim ⟨2, ![a, n]⟩ ![] h0 (constant (F := Ideal) ⟨0, ![]⟩ .f32 0x3C23D70A#32))
        (addf (Host.dotGeneral (F := Ideal) d none x w)
          (broadcastInDim ⟨2, ![a, n]⟩ ![0, 1] h2 (broadcastInDim ⟨2, ![1, n]⟩ ![1] h1 β)))) j
      = layerEntry x w β (j 0) (j 1) :=
  (host_leaky_apply h0 _ j).trans (congrArg leaky (host_affine_apply d hr hs hl0 hl1 hr0 hr1 x w β h1 h2 hn j))

/-- The classifier's head on whole arrays: a layer with the rectifier, a second layer, the logistic function. -/
def headOf {a : ℕ} (x : FVec Ideal ⟨2, ![a, 64]⟩ .f32) (w1 : FVec Ideal ⟨2, ![64, 64]⟩ .f32)
    (b1 : FVec Ideal ⟨1, ![64]⟩ .f32) (w2 : FVec Ideal ⟨2, ![64, 2]⟩ .f32) (b2 : FVec Ideal ⟨1, ![2]⟩ .f32) :
    FVec Ideal ⟨2, ![a, 2]⟩ .f32 :=
  fun i => Ideal.logistic
    (affineEntry (fun r : (⟨2, ![a, 64]⟩ : Shape).Idx => layerEntry x w1 b1 (r 0) (r 1)) w2 b2 (i 0) (i 1))

/-- The f32 pattern `0x3F800000` is the number one. -/
theorem ofBits_one_f32 : Ideal.ofBits .f32 0x3F800000#32 = 1 := by
  simp [Ideal.ofBits, Ideal.ieee, -EReal.coe_mul]; norm_num

/-- The logistic function as the host spells it, `1 / (1 + exp (-z))` with the ones broadcast constants, at an
    index: by definition the logistic function of the extended real there. -/
theorem host_logistic_apply {s : Shape} (h0 : (⟨0, ![]⟩ : Shape).BroadcastsInDim s ![]) (z : FVec Ideal s .f32)
    (j : s.Idx) :
    Host.divf (F := Ideal) (broadcastInDim s ![] h0 (constant (F := Ideal) ⟨0, ![]⟩ .f32 0x3F800000#32))
      (addf (broadcastInDim s ![] h0 (constant (F := Ideal) ⟨0, ![]⟩ .f32 0x3F800000#32)) (Host.exp (Host.negf z))) j
      = Ideal.logistic (z j) := by
  have one : broadcastInDim s ![] h0 (constant (F := Ideal) ⟨0, ![]⟩ .f32 0x3F800000#32) j = (1 : EReal) := by
    rw [broadcastInDim_apply ![] h0 _ j ix0 (fun ax => ax.elim0), constant_apply, ofBits_one_f32]
  show Ideal.div (broadcastInDim s ![] h0 (constant (F := Ideal) ⟨0, ![]⟩ .f32 0x3F800000#32) j)
      (broadcastInDim s ![] h0 (constant (F := Ideal) ⟨0, ![]⟩ .f32 0x3F800000#32) j + Ideal.exp (-(z j))) = _
  rw [one]
  rfl

end Cert.DenseLayer

end
-- ==== Proof.KernelDims.lean ====
/-
  The kernel's five matrix products are all plain ones: `[a, K] · [K, n]`, contracting the left operand's
  second axis with the right operand's first, no batch axes.  For each product's dimension numbers, which
  operand coordinate is the output's and which is the contraction's: the left operand is read at
  (output row, k), the right at (k, output column).  These four facts are all that reading a product at an
  entry asks of its dimension numbers.
-/
import proofs.«129910_j60979945669188_1_alg».proof.Proof.Gen.KernelIdeal
import Idealize.ShloMosaic.Lib.ValueIdx
import Idealize.ShloMosaic.PureOps.Ideal.Laws

namespace Cert.KernelIdeal.ProductDims

open Cert.KernelIdeal Idealize.ShloMosaic

/-! ### `1000x768 · 768x16` -/

theorem enc768_l0 (i : S1000x16.Idx) (q : dot_S1000x768_S768x16_S1000x16_1_0_0_1_n_n.contr.Idx) : (dot_S1000x768_S768x16_S1000x16_1_0_0_1_n_n.lhsIdx i q 0).val = (i 0).val := by
  unfold DotDims.lhsIdx
  rw [dif_neg (show ¬(0 : Fin S1000x768.rank) ∈ dot_S1000x768_S768x16_S1000x16_1_0_0_1_n_n.lhsBatch by decide),
    dif_pos (show (0 : Fin S1000x768.rank) ∈ dot_S1000x768_S768x16_S1000x16_1_0_0_1_n_n.lhsNonContracting by decide)]
  rfl
theorem enc768_l1 (i : S1000x16.Idx) (q : dot_S1000x768_S768x16_S1000x16_1_0_0_1_n_n.contr.Idx) : (dot_S1000x768_S768x16_S1000x16_1_0_0_1_n_n.lhsIdx i q 1).val = (q ⟨0, by decide⟩).val :=
  dot_S1000x768_S768x16_S1000x16_1_0_0_1_n_n.lhsIdx_val_of_single rfl i q
theorem enc768_r0 (i : S1000x16.Idx) (q : dot_S1000x768_S768x16_S1000x16_1_0_0_1_n_n.contr.Idx) : (dot_S1000x768_S768x16_S1000x16_1_0_0_1_n_n.rhsIdx i q 0).val = (q ⟨0, by decide⟩).val :=
  dot_S1000x768_S768x16_S1000x16_1_0_0_1_n_n.rhsIdx_val_of_single rfl i q
theorem enc768_r1 (i : S1000x16.Idx) (q : dot_S1000x768_S768x16_S1000x16_1_0_0_1_n_n.contr.Idx) : (dot_S1000x768_S768x16_S1000x16_1_0_0_1_n_n.rhsIdx i q 1).val = (i 1).val := by
  unfold DotDims.rhsIdx
  rw [dif_neg (show ¬(1 : Fin S768x16.rank) ∈ dot_S1000x768_S768x16_S1000x16_1_0_0_1_n_n.rhsBatch by decide),
    dif_pos (show (1 : Fin S768x16.rank) ∈ dot_S1000x768_S768x16_S1000x16_1_0_0_1_n_n.rhsNonContracting by decide)]
  rfl

/-! ### `1000x5 · 5x8` -/

theorem enc5_l0 (i : S1000x8.Idx) (q : dot_S1000x5_S5x8_S1000x8_1_0_0_1_n_n.contr.Idx) : (dot_S1000x5_S5x8_S1000x8_1_0_0_1_n_n.lhsIdx i q 0).val = (i 0).val := by
  unfold DotDims.lhsIdx
  rw [dif_neg (show ¬(0 : Fin S1000x5.rank) ∈ dot_S1000x5_S5x8_S1000x8_1_0_0_1_n_n.lhsBatch by decide),
    dif_pos (show (0 : Fin S1000x5.rank) ∈ dot_S1000x5_S5x8_S1000x8_1_0_0_1_n_n.lhsNonContracting by decide)]
  rfl
theorem enc5_l1 (i : S1000x8.Idx) (q : dot_S1000x5_S5x8_S1000x8_1_0_0_1_n_n.contr.Idx) : (dot_S1000x5_S5x8_S1000x8_1_0_0_1_n_n.lhsIdx i q 1).val = (q ⟨0, by decide⟩).val :=
  dot_S1000x5_S5x8_S1000x8_1_0_0_1_n_n.lhsIdx_val_of_single rfl i q
theorem enc5_r0 (i : S1000x8.Idx) (q : dot_S1000x5_S5x8_S1000x8_1_0_0_1_n_n.contr.Idx) : (dot_S1000x5_S5x8_S1000x8_1_0_0_1_n_n.rhsIdx i q 0).val = (q ⟨0, by decide⟩).val :=
  dot_S1000x5_S5x8_S1000x8_1_0_0_1_n_n.rhsIdx_val_of_single rfl i q
theorem enc5_r1 (i : S1000x8.Idx) (q : dot_S1000x5_S5x8_S1000x8_1_0_0_1_n_n.contr.Idx) : (dot_S1000x5_S5x8_S1000x8_1_0_0_1_n_n.rhsIdx i q 1).val = (i 1).val := by
  unfold DotDims.rhsIdx
  rw [dif_neg (show ¬(1 : Fin S5x8.rank) ∈ dot_S1000x5_S5x8_S1000x8_1_0_0_1_n_n.rhsBatch by decide),
    dif_pos (show (1 : Fin S5x8.rank) ∈ dot_S1000x5_S5x8_S1000x8_1_0_0_1_n_n.rhsNonContracting by decide)]
  rfl

/-! ### `1000x7 · 7x8` -/

theorem enc7_l0 (i : S1000x8.Idx) (q : dot_S1000x7_S7x8_S1000x8_1_0_0_1_n_n.contr.Idx) : (dot_S1000x7_S7x8_S1000x8_1_0_0_1_n_n.lhsIdx i q 0).val = (i 0).val := by
  unfold DotDims.lhsIdx
  rw [dif_neg (show ¬(0 : Fin S1000x7.rank) ∈ dot_S1000x7_S7x8_S1000x8_1_0_0_1_n_n.lhsBatch by decide),
    dif_pos (show (0 : Fin S1000x7.rank) ∈ dot_S1000x7_S7x8_S1000x8_1_0_0_1_n_n.lhsNonContracting by decide)]
  rfl
theorem enc7_l1 (i : S1000x8.Idx) (q : dot_S1000x7_S7x8_S1000x8_1_0_0_1_n_n.contr.Idx) : (dot_S1000x7_S7x8_S1000x8_1_0_0_1_n_n.lhsIdx i q 1).val = (q ⟨0, by decide⟩).val :=
  dot_S1000x7_S7x8_S1000x8_1_0_0_1_n_n.lhsIdx_val_of_single rfl i q
theorem enc7_r0 (i : S1000x8.Idx) (q : dot_S1000x7_S7x8_S1000x8_1_0_0_1_n_n.contr.Idx) : (dot_S1000x7_S7x8_S1000x8_1_0_0_1_n_n.rhsIdx i q 0).val = (q ⟨0, by decide⟩).val :=
  dot_S1000x7_S7x8_S1000x8_1_0_0_1_n_n.rhsIdx_val_of_single rfl i q
theorem enc7_r1 (i : S1000x8.Idx) (q : dot_S1000x7_S7x8_S1000x8_1_0_0_1_n_n.contr.Idx) : (dot_S1000x7_S7x8_S1000x8_1_0_0_1_n_n.rhsIdx i q 1).val = (i 1).val := by
  unfold DotDims.rhsIdx
  rw [dif_neg (show ¬(1 : Fin S7x8.rank) ∈ dot_S1000x7_S7x8_S1000x8_1_0_0_1_n_n.rhsBatch by decide),
    dif_pos (show (1 : Fin S7x8.rank) ∈ dot_S1000x7_S7x8_S1000x8_1_0_0_1_n_n.rhsNonContracting by decide)]
  rfl

/-! ### `1000x64 · 64x64` -/

theorem sq64_l0 (i : S1000x64.Idx) (q : dot_S1000x64_S64x64_S1000x64_1_0_0_1_n_n.contr.Idx) : (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide),
    dif_pos (show (0 : Fin S1000x64.rank) ∈ dot_S1000x64_S64x64_S1000x64_1_0_0_1_n_n.lhsNonContracting by decide)]
  rfl
theorem sq64_l1 (i : S1000x64.Idx) (q : dot_S1000x64_S64x64_S1000x64_1_0_0_1_n_n.contr.Idx) : (dot_S1000x64_S64x64_S1000x64_1_0_0_1_n_n.lhsIdx i q 1).val = (q ⟨0, by decide⟩).val :=
  dot_S1000x64_S64x64_S1000x64_1_0_0_1_n_n.lhsIdx_val_of_single rfl i q
theorem sq64_r0 (i : S1000x64.Idx) (q : dot_S1000x64_S64x64_S1000x64_1_0_0_1_n_n.contr.Idx) : (dot_S1000x64_S64x64_S1000x64_1_0_0_1_n_n.rhsIdx i q 0).val = (q ⟨0, by decide⟩).val :=
  dot_S1000x64_S64x64_S1000x64_1_0_0_1_n_n.rhsIdx_val_of_single rfl i q
theorem sq64_r1 (i : S1000x64.Idx) (q : dot_S1000x64_S64x64_S1000x64_1_0_0_1_n_n.contr.Idx) : (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide),
    dif_pos (show (1 : Fin S64x64.rank) ∈ dot_S1000x64_S64x64_S1000x64_1_0_0_1_n_n.rhsNonContracting by decide)]
  rfl

/-! ### `1000x64 · 64x2` -/

theorem head2_l0 (i : S1000x2.Idx) (q : dot_S1000x64_S64x2_S1000x2_1_0_0_1_n_n.contr.Idx) : (dot_S1000x64_S64x2_S1000x2_1_0_0_1_n_n.lhsIdx i q 0).val = (i 0).val := by
  unfold DotDims.lhsIdx
  rw [dif_neg (show ¬(0 : Fin S1000x64.rank) ∈ dot_S1000x64_S64x2_S1000x2_1_0_0_1_n_n.lhsBatch by decide),
    dif_pos (show (0 : Fin S1000x64.rank) ∈ dot_S1000x64_S64x2_S1000x2_1_0_0_1_n_n.lhsNonContracting by decide)]
  rfl
theorem head2_l1 (i : S1000x2.Idx) (q : dot_S1000x64_S64x2_S1000x2_1_0_0_1_n_n.contr.Idx) : (dot_S1000x64_S64x2_S1000x2_1_0_0_1_n_n.lhsIdx i q 1).val = (q ⟨0, by decide⟩).val :=
  dot_S1000x64_S64x2_S1000x2_1_0_0_1_n_n.lhsIdx_val_of_single rfl i q
theorem head2_r0 (i : S1000x2.Idx) (q : dot_S1000x64_S64x2_S1000x2_1_0_0_1_n_n.contr.Idx) : (dot_S1000x64_S64x2_S1000x2_1_0_0_1_n_n.rhsIdx i q 0).val = (q ⟨0, by decide⟩).val :=
  dot_S1000x64_S64x2_S1000x2_1_0_0_1_n_n.rhsIdx_val_of_single rfl i q
theorem head2_r1 (i : S1000x2.Idx) (q : dot_S1000x64_S64x2_S1000x2_1_0_0_1_n_n.contr.Idx) : (dot_S1000x64_S64x2_S1000x2_1_0_0_1_n_n.rhsIdx i q 1).val = (i 1).val := by
  unfold DotDims.rhsIdx
  rw [dif_neg (show ¬(1 : Fin S64x2.rank) ∈ dot_S1000x64_S64x2_S1000x2_1_0_0_1_n_n.rhsBatch by decide),
    dif_pos (show (1 : Fin S64x2.rank) ∈ dot_S1000x64_S64x2_S1000x2_1_0_0_1_n_n.rhsNonContracting by decide)]
  rfl

end Cert.KernelIdeal.ProductDims
-- ==== Proof.Encoder.lean ====
/-
  The first launch of the kernel program: the encoder.  Five inputs of a node (three embeddings of 768 features
  and two small feature vectors of 5 and 7) each go through a layer with the rectifier; the five results, of widths
  16, 16, 16, 8, 8, are laid side by side into `x1 : [50000, 64]`, and one more layer with the rectifier gives
  `x : [50000, 64]`.  A grid of fifty points takes a thousand rows of each input at a time and the whole of every
  weight matrix and bias.

  Inside a point the body stores the five results into their column ranges of the first output's buffer, then
  loads that buffer back whole for the last layer: what it loads is what the five stores left, because they tile
  the buffer.  Every entry of either output reads only its own row of the inputs, so a point's block of rows is
  the same function of the point's input rows, and the fifty row blocks tile each output array.  Nothing is asked
  of the numbers: sums are reordered in a commutative monoid and the rectifier is a selection.
-/
import proofs.«129910_j60979945669188_1_alg».proof.Proof.Gen.KernelIdeal.Frame
import proofs.«129910_j60979945669188_1_alg».proof.Proof.DenseLayer
import proofs.«129910_j60979945669188_1_alg».proof.Proof.KernelDims

set_option maxRecDepth 16384

noncomputable section

namespace Cert.KernelIdeal.Encoder

open Cert.KernelIdeal Cert.KernelIdeal.Gen Cert.KernelIdeal.ProductDims Cert.DenseLayer
open Idealize.ShloMosaic Idealize.ShloMosaic.TcCoe Idealize.ShloMosaic.Tactic Idealize.SL.Sem Idealize.ShloMosaic.ValueIdx
open Idealize.ShloMosaic.Pipeline (Dat)
open scoped BigOperators

/-! ## The body's stored values at an entry -/

theorem pay2_apply (v0 : FVec Ideal S1000x768 .f32) (v1 : FVec Ideal S768x16 .f32) (v5 : FVec Ideal S16 .f32) (j : S1000x16.Idx) :
    k0_pay2 (F := Ideal) v0 v1 v5 j = layerEntry v0 v1 v5 (j 0) (j 1) :=
  (kernel_leaky_apply (addf (matmul (F := Ideal) dot_S1000x768_S768x16_S1000x16_1_0_0_1_n_n none (truncf .bf16 v0 bitsLt_bf16_f32)
      (truncf .bf16 v1 bitsLt_bf16_f32) (constant (F := Ideal) S1000x16 .f32 0x00000000#32))
    (broadcastTo S1000x16 (shapeCast S1x16 v5 shapeCasts_S16_S1x16) broadcasts_S1x16_S1000x16)) j).trans
    (congrArg leaky (kernel_affine_apply dot_S1000x768_S768x16_S1000x16_1_0_0_1_n_n rfl rfl enc768_l0 enc768_l1 enc768_r0 enc768_r1
      v0 v1 v5 bitsLt_bf16_f32 shapeCasts_S16_S1x16 broadcasts_S1x16_S1000x16 (by decide) j))

theorem pay3_apply (v0 : FVec Ideal S1000x768 .f32) (v1 : FVec Ideal S768x16 .f32) (v5 : FVec Ideal S16 .f32) (j : S1000x16.Idx) :
    k0_pay3 (F := Ideal) v0 v1 v5 j = layerEntry v0 v1 v5 (j 0) (j 1) :=
  (kernel_leaky_apply (addf (matmul (F := Ideal) dot_S1000x768_S768x16_S1000x16_1_0_0_1_n_n none (truncf .bf16 v0 bitsLt_bf16_f32)
      (truncf .bf16 v1 bitsLt_bf16_f32) (constant (F := Ideal) S1000x16 .f32 0x00000000#32))
    (broadcastTo S1000x16 (shapeCast S1x16 v5 shapeCasts_S16_S1x16) broadcasts_S1x16_S1000x16)) j).trans
    (congrArg leaky (kernel_affine_apply dot_S1000x768_S768x16_S1000x16_1_0_0_1_n_n rfl rfl enc768_l0 enc768_l1 enc768_r0 enc768_r1
      v0 v1 v5 bitsLt_bf16_f32 shapeCasts_S16_S1x16 broadcasts_S1x16_S1000x16 (by decide) j))

theorem pay6_apply (v0 : FVec Ideal S1000x5 .f32) (v1 : FVec Ideal S5x8 .f32) (v5 : FVec Ideal S8 .f32) (j : S1000x8.Idx) :
    k0_pay6 (F := Ideal) v0 v1 v5 j = layerEntry v0 v1 v5 (j 0) (j 1) :=
  (kernel_leaky_apply (addf (matmul (F := Ideal) dot_S1000x5_S5x8_S1000x8_1_0_0_1_n_n none (truncf .bf16 v0 bitsLt_bf16_f32)
      (truncf .bf16 v1 bitsLt_bf16_f32) (constant (F := Ideal) S1000x8 .f32 0x00000000#32))
    (broadcastTo S1000x8 (shapeCast S1x8 v5 shapeCasts_S8_S1x8) broadcasts_S1x8_S1000x8)) j).trans
    (congrArg leaky (kernel_affine_apply dot_S1000x5_S5x8_S1000x8_1_0_0_1_n_n rfl rfl enc5_l0 enc5_l1 enc5_r0 enc5_r1
      v0 v1 v5 bitsLt_bf16_f32 shapeCasts_S8_S1x8 broadcasts_S1x8_S1000x8 (by decide) j))

theorem pay7_apply (v0 : FVec Ideal S1000x7 .f32) (v1 : FVec Ideal S7x8 .f32) (v5 : FVec Ideal S8 .f32) (j : S1000x8.Idx) :
    k0_pay7 (F := Ideal) v0 v1 v5 j = layerEntry v0 v1 v5 (j 0) (j 1) :=
  (kernel_leaky_apply (addf (matmul (F := Ideal) dot_S1000x7_S7x8_S1000x8_1_0_0_1_n_n none (truncf .bf16 v0 bitsLt_bf16_f32)
      (truncf .bf16 v1 bitsLt_bf16_f32) (constant (F := Ideal) S1000x8 .f32 0x00000000#32))
    (broadcastTo S1000x8 (shapeCast S1x8 v5 shapeCasts_S8_S1x8) broadcasts_S1x8_S1000x8)) j).trans
    (congrArg leaky (kernel_affine_apply dot_S1000x7_S7x8_S1000x8_1_0_0_1_n_n rfl rfl enc7_l0 enc7_l1 enc7_r0 enc7_r1
      v0 v1 v5 bitsLt_bf16_f32 shapeCasts_S8_S1x8 broadcasts_S1x8_S1000x8 (by decide) j))

/-- The third encoder's layer is stored in two steps: the affine part, then the rectifier. -/
theorem pay54_apply (v0 : FVec Ideal S1000x768 .f32) (v1 : FVec Ideal S768x16 .f32) (v5 : FVec Ideal S16 .f32) (j : S1000x16.Idx) :
    k0_pay5 (F := Ideal) (k0_pay4 (F := Ideal) v0 v1 v5) j = layerEntry v0 v1 v5 (j 0) (j 1) :=
  (kernel_leaky_apply (k0_pay4 (F := Ideal) v0 v1 v5) j).trans
    (congrArg leaky (kernel_affine_apply dot_S1000x768_S768x16_S1000x16_1_0_0_1_n_n rfl rfl enc768_l0 enc768_l1 enc768_r0 enc768_r1
      v0 v1 v5 bitsLt_bf16_f32 shapeCasts_S16_S1x16 broadcasts_S1x16_S1000x16 (by decide) j))

theorem origin2 : (![0, 0] : Fin 2 → Nat) = fun _ => 0 := funext fun a => by fin_cases a <;> rfl
theorem origin1 : (![0] : Fin 1 → Nat) = fun _ => 0 := funext fun a => by fin_cases a; rfl

theorem pay1_apply (v75 : FVec Ideal S1000x64 .f32) (v77 : FVec Ideal S64x64 .f32) (v81 : FVec Ideal S64 .f32) (j : S1000x64.Idx) :
    k0_pay1 (F := Ideal) v75 v77 v81 j = layerEntry v75 v77 v81 (j 0) (j 1) := by
  unfold k0_pay1
  rw [shapeCast_self v75 shapeCasts_S1000x64_S1000x64]
  exact (kernel_leaky_apply _ j).trans (congrArg leaky (kernel_affine_apply dot_S1000x64_S64x64_S1000x64_1_0_0_1_n_n rfl rfl
    sq64_l0 sq64_l1 sq64_r0 sq64_r1 v75 v77 v81 bitsLt_bf16_f32 shapeCasts_S64_S1x64 broadcasts_S1x64_S1000x64 (by decide) j))

/-! ## What the body leaves in the two outputs' staging buffers -/

/-- The body's five column stores, last first. -/
abbrev columnStores (x0 x1 x2 : FVec Ideal S1000x768 .f32) (x3 : FVec Ideal S1000x5 .f32) (x4 : FVec Ideal S1000x7 .f32)
    (x5 : FVec Ideal S768x16 .f32) (x6 : FVec Ideal S16 .f32) (x7 : FVec Ideal S768x16 .f32) (x8 : FVec Ideal S16 .f32)
    (x9 : FVec Ideal S768x16 .f32) (x10 : FVec Ideal S16 .f32) (x11 : FVec Ideal S5x8 .f32) (x12 : FVec Ideal S8 .f32)
    (x13 : FVec Ideal S7x8 .f32) (x14 : FVec Ideal S8 .f32) : List (View.Piece (Elt Ideal) S1000x64 .f32) :=
  [⟨Rect.unit (s := S1000x64) ![0, 56] ![1000, 8] inb_S1000x64_S1000x8_0_56, k0_pay7 (F := Ideal) x4 x13 x14⟩,
        ⟨Rect.unit (s := S1000x64) ![0, 48] ![1000, 8] inb_S1000x64_S1000x8_0_48, k0_pay6 (F := Ideal) x3 x11 x12⟩,
        ⟨Rect.unit (s := S1000x64) ![0, 32] ![1000, 16] inb_S1000x64_S1000x16_0_32, k0_pay5 (F := Ideal) (k0_pay4 (F := Ideal) x2 x9 x10)⟩,
        ⟨Rect.unit (s := S1000x64) ![0, 16] ![1000, 16] inb_S1000x64_S1000x16_0_16, k0_pay3 (F := Ideal) x1 x7 x8⟩,
        ⟨Rect.unit (s := S1000x64) ![0, 0] ![1000, 16] inb_S1000x64_S1000x16_0_0, k0_pay2 (F := Ideal) x0 x5 x6⟩]

/-- The five stores tile the block: cut into pieces of eight columns they fill it. -/
theorem columnStores_cover (x0 x1 x2 : FVec Ideal S1000x768 .f32) (x3 : FVec Ideal S1000x5 .f32) (x4 : FVec Ideal S1000x7 .f32)
    (x5 : FVec Ideal S768x16 .f32) (x6 : FVec Ideal S16 .f32) (x7 : FVec Ideal S768x16 .f32) (x8 : FVec Ideal S16 .f32)
    (x9 : FVec Ideal S768x16 .f32) (x10 : FVec Ideal S16 .f32) (x11 : FVec Ideal S5x8 .f32) (x12 : FVec Ideal S8 .f32)
    (x13 : FVec Ideal S7x8 .f32) (x14 : FVec Ideal S8 .f32) (y : S1000x64.Idx) :
    ∃ pc ∈ columnStores x0 x1 x2 x3 x4 x5 x6 x7 x8 x9 x10 x11 x12 x13 x14, y ∈ pc.1.set :=
  View.cover_of_tiledBy (columnStores x0 x1 x2 x3 x4 x5 x6 x7 x8 x9 x10 x11 x12 x13 x14) ![1000, 8] (by sl_kernel_rfl) y

/-- What the five stores leave: the five encoders of the input blocks, side by side.  Each store's value is the
    joined matrix on the store's own columns, and the stores cover the block. -/
theorem columnStores_canon (x0 x1 x2 : FVec Ideal S1000x768 .f32) (x3 : FVec Ideal S1000x5 .f32) (x4 : FVec Ideal S1000x7 .f32)
    (x5 : FVec Ideal S768x16 .f32) (x6 : FVec Ideal S16 .f32) (x7 : FVec Ideal S768x16 .f32) (x8 : FVec Ideal S16 .f32)
    (x9 : FVec Ideal S768x16 .f32) (x10 : FVec Ideal S16 .f32) (x11 : FVec Ideal S5x8 .f32) (x12 : FVec Ideal S8 .f32)
    (x13 : FVec Ideal S7x8 .f32) (x14 : FVec Ideal S8 .f32) :
    View.canon (columnStores x0 x1 x2 x3 x4 x5 x6 x7 x8 x9 x10 x11 x12 x13 x14)
      = joinedLayers (a := 1000) x0 x1 x2 x3 x4 x5 x6 x7 x8 x9 x10 x11 x12 x13 x14 := by
  funext y
  refine View.canon_apply_of_pieces (Val := Elt Ideal) (S := S1000x64) (e := .f32)
    (joinedLayers (a := 1000) x0 x1 x2 x3 x4 x5 x6 x7 x8 x9 x10 x11 x12 x13 x14) _ ?_ y
    (columnStores_cover x0 x1 x2 x3 x4 x5 x6 x7 x8 x9 x10 x11 x12 x13 x14 y)
  intro p hp
  simp only [List.mem_cons, List.mem_nil_iff, or_false] at hp
  rcases hp with rfl | rfl | rfl | rfl | rfl
  · intro x
    have hr : ((Rect.unit (s := S1000x64) ![0, 56] ![1000, 8] inb_S1000x64_S1000x8_0_56).emb x) 0 = x 0 :=
      Fin.ext (by show 0 + 1 * (x 0).val = (x 0).val; omega)
    have hq : (((Rect.unit (s := S1000x64) ![0, 56] ![1000, 8] inb_S1000x64_S1000x8_0_56).emb x) 1).val = 56 + (x 1).val := by
      show 56 + 1 * (x 1).val = 56 + (x 1).val; omega
    refine (pay7_apply x4 x13 x14 x).trans ?_
    exact ((joinEntry_seg4 _ _ _ _ _ _ _ (x 1) hq).trans
      (congrArg (fun r => layerEntry x4 x13 x14 r (x 1)) hr)).symm
  · intro x
    have hr : ((Rect.unit (s := S1000x64) ![0, 48] ![1000, 8] inb_S1000x64_S1000x8_0_48).emb x) 0 = x 0 :=
      Fin.ext (by show 0 + 1 * (x 0).val = (x 0).val; omega)
    have hq : (((Rect.unit (s := S1000x64) ![0, 48] ![1000, 8] inb_S1000x64_S1000x8_0_48).emb x) 1).val = 48 + (x 1).val := by
      show 48 + 1 * (x 1).val = 48 + (x 1).val; omega
    refine (pay6_apply x3 x11 x12 x).trans ?_
    exact ((joinEntry_seg3 _ _ _ _ _ _ _ (x 1) hq).trans
      (congrArg (fun r => layerEntry x3 x11 x12 r (x 1)) hr)).symm
  · intro x
    have hr : ((Rect.unit (s := S1000x64) ![0, 32] ![1000, 16] inb_S1000x64_S1000x16_0_32).emb x) 0 = x 0 :=
      Fin.ext (by show 0 + 1 * (x 0).val = (x 0).val; omega)
    have hq : (((Rect.unit (s := S1000x64) ![0, 32] ![1000, 16] inb_S1000x64_S1000x16_0_32).emb x) 1).val = 32 + (x 1).val := by
      show 32 + 1 * (x 1).val = 32 + (x 1).val; omega
    refine (pay54_apply x2 x9 x10 x).trans ?_
    exact ((joinEntry_seg2 _ _ _ _ _ _ _ (x 1) hq).trans
      (congrArg (fun r => layerEntry x2 x9 x10 r (x 1)) hr)).symm
  · intro x
    have hr : ((Rect.unit (s := S1000x64) ![0, 16] ![1000, 16] inb_S1000x64_S1000x16_0_16).emb x) 0 = x 0 :=
      Fin.ext (by show 0 + 1 * (x 0).val = (x 0).val; omega)
    have hq : (((Rect.unit (s := S1000x64) ![0, 16] ![1000, 16] inb_S1000x64_S1000x16_0_16).emb x) 1).val = 16 + (x 1).val := by
      show 16 + 1 * (x 1).val = 16 + (x 1).val; omega
    refine (pay3_apply x1 x7 x8 x).trans ?_
    exact ((joinEntry_seg1 _ _ _ _ _ _ _ (x 1) hq).trans
      (congrArg (fun r => layerEntry x1 x7 x8 r (x 1)) hr)).symm
  · intro x
    have hr : ((Rect.unit (s := S1000x64) ![0, 0] ![1000, 16] inb_S1000x64_S1000x16_0_0).emb x) 0 = x 0 :=
      Fin.ext (by show 0 + 1 * (x 0).val = (x 0).val; omega)
    have hq : (((Rect.unit (s := S1000x64) ![0, 0] ![1000, 16] inb_S1000x64_S1000x16_0_0).emb x) 1).val = 0 + (x 1).val := by
      show 0 + 1 * (x 1).val = 0 + (x 1).val; omega
    refine (pay2_apply x0 x5 x6 x).trans ?_
    exact ((joinEntry_seg0 _ _ _ _ _ _ _ (x 1) (by rw [hq]; omega)).trans
      (congrArg (fun r => layerEntry x0 x5 x6 r (x 1)) hr)).symm

set_option maxHeartbeats 4000000 in
/-- What the body leaves in the first output's staging buffer. -/
theorem x1_block_eq (c : Dev nD) (i : grid0.Coords) (arg1 : Memref sig .tc .vmem S1000x768 .f32) (harg1 : arg1.IsWhole) (arg2 : Memref sig .tc .vmem S1000x768 .f32) (harg2 : arg2.IsWhole) (arg3 : Memref sig .tc .vmem S1000x768 .f32) (harg3 : arg3.IsWhole) (arg4 : Memref sig .tc .vmem S1000x5 .f32) (harg4 : arg4.IsWhole) (arg5 : Memref sig .tc .vmem S1000x7 .f32) (harg5 : arg5.IsWhole) (arg6 : Memref sig .tc .vmem S768x16 .f32) (harg6 : arg6.IsWhole) (arg7 : Memref sig .tc .vmem S16 .f32) (harg7 : arg7.IsWhole) (arg8 : Memref sig .tc .vmem S768x16 .f32) (harg8 : arg8.IsWhole) (arg9 : Memref sig .tc .vmem S16 .f32) (harg9 : arg9.IsWhole) (arg10 : Memref sig .tc .vmem S768x16 .f32) (harg10 : arg10.IsWhole) (arg11 : Memref sig .tc .vmem S16 .f32) (harg11 : arg11.IsWhole) (arg12 : Memref sig .tc .vmem S5x8 .f32) (harg12 : arg12.IsWhole) (arg13 : Memref sig .tc .vmem S8 .f32) (harg13 : arg13.IsWhole) (arg14 : Memref sig .tc .vmem S7x8 .f32) (harg14 : arg14.IsWhole) (arg15 : Memref sig .tc .vmem S8 .f32) (harg15 : arg15.IsWhole) (arg16 : Memref sig .tc .vmem S64x64 .f32) (harg16 : arg16.IsWhole) (arg17 : Memref sig .tc .vmem S64 .f32) (harg17 : arg17.IsWhole) (arg18 : Memref sig .tc .vmem S1000x64 .f32) (harg18 : arg18.IsWhole) (arg19 : Memref sig .tc .vmem S1000x64 .f32) (harg19 : arg19.IsWhole)
    (x0 : Vec Ideal S1000x768 .f32) (x1 : Vec Ideal S1000x768 .f32) (x2 : Vec Ideal S1000x768 .f32) (x3 : Vec Ideal S1000x5 .f32) (x4 : Vec Ideal S1000x7 .f32) (x5 : Vec Ideal S768x16 .f32) (x6 : Vec Ideal S16 .f32) (x7 : Vec Ideal S768x16 .f32) (x8 : Vec Ideal S16 .f32) (x9 : Vec Ideal S768x16 .f32) (x10 : Vec Ideal S16 .f32) (x11 : Vec Ideal S5x8 .f32) (x12 : Vec Ideal S8 .f32) (x13 : Vec Ideal S7x8 .f32) (x14 : Vec Ideal S8 .f32) (x15 : Vec Ideal S64x64 .f32) (x16 : Vec Ideal S64 .f32) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 = joinedLayers (a := 1000) x0 x1 x2 x3 x4 x5 x6 x7 x8 x9 x10 x11 x12 x13 x14 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg16.read_unread, harg17.read_unread,
    View.ld_unit_zero (S := S1000x768) origin2, View.ld_unit_zero (S := S1000x5) origin2, View.ld_unit_zero (S := S1000x7) origin2,
    View.ld_unit_zero (S := S768x16) origin2, View.ld_unit_zero (S := S5x8) origin2, View.ld_unit_zero (S := S7x8) origin2,
    View.ld_unit_zero (S := S64x64) origin2, View.ld_unit_zero (S := S16) origin1, View.ld_unit_zero (S := S8) origin1,
    View.ld_unit_zero (S := S64) origin1]
  exact columnStores_canon x0 x1 x2 x3 x4 x5 x6 x7 x8 x9 x10 x11 x12 x13 x14

set_option maxHeartbeats 4000000 in
/-- What the body leaves in the second output's staging buffer: it loads the first output's buffer back whole,
    which holds what the five stores left, and puts one more layer on it. -/
theorem x_block_eq (c : Dev nD) (i : grid0.Coords) (arg1 : Memref sig .tc .vmem S1000x768 .f32) (harg1 : arg1.IsWhole) (arg2 : Memref sig .tc .vmem S1000x768 .f32) (harg2 : arg2.IsWhole) (arg3 : Memref sig .tc .vmem S1000x768 .f32) (harg3 : arg3.IsWhole) (arg4 : Memref sig .tc .vmem S1000x5 .f32) (harg4 : arg4.IsWhole) (arg5 : Memref sig .tc .vmem S1000x7 .f32) (harg5 : arg5.IsWhole) (arg6 : Memref sig .tc .vmem S768x16 .f32) (harg6 : arg6.IsWhole) (arg7 : Memref sig .tc .vmem S16 .f32) (harg7 : arg7.IsWhole) (arg8 : Memref sig .tc .vmem S768x16 .f32) (harg8 : arg8.IsWhole) (arg9 : Memref sig .tc .vmem S16 .f32) (harg9 : arg9.IsWhole) (arg10 : Memref sig .tc .vmem S768x16 .f32) (harg10 : arg10.IsWhole) (arg11 : Memref sig .tc .vmem S16 .f32) (harg11 : arg11.IsWhole) (arg12 : Memref sig .tc .vmem S5x8 .f32) (harg12 : arg12.IsWhole) (arg13 : Memref sig .tc .vmem S8 .f32) (harg13 : arg13.IsWhole) (arg14 : Memref sig .tc .vmem S7x8 .f32) (harg14 : arg14.IsWhole) (arg15 : Memref sig .tc .vmem S8 .f32) (harg15 : arg15.IsWhole) (arg16 : Memref sig .tc .vmem S64x64 .f32) (harg16 : arg16.IsWhole) (arg17 : Memref sig .tc .vmem S64 .f32) (harg17 : arg17.IsWhole) (arg18 : Memref sig .tc .vmem S1000x64 .f32) (harg18 : arg18.IsWhole) (arg19 : Memref sig .tc .vmem S1000x64 .f32) (harg19 : arg19.IsWhole)
    (x0 : Vec Ideal S1000x768 .f32) (x1 : Vec Ideal S1000x768 .f32) (x2 : Vec Ideal S1000x768 .f32) (x3 : Vec Ideal S1000x5 .f32) (x4 : Vec Ideal S1000x7 .f32) (x5 : Vec Ideal S768x16 .f32) (x6 : Vec Ideal S16 .f32) (x7 : Vec Ideal S768x16 .f32) (x8 : Vec Ideal S16 .f32) (x9 : Vec Ideal S768x16 .f32) (x10 : Vec Ideal S16 .f32) (x11 : Vec Ideal S5x8 .f32) (x12 : Vec Ideal S8 .f32) (x13 : Vec Ideal S7x8 .f32) (x14 : Vec Ideal S8 .f32) (x15 : Vec Ideal S64x64 .f32) (x16 : Vec Ideal S64 .f32) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16
      = encoded (a := 1000) x0 x1 x2 x3 x4 x5 x6 x7 x8 x9 x10 x11 x12 x13 x14 x15 x16 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg16.read_unread, harg17.read_unread,
    View.ld_unit_zero (S := S1000x768) origin2, View.ld_unit_zero (S := S1000x5) origin2, View.ld_unit_zero (S := S1000x7) origin2,
    View.ld_unit_zero (S := S768x16) origin2, View.ld_unit_zero (S := S5x8) origin2, View.ld_unit_zero (S := S7x8) origin2,
    View.ld_unit_zero (S := S64x64) origin2, View.ld_unit_zero (S := S16) origin1, View.ld_unit_zero (S := S8) origin1,
    View.ld_unit_zero (S := S64) origin1]
  rw [View.canon_unit_zero origin2]
  rw [View.readCov_eq_canon_ld _ _ _ (columnStores_cover x0 x1 x2 x3 x4 x5 x6 x7 x8 x9 x10 x11 x12 x13 x14),
    columnStores_canon, View.ld_unit_zero origin2]
  funext y
  exact pay1_apply (joinedLayers (a := 1000) x0 x1 x2 x3 x4 x5 x6 x7 x8 x9 x10 x11 x12 x13 x14) x15 x16 y

/-! ## From blocks to the arrays -/

-- the buffer contents the launch finds
variable (V : (c : Dev nD) → (b : Ref sig .tc) → Buf (Elt Ideal) ((c : Thread nD τ).loc b))

/-! The weights' and biases' windows stay at the origin and take the whole array: their block at every point is
    the array. -/
theorem fixedIndex_5 : ∀ t : Fin cfg0.N, win0_5.index t (0 : Fin 2) = 0 ∧ win0_5.index t (1 : Fin 2) = 0 :=
  (by decide +kernel : ∀ t : Fin grid0.N, _)
theorem fixedIndex_6 : ∀ t : Fin cfg0.N, win0_6.index t (0 : Fin 1) = 0 :=
  (by decide +kernel : ∀ t : Fin grid0.N, _)
theorem fixedIndex_7 : ∀ t : Fin cfg0.N, win0_7.index t (0 : Fin 2) = 0 ∧ win0_7.index t (1 : Fin 2) = 0 :=
  (by decide +kernel : ∀ t : Fin grid0.N, _)
theorem fixedIndex_8 : ∀ t : Fin cfg0.N, win0_8.index t (0 : Fin 1) = 0 :=
  (by decide +kernel : ∀ t : Fin grid0.N, _)
theorem fixedIndex_9 : ∀ t : Fin cfg0.N, win0_9.index t (0 : Fin 2) = 0 ∧ win0_9.index t (1 : Fin 2) = 0 :=
  (by decide +kernel : ∀ t : Fin grid0.N, _)
theorem fixedIndex_10 : ∀ t : Fin cfg0.N, win0_10.index t (0 : Fin 1) = 0 :=
  (by decide +kernel : ∀ t : Fin grid0.N, _)
theorem fixedIndex_11 : ∀ t : Fin cfg0.N, win0_11.index t (0 : Fin 2) = 0 ∧ win0_11.index t (1 : Fin 2) = 0 :=
  (by decide +kernel : ∀ t : Fin grid0.N, _)
theorem fixedIndex_12 : ∀ t : Fin cfg0.N, win0_12.index t (0 : Fin 1) = 0 :=
  (by decide +kernel : ∀ t : Fin grid0.N, _)
theorem fixedIndex_13 : ∀ t : Fin cfg0.N, win0_13.index t (0 : Fin 2) = 0 ∧ win0_13.index t (1 : Fin 2) = 0 :=
  (by decide +kernel : ∀ t : Fin grid0.N, _)
theorem fixedIndex_14 : ∀ t : Fin cfg0.N, win0_14.index t (0 : Fin 1) = 0 :=
  (by decide +kernel : ∀ t : Fin grid0.N, _)
theorem fixedIndex_15 : ∀ t : Fin cfg0.N, win0_15.index t (0 : Fin 2) = 0 ∧ win0_15.index t (1 : Fin 2) = 0 :=
  (by decide +kernel : ∀ t : Fin grid0.N, _)
theorem fixedIndex_16 : ∀ t : Fin cfg0.N, win0_16.index t (0 : Fin 1) = 0 :=
  (by decide +kernel : ∀ t : Fin grid0.N, _)
theorem fixedBlock_5 (c : Dev nD) (t : Fin cfg0.N) : (iblk0 V c 5 t : FVec Ideal S768x16 .f32) = (V c main_arg6 : FVec Ideal S768x16 .f32) := by
  obtain ⟨e0, e1⟩ := fixedIndex_5 t
  funext y
  show (V c main_arg6 : FVec Ideal S768x16 .f32) (((cfg0.win 5).blk t).view.emb y) = (V c main_arg6 : FVec Ideal S768x16 .f32) y
  refine congrArg _ (funext fun a => Fin.ext ?_)
  match a with
  | ⟨0, _⟩ =>
    show win0_5.index t (0 : Fin 2) * 768 + 1 * (y 0).val = (y 0).val
    omega
  | ⟨1, _⟩ =>
    show win0_5.index t (1 : Fin 2) * 16 + 1 * (y 1).val = (y 1).val
    omega
theorem fixedBlock_6 (c : Dev nD) (t : Fin cfg0.N) : (iblk0 V c 6 t : FVec Ideal S16 .f32) = (V c main_arg7 : FVec Ideal S16 .f32) := by
  have e0 := fixedIndex_6 t
  funext y
  show (V c main_arg7 : FVec Ideal S16 .f32) (((cfg0.win 6).blk t).view.emb y) = (V c main_arg7 : FVec Ideal S16 .f32) y
  refine congrArg _ (funext fun a => Fin.ext ?_)
  match a with
  | ⟨0, _⟩ =>
    show win0_6.index t (0 : Fin 1) * 16 + 1 * (y 0).val = (y 0).val
    omega
theorem fixedBlock_7 (c : Dev nD) (t : Fin cfg0.N) : (iblk0 V c 7 t : FVec Ideal S768x16 .f32) = (V c main_arg8 : FVec Ideal S768x16 .f32) := by
  obtain ⟨e0, e1⟩ := fixedIndex_7 t
  funext y
  show (V c main_arg8 : FVec Ideal S768x16 .f32) (((cfg0.win 7).blk t).view.emb y) = (V c main_arg8 : FVec Ideal S768x16 .f32) y
  refine congrArg _ (funext fun a => Fin.ext ?_)
  match a with
  | ⟨0, _⟩ =>
    show win0_7.index t (0 : Fin 2) * 768 + 1 * (y 0).val = (y 0).val
    omega
  | ⟨1, _⟩ =>
    show win0_7.index t (1 : Fin 2) * 16 + 1 * (y 1).val = (y 1).val
    omega
theorem fixedBlock_8 (c : Dev nD) (t : Fin cfg0.N) : (iblk0 V c 8 t : FVec Ideal S16 .f32) = (V c main_arg9 : FVec Ideal S16 .f32) := by
  have e0 := fixedIndex_8 t
  funext y
  show (V c main_arg9 : FVec Ideal S16 .f32) (((cfg0.win 8).blk t).view.emb y) = (V c main_arg9 : FVec Ideal S16 .f32) y
  refine congrArg _ (funext fun a => Fin.ext ?_)
  match a with
  | ⟨0, _⟩ =>
    show win0_8.index t (0 : Fin 1) * 16 + 1 * (y 0).val = (y 0).val
    omega
theorem fixedBlock_9 (c : Dev nD) (t : Fin cfg0.N) : (iblk0 V c 9 t : FVec Ideal S768x16 .f32) = (V c main_arg10 : FVec Ideal S768x16 .f32) := by
  obtain ⟨e0, e1⟩ := fixedIndex_9 t
  funext y
  show (V c main_arg10 : FVec Ideal S768x16 .f32) (((cfg0.win 9).blk t).view.emb y) = (V c main_arg10 : FVec Ideal S768x16 .f32) y
  refine congrArg _ (funext fun a => Fin.ext ?_)
  match a with
  | ⟨0, _⟩ =>
    show win0_9.index t (0 : Fin 2) * 768 + 1 * (y 0).val = (y 0).val
    omega
  | ⟨1, _⟩ =>
    show win0_9.index t (1 : Fin 2) * 16 + 1 * (y 1).val = (y 1).val
    omega
theorem fixedBlock_10 (c : Dev nD) (t : Fin cfg0.N) : (iblk0 V c 10 t : FVec Ideal S16 .f32) = (V c main_arg11 : FVec Ideal S16 .f32) := by
  have e0 := fixedIndex_10 t
  funext y
  show (V c main_arg11 : FVec Ideal S16 .f32) (((cfg0.win 10).blk t).view.emb y) = (V c main_arg11 : FVec Ideal S16 .f32) y
  refine congrArg _ (funext fun a => Fin.ext ?_)
  match a with
  | ⟨0, _⟩ =>
    show win0_10.index t (0 : Fin 1) * 16 + 1 * (y 0).val = (y 0).val
    omega
theorem fixedBlock_11 (c : Dev nD) (t : Fin cfg0.N) : (iblk0 V c 11 t : FVec Ideal S5x8 .f32) = (V c main_arg12 : FVec Ideal S5x8 .f32) := by
  obtain ⟨e0, e1⟩ := fixedIndex_11 t
  funext y
  show (V c main_arg12 : FVec Ideal S5x8 .f32) (((cfg0.win 11).blk t).view.emb y) = (V c main_arg12 : FVec Ideal S5x8 .f32) y
  refine congrArg _ (funext fun a => Fin.ext ?_)
  match a with
  | ⟨0, _⟩ =>
    show win0_11.index t (0 : Fin 2) * 5 + 1 * (y 0).val = (y 0).val
    omega
  | ⟨1, _⟩ =>
    show win0_11.index t (1 : Fin 2) * 8 + 1 * (y 1).val = (y 1).val
    omega
theorem fixedBlock_12 (c : Dev nD) (t : Fin cfg0.N) : (iblk0 V c 12 t : FVec Ideal S8 .f32) = (V c main_arg13 : FVec Ideal S8 .f32) := by
  have e0 := fixedIndex_12 t
  funext y
  show (V c main_arg13 : FVec Ideal S8 .f32) (((cfg0.win 12).blk t).view.emb y) = (V c main_arg13 : FVec Ideal S8 .f32) y
  refine congrArg _ (funext fun a => Fin.ext ?_)
  match a with
  | ⟨0, _⟩ =>
    show win0_12.index t (0 : Fin 1) * 8 + 1 * (y 0).val = (y 0).val
    omega
theorem fixedBlock_13 (c : Dev nD) (t : Fin cfg0.N) : (iblk0 V c 13 t : FVec Ideal S7x8 .f32) = (V c main_arg14 : FVec Ideal S7x8 .f32) := by
  obtain ⟨e0, e1⟩ := fixedIndex_13 t
  funext y
  show (V c main_arg14 : FVec Ideal S7x8 .f32) (((cfg0.win 13).blk t).view.emb y) = (V c main_arg14 : FVec Ideal S7x8 .f32) y
  refine congrArg _ (funext fun a => Fin.ext ?_)
  match a with
  | ⟨0, _⟩ =>
    show win0_13.index t (0 : Fin 2) * 7 + 1 * (y 0).val = (y 0).val
    omega
  | ⟨1, _⟩ =>
    show win0_13.index t (1 : Fin 2) * 8 + 1 * (y 1).val = (y 1).val
    omega
theorem fixedBlock_14 (c : Dev nD) (t : Fin cfg0.N) : (iblk0 V c 14 t : FVec Ideal S8 .f32) = (V c main_arg15 : FVec Ideal S8 .f32) := by
  have e0 := fixedIndex_14 t
  funext y
  show (V c main_arg15 : FVec Ideal S8 .f32) (((cfg0.win 14).blk t).view.emb y) = (V c main_arg15 : FVec Ideal S8 .f32) y
  refine congrArg _ (funext fun a => Fin.ext ?_)
  match a with
  | ⟨0, _⟩ =>
    show win0_14.index t (0 : Fin 1) * 8 + 1 * (y 0).val = (y 0).val
    omega
theorem fixedBlock_15 (c : Dev nD) (t : Fin cfg0.N) : (iblk0 V c 15 t : FVec Ideal S64x64 .f32) = (V c main_arg16 : FVec Ideal S64x64 .f32) := by
  obtain ⟨e0, e1⟩ := fixedIndex_15 t
  funext y
  show (V c main_arg16 : FVec Ideal S64x64 .f32) (((cfg0.win 15).blk t).view.emb y) = (V c main_arg16 : FVec Ideal S64x64 .f32) y
  refine congrArg _ (funext fun a => Fin.ext ?_)
  match a with
  | ⟨0, _⟩ =>
    show win0_15.index t (0 : Fin 2) * 64 + 1 * (y 0).val = (y 0).val
    omega
  | ⟨1, _⟩ =>
    show win0_15.index t (1 : Fin 2) * 64 + 1 * (y 1).val = (y 1).val
    omega
theorem fixedBlock_16 (c : Dev nD) (t : Fin cfg0.N) : (iblk0 V c 16 t : FVec Ideal S64 .f32) = (V c main_arg17 : FVec Ideal S64 .f32) := by
  have e0 := fixedIndex_16 t
  funext y
  show (V c main_arg17 : FVec Ideal S64 .f32) (((cfg0.win 16).blk t).view.emb y) = (V c main_arg17 : FVec Ideal S64 .f32) y
  refine congrArg _ (funext fun a => Fin.ext ?_)
  match a with
  | ⟨0, _⟩ =>
    show win0_16.index t (0 : Fin 1) * 64 + 1 * (y 0).val = (y 0).val
    omega

/-! The five row-tiled inputs' windows move with the outputs': row `r` of the block at point `t` is row
    `1000 t + r` of the array. -/
theorem rowIndex_0 : ∀ t : Fin cfg0.N, win0_0.index t (0 : Fin 2) = win0_17.index t (0 : Fin 2) ∧ win0_0.index t (1 : Fin 2) = 0 :=
  (by decide +kernel : ∀ t : Fin grid0.N, _)
theorem rowIndex_1 : ∀ t : Fin cfg0.N, win0_1.index t (0 : Fin 2) = win0_17.index t (0 : Fin 2) ∧ win0_1.index t (1 : Fin 2) = 0 :=
  (by decide +kernel : ∀ t : Fin grid0.N, _)
theorem rowIndex_2 : ∀ t : Fin cfg0.N, win0_2.index t (0 : Fin 2) = win0_17.index t (0 : Fin 2) ∧ win0_2.index t (1 : Fin 2) = 0 :=
  (by decide +kernel : ∀ t : Fin grid0.N, _)
theorem rowIndex_3 : ∀ t : Fin cfg0.N, win0_3.index t (0 : Fin 2) = win0_17.index t (0 : Fin 2) ∧ win0_3.index t (1 : Fin 2) = 0 :=
  (by decide +kernel : ∀ t : Fin grid0.N, _)
theorem rowIndex_4 : ∀ t : Fin cfg0.N, win0_4.index t (0 : Fin 2) = win0_17.index t (0 : Fin 2) ∧ win0_4.index t (1 : Fin 2) = 0 :=
  (by decide +kernel : ∀ t : Fin grid0.N, _)
theorem rowBlock_0 (c : Dev nD) (t : Fin cfg0.N) (r : Fin 1000) (r' : Fin 50000)
    (hr : r'.val = win0_17.index t (0 : Fin 2) * 1000 + r.val) (k : Fin 768) :
    (iblk0 V c 0 t : FVec Ideal S1000x768 .f32) (ix2 r k) = (V c main_arg0 : FVec Ideal S50000x768 .f32) (ix2 r' k) := by
  obtain ⟨e0, e1⟩ := rowIndex_0 t
  show (V c main_arg0 : FVec Ideal S50000x768 .f32) (((cfg0.win 0).blk t).view.emb (ix2 r k)) = _
  refine congrArg _ (funext fun a => Fin.ext ?_)
  match a with
  | ⟨0, _⟩ =>
    show win0_0.index t (0 : Fin 2) * 1000 + 1 * r.val = r'.val
    omega
  | ⟨1, _⟩ =>
    show win0_0.index t (1 : Fin 2) * 768 + 1 * k.val = k.val
    omega
theorem rowBlock_1 (c : Dev nD) (t : Fin cfg0.N) (r : Fin 1000) (r' : Fin 50000)
    (hr : r'.val = win0_17.index t (0 : Fin 2) * 1000 + r.val) (k : Fin 768) :
    (iblk0 V c 1 t : FVec Ideal S1000x768 .f32) (ix2 r k) = (V c main_arg1 : FVec Ideal S50000x768 .f32) (ix2 r' k) := by
  obtain ⟨e0, e1⟩ := rowIndex_1 t
  show (V c main_arg1 : FVec Ideal S50000x768 .f32) (((cfg0.win 1).blk t).view.emb (ix2 r k)) = _
  refine congrArg _ (funext fun a => Fin.ext ?_)
  match a with
  | ⟨0, _⟩ =>
    show win0_1.index t (0 : Fin 2) * 1000 + 1 * r.val = r'.val
    omega
  | ⟨1, _⟩ =>
    show win0_1.index t (1 : Fin 2) * 768 + 1 * k.val = k.val
    omega
theorem rowBlock_2 (c : Dev nD) (t : Fin cfg0.N) (r : Fin 1000) (r' : Fin 50000)
    (hr : r'.val = win0_17.index t (0 : Fin 2) * 1000 + r.val) (k : Fin 768) :
    (iblk0 V c 2 t : FVec Ideal S1000x768 .f32) (ix2 r k) = (V c main_arg2 : FVec Ideal S50000x768 .f32) (ix2 r' k) := by
  obtain ⟨e0, e1⟩ := rowIndex_2 t
  show (V c main_arg2 : FVec Ideal S50000x768 .f32) (((cfg0.win 2).blk t).view.emb (ix2 r k)) = _
  refine congrArg _ (funext fun a => Fin.ext ?_)
  match a with
  | ⟨0, _⟩ =>
    show win0_2.index t (0 : Fin 2) * 1000 + 1 * r.val = r'.val
    omega
  | ⟨1, _⟩ =>
    show win0_2.index t (1 : Fin 2) * 768 + 1 * k.val = k.val
    omega
theorem rowBlock_3 (c : Dev nD) (t : Fin cfg0.N) (r : Fin 1000) (r' : Fin 50000)
    (hr : r'.val = win0_17.index t (0 : Fin 2) * 1000 + r.val) (k : Fin 5) :
    (iblk0 V c 3 t : FVec Ideal S1000x5 .f32) (ix2 r k) = (V c main_arg3 : FVec Ideal S50000x5 .f32) (ix2 r' k) := by
  obtain ⟨e0, e1⟩ := rowIndex_3 t
  show (V c main_arg3 : FVec Ideal S50000x5 .f32) (((cfg0.win 3).blk t).view.emb (ix2 r k)) = _
  refine congrArg _ (funext fun a => Fin.ext ?_)
  match a with
  | ⟨0, _⟩ =>
    show win0_3.index t (0 : Fin 2) * 1000 + 1 * r.val = r'.val
    omega
  | ⟨1, _⟩ =>
    show win0_3.index t (1 : Fin 2) * 5 + 1 * k.val = k.val
    omega
theorem rowBlock_4 (c : Dev nD) (t : Fin cfg0.N) (r : Fin 1000) (r' : Fin 50000)
    (hr : r'.val = win0_17.index t (0 : Fin 2) * 1000 + r.val) (k : Fin 7) :
    (iblk0 V c 4 t : FVec Ideal S1000x7 .f32) (ix2 r k) = (V c main_arg4 : FVec Ideal S50000x7 .f32) (ix2 r' k) := by
  obtain ⟨e0, e1⟩ := rowIndex_4 t
  show (V c main_arg4 : FVec Ideal S50000x7 .f32) (((cfg0.win 4).blk t).view.emb (ix2 r k)) = _
  refine congrArg _ (funext fun a => Fin.ext ?_)
  match a with
  | ⟨0, _⟩ =>
    show win0_4.index t (0 : Fin 2) * 1000 + 1 * r.val = r'.val
    omega
  | ⟨1, _⟩ =>
    show win0_4.index t (1 : Fin 2) * 7 + 1 * k.val = k.val
    omega

/-- Output window 17's block indices: the fifty row blocks. -/
theorem outIndex_17 : ∀ t : Fin cfg0.N, win0_17.index t (0 : Fin 2) = win0_17.index t (0 : Fin 2) ∧ win0_17.index t (1 : Fin 2) = 0
    ∧ win0_17.index t (0 : Fin 2) ≤ 49 :=
  (by decide +kernel : ∀ t : Fin grid0.N, _)
theorem outOnto_17 : ∀ q0 : Fin 50, ∃ t : Fin cfg0.N, win0_17.index t = ![q0.val, 0] :=
  (by decide +kernel : ∀ q0 : Fin 50, ∃ t : Fin grid0.N, win0_17.index t = ![q0.val, 0])

/-- What point `t` writes back through output window 17 is block `t` of the whole-array function. -/
theorem flushed17_eq (c : Dev nD) (t : Fin cfg0.N) :
    (dat0 V c).flushed 17 t = ((cfg0.win 17).blk t).view.read (Elt Ideal)
      (joinedLayers (a := 50000) (V c main_arg0) (V c main_arg1) (V c main_arg2) (V c main_arg3) (V c main_arg4) (V c main_arg6) (V c main_arg7) (V c main_arg8) (V c main_arg9) (V c main_arg10) (V c main_arg11) (V c main_arg12) (V c main_arg13) (V c main_arg14) (V c main_arg15)) := by
  show (cfg0.win 17).cut (grid0.coords t) ((dat0 V c).after 17 t) = _
  rw [after0_17]
  unfold outsAt0
  dsimp only
  refine (x1_block_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)).trans ?_
  rw [fixedBlock_5 V c t, fixedBlock_6 V c t, fixedBlock_7 V c t, fixedBlock_8 V c t, fixedBlock_9 V c t, fixedBlock_10 V c t, fixedBlock_11 V c t, fixedBlock_12 V c t, fixedBlock_13 V c t, fixedBlock_14 V c t]
  obtain ⟨e0, e1, e2⟩ := outIndex_17 t
  funext j
  obtain ⟨r, q, rfl⟩ : ∃ (r : Fin 1000) (q : Fin 64), j = ix2 r q := ⟨j 0, j 1, eq_ix2 j⟩
  have he : ((cfg0.win 17).blk t).view.emb (ix2 r q)
      = ix2 (⟨win0_17.index t (0 : Fin 2) * 1000 + r.val, by have := r.isLt; omega⟩ : Fin 50000) q :=
    funext fun a => Fin.ext (by
      match a with
      | ⟨0, _⟩ =>
        show win0_17.index t (0 : Fin 2) * 1000 + 1 * r.val = win0_17.index t (0 : Fin 2) * 1000 + r.val
        omega
      | ⟨1, _⟩ =>
        show win0_17.index t (1 : Fin 2) * 64 + 1 * q.val = q.val
        omega)
  show joinedLayers (a := 1000) (iblk0 V c 0 t) (iblk0 V c 1 t) (iblk0 V c 2 t) (iblk0 V c 3 t) (iblk0 V c 4 t) (V c main_arg6) (V c main_arg7) (V c main_arg8) (V c main_arg9) (V c main_arg10) (V c main_arg11) (V c main_arg12) (V c main_arg13) (V c main_arg14) (V c main_arg15) (ix2 r q)
    = joinedLayers (a := 50000) (V c main_arg0) (V c main_arg1) (V c main_arg2) (V c main_arg3) (V c main_arg4) (V c main_arg6) (V c main_arg7) (V c main_arg8) (V c main_arg9) (V c main_arg10) (V c main_arg11) (V c main_arg12) (V c main_arg13) (V c main_arg14) (V c main_arg15) (((cfg0.win 17).blk t).view.emb (ix2 r q))
  rw [he]
  exact joinedLayers_rows _ _ _ _ _ _ _ _ _ _ _ _ _ _ _ _ _ _ _ _ r _ q
    (fun k => rowBlock_0 V c t r _ rfl k) (fun k => rowBlock_1 V c t r _ rfl k) (fun k => rowBlock_2 V c t r _ rfl k)
    (fun k => rowBlock_3 V c t r _ rfl k) (fun k => rowBlock_4 V c t r _ rfl k)

theorem mem_block17 (t : Fin cfg0.N) (i : S50000x64.Idx) :
    i ∈ ((cfg0.win 17).blk t).view.set ↔ ∀ a : Fin 2, win0_17.index t a * S1000x64.size a ≤ (i a).val
      ∧ (i a).val < win0_17.index t a * S1000x64.size a + S1000x64.size a := by
  show i ∈ ((View.whole main_v0_0).slice (win0_17.rect t)).set ↔ _
  rw [View.set_slice_whole, Rect.mem_set_unit]
  exact Iff.rfl

theorem blocks_cover17 (i : S50000x64.Idx) :
    ∃ t : Fin cfg0.N, (cfg0.win 17).flush t = true ∧ i ∈ ((cfg0.win 17).blk t).view.set := by
  have hi0 : (i 0).val < 50000 := (i 0).isLt
  have hi1 : (i 1).val < 64 := (i 1).isLt
  obtain ⟨t, ht⟩ := outOnto_17 ⟨(i 0).val / 1000, by omega⟩
  have q0 : win0_17.index t (0 : Fin 2) = (i 0).val / 1000 := congrFun ht 0
  have q1 : win0_17.index t (1 : Fin 2) = 0 := congrFun ht 1
  refine ⟨t, flush0_17 t, ?_⟩
  rw [mem_block17]
  intro a
  match a with
  | ⟨0, _⟩ =>
    show win0_17.index t (0 : Fin 2) * 1000 ≤ (i 0).val ∧ (i 0).val < win0_17.index t (0 : Fin 2) * 1000 + 1000
    omega
  | ⟨1, _⟩ =>
    show win0_17.index t (1 : Fin 2) * 64 ≤ (i 1).val ∧ (i 1).val < win0_17.index t (1 : Fin 2) * 64 + 64
    omega

/-- After the launch, output array one (the joined encoders) of the arrays the launch found. -/
theorem array17_eq (c : Dev nD) :
    (dat0 V c).arrAt 17 cfg0.N = joinedLayers (a := 50000) (V c main_arg0) (V c main_arg1) (V c main_arg2) (V c main_arg3) (V c main_arg4) (V c main_arg6) (V c main_arg7) (V c main_arg8) (V c main_arg9) (V c main_arg10) (V c main_arg11) (V c main_arg12) (V c main_arg13) (V c main_arg14) (V c main_arg15) :=
  (dat0 V c).arrAt_eq_of_cover 17 _ (fun t _ => flushed17_eq V c t) blocks_cover17

/-- Output window 18's block indices: the fifty row blocks. -/
theorem outIndex_18 : ∀ t : Fin cfg0.N, win0_18.index t (0 : Fin 2) = win0_17.index t (0 : Fin 2) ∧ win0_18.index t (1 : Fin 2) = 0
    ∧ win0_17.index t (0 : Fin 2) ≤ 49 :=
  (by decide +kernel : ∀ t : Fin grid0.N, _)
theorem outOnto_18 : ∀ q0 : Fin 50, ∃ t : Fin cfg0.N, win0_18.index t = ![q0.val, 0] :=
  (by decide +kernel : ∀ q0 : Fin 50, ∃ t : Fin grid0.N, win0_18.index t = ![q0.val, 0])

/-- What point `t` writes back through output window 18 is block `t` of the whole-array function. -/
theorem flushed18_eq (c : Dev nD) (t : Fin cfg0.N) :
    (dat0 V c).flushed 18 t = ((cfg0.win 18).blk t).view.read (Elt Ideal)
      (encoded (a := 50000) (V c main_arg0) (V c main_arg1) (V c main_arg2) (V c main_arg3) (V c main_arg4) (V c main_arg6) (V c main_arg7) (V c main_arg8) (V c main_arg9) (V c main_arg10) (V c main_arg11) (V c main_arg12) (V c main_arg13) (V c main_arg14) (V c main_arg15) (V c main_arg16) (V c main_arg17)) := by
  show (cfg0.win 18).cut (grid0.coords t) ((dat0 V c).after 18 t) = _
  rw [after0_18]
  unfold outsAt0
  dsimp only
  refine (x_block_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)).trans ?_
  rw [fixedBlock_5 V c t, fixedBlock_6 V c t, fixedBlock_7 V c t, fixedBlock_8 V c t, fixedBlock_9 V c t, fixedBlock_10 V c t, fixedBlock_11 V c t, fixedBlock_12 V c t, fixedBlock_13 V c t, fixedBlock_14 V c t, fixedBlock_15 V c t, fixedBlock_16 V c t]
  obtain ⟨e0, e1, e2⟩ := outIndex_18 t
  funext j
  obtain ⟨r, q, rfl⟩ : ∃ (r : Fin 1000) (q : Fin 64), j = ix2 r q := ⟨j 0, j 1, eq_ix2 j⟩
  have he : ((cfg0.win 18).blk t).view.emb (ix2 r q)
      = ix2 (⟨win0_17.index t (0 : Fin 2) * 1000 + r.val, by have := r.isLt; omega⟩ : Fin 50000) q :=
    funext fun a => Fin.ext (by
      match a with
      | ⟨0, _⟩ =>
        show win0_18.index t (0 : Fin 2) * 1000 + 1 * r.val = win0_17.index t (0 : Fin 2) * 1000 + r.val
        omega
      | ⟨1, _⟩ =>
        show win0_18.index t (1 : Fin 2) * 64 + 1 * q.val = q.val
        omega)
  show encoded (a := 1000) (iblk0 V c 0 t) (iblk0 V c 1 t) (iblk0 V c 2 t) (iblk0 V c 3 t) (iblk0 V c 4 t) (V c main_arg6) (V c main_arg7) (V c main_arg8) (V c main_arg9) (V c main_arg10) (V c main_arg11) (V c main_arg12) (V c main_arg13) (V c main_arg14) (V c main_arg15) (V c main_arg16) (V c main_arg17) (ix2 r q)
    = encoded (a := 50000) (V c main_arg0) (V c main_arg1) (V c main_arg2) (V c main_arg3) (V c main_arg4) (V c main_arg6) (V c main_arg7) (V c main_arg8) (V c main_arg9) (V c main_arg10) (V c main_arg11) (V c main_arg12) (V c main_arg13) (V c main_arg14) (V c main_arg15) (V c main_arg16) (V c main_arg17) (((cfg0.win 18).blk t).view.emb (ix2 r q))
  rw [he]
  exact encoded_rows _ _ _ _ _ _ _ _ _ _ _ _ _ _ _ _ _ _ _ _ _ _ r _ q
    (fun k => rowBlock_0 V c t r _ rfl k) (fun k => rowBlock_1 V c t r _ rfl k) (fun k => rowBlock_2 V c t r _ rfl k)
    (fun k => rowBlock_3 V c t r _ rfl k) (fun k => rowBlock_4 V c t r _ rfl k)

theorem mem_block18 (t : Fin cfg0.N) (i : S50000x64.Idx) :
    i ∈ ((cfg0.win 18).blk t).view.set ↔ ∀ a : Fin 2, win0_18.index t a * S1000x64.size a ≤ (i a).val
      ∧ (i a).val < win0_18.index t a * S1000x64.size a + S1000x64.size a := by
  show i ∈ ((View.whole main_v0_1).slice (win0_18.rect t)).set ↔ _
  rw [View.set_slice_whole, Rect.mem_set_unit]
  exact Iff.rfl

theorem blocks_cover18 (i : S50000x64.Idx) :
    ∃ t : Fin cfg0.N, (cfg0.win 18).flush t = true ∧ i ∈ ((cfg0.win 18).blk t).view.set := by
  have hi0 : (i 0).val < 50000 := (i 0).isLt
  have hi1 : (i 1).val < 64 := (i 1).isLt
  obtain ⟨t, ht⟩ := outOnto_18 ⟨(i 0).val / 1000, by omega⟩
  have q0 : win0_18.index t (0 : Fin 2) = (i 0).val / 1000 := congrFun ht 0
  have q1 : win0_18.index t (1 : Fin 2) = 0 := congrFun ht 1
  refine ⟨t, flush0_18 t, ?_⟩
  rw [mem_block18]
  intro a
  match a with
  | ⟨0, _⟩ =>
    show win0_18.index t (0 : Fin 2) * 1000 ≤ (i 0).val ∧ (i 0).val < win0_18.index t (0 : Fin 2) * 1000 + 1000
    omega
  | ⟨1, _⟩ =>
    show win0_18.index t (1 : Fin 2) * 64 ≤ (i 1).val ∧ (i 1).val < win0_18.index t (1 : Fin 2) * 64 + 64
    omega

/-- After the launch, output array two (one more layer on them) of the arrays the launch found. -/
theorem array18_eq (c : Dev nD) :
    (dat0 V c).arrAt 18 cfg0.N = encoded (a := 50000) (V c main_arg0) (V c main_arg1) (V c main_arg2) (V c main_arg3) (V c main_arg4) (V c main_arg6) (V c main_arg7) (V c main_arg8) (V c main_arg9) (V c main_arg10) (V c main_arg11) (V c main_arg12) (V c main_arg13) (V c main_arg14) (V c main_arg15) (V c main_arg16) (V c main_arg17) :=
  (dat0 V c).arrAt_eq_of_cover 18 _ (fun t _ => flushed18_eq V c t) blocks_cover18

end Cert.KernelIdeal.Encoder

end
-- ==== Proof.Product1.lean ====
/-
  Launch 1 of the kernel program: one graph-convolution layer's dense product `x · W`, `x : [50000, 64]`,
  `W : [64, 64]`, computed by a grid of fifty points, point `t` taking rows `1000 t … 1000 t + 999` of `x`
  and the whole of `W` and writing the same rows of the output.

  Entry `(r, q)` of a product reads row `r` of `x` only, so what point `t` writes back is rows
  `1000 t …` of the whole product.  The fifty row blocks tile the output array (row `r` lies in block
  `r / 1000`), so after the launch the output array is the whole product of the arrays the launch found.
-/
import proofs.«129910_j60979945669188_1_alg».proof.Proof.Gen.KernelIdeal.Frame
import proofs.«129910_j60979945669188_1_alg».proof.Proof.DenseLayer
import proofs.«129910_j60979945669188_1_alg».proof.Proof.KernelDims

set_option maxRecDepth 16384

noncomputable section

namespace Cert.KernelIdeal.Product1

open Cert.KernelIdeal Cert.KernelIdeal.Gen Cert.KernelIdeal.ProductDims
open Idealize.ShloMosaic Idealize.ShloMosaic.TcCoe Idealize.SL.Sem Idealize.ShloMosaic.ValueIdx
open Idealize.ShloMosaic.Pipeline (Dat)
open scoped BigOperators

-- the buffer contents the launch finds
variable (V : (c : Dev nD) → (b : Ref sig .tc) → Buf (Elt Ideal) ((c : Thread nD τ).loc b))

theorem origin : (![0, 0] : Fin 2 → Nat) = fun _ => 0 := funext fun a => by fin_cases a <;> rfl

/-- The body's one stored value at an entry: the plain sum over the contracted axis. -/
theorem stored_apply (x0 : FVec Ideal S1000x64 .f32) (x1 : FVec Ideal S64x64 .f32) (j : S1000x64.Idx) :
    k1_pay1 x0 x1 j = ∑ k : Fin 64, x0 (ix2 (j 0) k) * x1 (ix2 k (j 1)) := by
  have e : shapeCast S1000x64 x0 shapeCasts_S1000x64_S1000x64 = x0 := shapeCast_self _ _
  show matmul (F := Ideal) dot_S1000x64_S64x64_S1000x64_1_0_0_1_n_n none
      (truncf .bf16 (shapeCast S1000x64 x0 shapeCasts_S1000x64_S1000x64) bitsLt_bf16_f32)
      (truncf .bf16 x1 bitsLt_bf16_f32) (constant (F := Ideal) S1000x64 .f32 0x00000000#32) j = _
  rw [e]
  exact Cert.DenseLayer.kernel_product_apply dot_S1000x64_S64x64_S1000x64_1_0_0_1_n_n rfl rfl
    sq64_l0 sq64_l1 sq64_r0 sq64_r1 x0 x1 bitsLt_bf16_f32 j

/-- The windows' block indices over the grid: the rows' window moves with the output's, the weights' window
    stays at the origin, and the output's blocks are the fifty row blocks. -/
theorem block_indices : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 49 :=
  (by decide +kernel : ∀ t : Fin grid1.N, _)

/-- Every row block is some point's. -/
theorem block_onto : ∀ q0 : Fin 50, ∃ t : Fin cfg1.N, win1_2.index t = ![q0.val, 0] :=
  (by decide +kernel : ∀ q0 : Fin 50, ∃ t : Fin grid1.N, win1_2.index t = ![q0.val, 0])

/-- What point `t` writes back is block `t` of the whole product of the arrays the launch found. -/
theorem flushed_eq (c : Dev nD) (t : Fin cfg1.N) :
    (dat1 V c).flushed 2 t = ((cfg1.win 2).blk t).view.read (Elt Ideal)
      (Cert.RowProduct.rowProduct (a := 50000) (K := 64) (b := 64) (φ₁ := .f32) (φ₂ := .f32) (V c main_v0_1) (V c main_arg18)) := by
  show (cfg1.win 2).cut (grid1.coords t) ((dat1 V c).after 2 t) = _
  rw [after1_2]
  unfold out1_2
  rw [View.canon_unit_zero origin]
  simp only [View.ld_unit_zero (S := S1000x64) origin, View.ld_unit_zero (S := S64x64) origin]
  obtain ⟨e0, e1, e2, e3, e4, e5⟩ := block_indices t
  funext j
  refine (stored_apply _ _ j).trans ?_
  show _ = Cert.RowProduct.rowProduct (a := 50000) (K := 64) (b := 64) (φ₁ := .f32) (φ₂ := .f32) (V c main_v0_1) (V c main_arg18)
      (((cfg1.win 2).blk t).view.emb j)
  unfold Cert.RowProduct.rowProduct
  refine Finset.sum_congr rfl fun k _ => ?_
  have hx : iblk1 V c 0 t (ix2 (j 0) k) = (V c main_v0_1 : FVec Ideal S50000x64 .f32) (ix2 ((((cfg1.win 2).blk t).view.emb j) 0) k) := by
    show (V c main_v0_1 : FVec Ideal S50000x64 .f32) (((cfg1.win 0).blk t).view.emb (ix2 (j 0) k)) = _
    refine congrArg _ (funext fun a => Fin.ext ?_)
    match a with
    | ⟨0, _⟩ =>
      show win1_0.index t (0 : Fin 2) * 1000 + 1 * (j 0).val = win1_2.index t (0 : Fin 2) * 1000 + 1 * (j 0).val
      omega
    | ⟨1, _⟩ =>
      show win1_0.index t (1 : Fin 2) * 64 + 1 * k.val = k.val
      omega
  have hw : iblk1 V c 1 t (ix2 k (j 1)) = (V c main_arg18 : FVec Ideal S64x64 .f32) (ix2 k ((((cfg1.win 2).blk t).view.emb j) 1)) := by
    show (V c main_arg18 : FVec Ideal S64x64 .f32) (((cfg1.win 1).blk t).view.emb (ix2 k (j 1))) = _
    refine congrArg _ (funext fun a => Fin.ext ?_)
    match a with
    | ⟨0, _⟩ =>
      show win1_1.index t (0 : Fin 2) * 64 + 1 * k.val = k.val
      omega
    | ⟨1, _⟩ =>
      show win1_1.index t (1 : Fin 2) * 64 + 1 * (j 1).val = win1_2.index t (1 : Fin 2) * 64 + 1 * (j 1).val
      omega
  rw [hx, hw]

/-- An index of the output array is in point `t`'s block iff each coordinate is in the block's range. -/
theorem mem_block (t : Fin cfg1.N) (i : S50000x64.Idx) :
    i ∈ ((cfg1.win 2).blk t).view.set ↔ ∀ a : Fin 2, win1_2.index t a * S1000x64.size a ≤ (i a).val
      ∧ (i a).val < win1_2.index t a * S1000x64.size a + S1000x64.size a := by
  show i ∈ ((View.whole main_v31).slice (win1_2.rect t)).set ↔ _
  rw [View.set_slice_whole, Rect.mem_set_unit]
  exact Iff.rfl

/-- The row blocks tile the output array: row `r` is in block `r / 1000`. -/
theorem blocks_cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := block_onto ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 1000 ≤ (i 0).val ∧ (i 0).val < win1_2.index t (0 : Fin 2) * 1000 + 1000
    omega
  | ⟨1, _⟩ =>
    show win1_2.index t (1 : Fin 2) * 64 ≤ (i 1).val ∧ (i 1).val < win1_2.index t (1 : Fin 2) * 64 + 64
    omega

/-- After the launch the output array is the whole product of the two arrays the launch found. -/
theorem array_eq (c : Dev nD) :
    (dat1 V c).arrAt 2 cfg1.N
      = Cert.RowProduct.rowProduct (a := 50000) (K := 64) (b := 64) (φ₁ := .f32) (φ₂ := .f32) (V c main_v0_1) (V c main_arg18) :=
  (dat1 V c).arrAt_eq_of_cover 2 _ (fun t _ => flushed_eq V c t) (blocks_cover)

end Cert.KernelIdeal.Product1

end
-- ==== Proof.Product2.lean ====
/-
  Launch 2 of the kernel program: one graph-convolution layer's dense product `x · W`, `x : [50000, 64]`,
  `W : [64, 64]`, computed by a grid of fifty points, point `t` taking rows `1000 t … 1000 t + 999` of `x`
  and the whole of `W` and writing the same rows of the output.

  Entry `(r, q)` of a product reads row `r` of `x` only, so what point `t` writes back is rows
  `1000 t …` of the whole product.  The fifty row blocks tile the output array (row `r` lies in block
  `r / 1000`), so after the launch the output array is the whole product of the arrays the launch found.
-/
import proofs.«129910_j60979945669188_1_alg».proof.Proof.Gen.KernelIdeal.Frame
import proofs.«129910_j60979945669188_1_alg».proof.Proof.DenseLayer
import proofs.«129910_j60979945669188_1_alg».proof.Proof.KernelDims

set_option maxRecDepth 16384

noncomputable section

namespace Cert.KernelIdeal.Product2

open Cert.KernelIdeal Cert.KernelIdeal.Gen Cert.KernelIdeal.ProductDims
open Idealize.ShloMosaic Idealize.ShloMosaic.TcCoe Idealize.SL.Sem Idealize.ShloMosaic.ValueIdx
open Idealize.ShloMosaic.Pipeline (Dat)
open scoped BigOperators

-- the buffer contents the launch finds
variable (V : (c : Dev nD) → (b : Ref sig .tc) → Buf (Elt Ideal) ((c : Thread nD τ).loc b))

theorem origin : (![0, 0] : Fin 2 → Nat) = fun _ => 0 := funext fun a => by fin_cases a <;> rfl

/-- The body's one stored value at an entry: the plain sum over the contracted axis. -/
theorem stored_apply (x0 : FVec Ideal S1000x64 .f32) (x1 : FVec Ideal S64x64 .f32) (j : S1000x64.Idx) :
    k2_pay1 x0 x1 j = ∑ k : Fin 64, x0 (ix2 (j 0) k) * x1 (ix2 k (j 1)) := by
  have e : shapeCast S1000x64 x0 shapeCasts_S1000x64_S1000x64 = x0 := shapeCast_self _ _
  show matmul (F := Ideal) dot_S1000x64_S64x64_S1000x64_1_0_0_1_n_n none
      (truncf .bf16 (shapeCast S1000x64 x0 shapeCasts_S1000x64_S1000x64) bitsLt_bf16_f32)
      (truncf .bf16 x1 bitsLt_bf16_f32) (constant (F := Ideal) S1000x64 .f32 0x00000000#32) j = _
  rw [e]
  exact Cert.DenseLayer.kernel_product_apply dot_S1000x64_S64x64_S1000x64_1_0_0_1_n_n rfl rfl
    sq64_l0 sq64_l1 sq64_r0 sq64_r1 x0 x1 bitsLt_bf16_f32 j

/-- The windows' block indices over the grid: the rows' window moves with the output's, the weights' window
    stays at the origin, and the output's blocks are the fifty row blocks. -/
theorem block_indices : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 49 :=
  (by decide +kernel : ∀ t : Fin grid2.N, _)

/-- Every row block is some point's. -/
theorem block_onto : ∀ q0 : Fin 50, ∃ t : Fin cfg2.N, win2_2.index t = ![q0.val, 0] :=
  (by decide +kernel : ∀ q0 : Fin 50, ∃ t : Fin grid2.N, win2_2.index t = ![q0.val, 0])

/-- What point `t` writes back is block `t` of the whole product of the arrays the launch found. -/
theorem flushed_eq (c : Dev nD) (t : Fin cfg2.N) :
    (dat2 V c).flushed 2 t = ((cfg2.win 2).blk t).view.read (Elt Ideal)
      (Cert.RowProduct.rowProduct (a := 50000) (K := 64) (b := 64) (φ₁ := .f32) (φ₂ := .f32) (V c main_v48) (V c main_arg20)) := by
  show (cfg2.win 2).cut (grid2.coords t) ((dat2 V c).after 2 t) = _
  rw [after2_2]
  unfold out2_2
  rw [View.canon_unit_zero origin]
  simp only [View.ld_unit_zero (S := S1000x64) origin, View.ld_unit_zero (S := S64x64) origin]
  obtain ⟨e0, e1, e2, e3, e4, e5⟩ := block_indices t
  funext j
  refine (stored_apply _ _ j).trans ?_
  show _ = Cert.RowProduct.rowProduct (a := 50000) (K := 64) (b := 64) (φ₁ := .f32) (φ₂ := .f32) (V c main_v48) (V c main_arg20)
      (((cfg2.win 2).blk t).view.emb j)
  unfold Cert.RowProduct.rowProduct
  refine Finset.sum_congr rfl fun k _ => ?_
  have hx : iblk2 V c 0 t (ix2 (j 0) k) = (V c main_v48 : FVec Ideal S50000x64 .f32) (ix2 ((((cfg2.win 2).blk t).view.emb j) 0) k) := by
    show (V c main_v48 : FVec Ideal S50000x64 .f32) (((cfg2.win 0).blk t).view.emb (ix2 (j 0) k)) = _
    refine congrArg _ (funext fun a => Fin.ext ?_)
    match a with
    | ⟨0, _⟩ =>
      show win2_0.index t (0 : Fin 2) * 1000 + 1 * (j 0).val = win2_2.index t (0 : Fin 2) * 1000 + 1 * (j 0).val
      omega
    | ⟨1, _⟩ =>
      show win2_0.index t (1 : Fin 2) * 64 + 1 * k.val = k.val
      omega
  have hw : iblk2 V c 1 t (ix2 k (j 1)) = (V c main_arg20 : FVec Ideal S64x64 .f32) (ix2 k ((((cfg2.win 2).blk t).view.emb j) 1)) := by
    show (V c main_arg20 : FVec Ideal S64x64 .f32) (((cfg2.win 1).blk t).view.emb (ix2 k (j 1))) = _
    refine congrArg _ (funext fun a => Fin.ext ?_)
    match a with
    | ⟨0, _⟩ =>
      show win2_1.index t (0 : Fin 2) * 64 + 1 * k.val = k.val
      omega
    | ⟨1, _⟩ =>
      show win2_1.index t (1 : Fin 2) * 64 + 1 * (j 1).val = win2_2.index t (1 : Fin 2) * 64 + 1 * (j 1).val
      omega
  rw [hx, hw]

/-- An index of the output array is in point `t`'s block iff each coordinate is in the block's range. -/
theorem mem_block (t : Fin cfg2.N) (i : S50000x64.Idx) :
    i ∈ ((cfg2.win 2).blk t).view.set ↔ ∀ a : Fin 2, win2_2.index t a * S1000x64.size a ≤ (i a).val
      ∧ (i a).val < win2_2.index t a * S1000x64.size a + S1000x64.size a := by
  show i ∈ ((View.whole main_v49).slice (win2_2.rect t)).set ↔ _
  rw [View.set_slice_whole, Rect.mem_set_unit]
  exact Iff.rfl

/-- The row blocks tile the output array: row `r` is in block `r / 1000`. -/
theorem blocks_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := block_onto ⟨(i 0).val / 1000, by omega⟩
  have q0 : win2_2.index t (0 : Fin 2) = (i 0).val / 1000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 1000 ≤ (i 0).val ∧ (i 0).val < win2_2.index t (0 : Fin 2) * 1000 + 1000
    omega
  | ⟨1, _⟩ =>
    show win2_2.index t (1 : Fin 2) * 64 ≤ (i 1).val ∧ (i 1).val < win2_2.index t (1 : Fin 2) * 64 + 64
    omega

/-- After the launch the output array is the whole product of the two arrays the launch found. -/
theorem array_eq (c : Dev nD) :
    (dat2 V c).arrAt 2 cfg2.N
      = Cert.RowProduct.rowProduct (a := 50000) (K := 64) (b := 64) (φ₁ := .f32) (φ₂ := .f32) (V c main_v48) (V c main_arg20) :=
  (dat2 V c).arrAt_eq_of_cover 2 _ (fun t _ => flushed_eq V c t) (blocks_cover)

end Cert.KernelIdeal.Product2

end
-- ==== Proof.Product3.lean ====
/-
  Launch 3 of the kernel program: one graph-convolution layer's dense product `x · W`, `x : [50000, 64]`,
  `W : [64, 64]`, computed by a grid of fifty points, point `t` taking rows `1000 t … 1000 t + 999` of `x`
  and the whole of `W` and writing the same rows of the output.

  Entry `(r, q)` of a product reads row `r` of `x` only, so what point `t` writes back is rows
  `1000 t …` of the whole product.  The fifty row blocks tile the output array (row `r` lies in block
  `r / 1000`), so after the launch the output array is the whole product of the arrays the launch found.
-/
import proofs.«129910_j60979945669188_1_alg».proof.Proof.Gen.KernelIdeal.Frame
import proofs.«129910_j60979945669188_1_alg».proof.Proof.DenseLayer
import proofs.«129910_j60979945669188_1_alg».proof.Proof.KernelDims

set_option maxRecDepth 16384

noncomputable section

namespace Cert.KernelIdeal.Product3

open Cert.KernelIdeal Cert.KernelIdeal.Gen Cert.KernelIdeal.ProductDims
open Idealize.ShloMosaic Idealize.ShloMosaic.TcCoe Idealize.SL.Sem Idealize.ShloMosaic.ValueIdx
open Idealize.ShloMosaic.Pipeline (Dat)
open scoped BigOperators

-- the buffer contents the launch finds
variable (V : (c : Dev nD) → (b : Ref sig .tc) → Buf (Elt Ideal) ((c : Thread nD τ).loc b))

theorem origin : (![0, 0] : Fin 2 → Nat) = fun _ => 0 := funext fun a => by fin_cases a <;> rfl

/-- The body's one stored value at an entry: the plain sum over the contracted axis. -/
theorem stored_apply (x0 : FVec Ideal S1000x64 .f32) (x1 : FVec Ideal S64x64 .f32) (j : S1000x64.Idx) :
    k3_pay1 x0 x1 j = ∑ k : Fin 64, x0 (ix2 (j 0) k) * x1 (ix2 k (j 1)) := by
  have e : shapeCast S1000x64 x0 shapeCasts_S1000x64_S1000x64 = x0 := shapeCast_self _ _
  show matmul (F := Ideal) dot_S1000x64_S64x64_S1000x64_1_0_0_1_n_n none
      (truncf .bf16 (shapeCast S1000x64 x0 shapeCasts_S1000x64_S1000x64) bitsLt_bf16_f32)
      (truncf .bf16 x1 bitsLt_bf16_f32) (constant (F := Ideal) S1000x64 .f32 0x00000000#32) j = _
  rw [e]
  exact Cert.DenseLayer.kernel_product_apply dot_S1000x64_S64x64_S1000x64_1_0_0_1_n_n rfl rfl
    sq64_l0 sq64_l1 sq64_r0 sq64_r1 x0 x1 bitsLt_bf16_f32 j

/-- The windows' block indices over the grid: the rows' window moves with the output's, the weights' window
    stays at the origin, and the output's blocks are the fifty row blocks. -/
theorem block_indices : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 49 :=
  (by decide +kernel : ∀ t : Fin grid3.N, _)

/-- Every row block is some point's. -/
theorem block_onto : ∀ q0 : Fin 50, ∃ t : Fin cfg3.N, win3_2.index t = ![q0.val, 0] :=
  (by decide +kernel : ∀ q0 : Fin 50, ∃ t : Fin grid3.N, win3_2.index t = ![q0.val, 0])

/-- What point `t` writes back is block `t` of the whole product of the arrays the launch found. -/
theorem flushed_eq (c : Dev nD) (t : Fin cfg3.N) :
    (dat3 V c).flushed 2 t = ((cfg3.win 2).blk t).view.read (Elt Ideal)
      (Cert.RowProduct.rowProduct (a := 50000) (K := 64) (b := 64) (φ₁ := .f32) (φ₂ := .f32) (V c main_v66) (V c main_arg22)) := by
  show (cfg3.win 2).cut (grid3.coords t) ((dat3 V c).after 2 t) = _
  rw [after3_2]
  unfold out3_2
  rw [View.canon_unit_zero origin]
  simp only [View.ld_unit_zero (S := S1000x64) origin, View.ld_unit_zero (S := S64x64) origin]
  obtain ⟨e0, e1, e2, e3, e4, e5⟩ := block_indices t
  funext j
  refine (stored_apply _ _ j).trans ?_
  show _ = Cert.RowProduct.rowProduct (a := 50000) (K := 64) (b := 64) (φ₁ := .f32) (φ₂ := .f32) (V c main_v66) (V c main_arg22)
      (((cfg3.win 2).blk t).view.emb j)
  unfold Cert.RowProduct.rowProduct
  refine Finset.sum_congr rfl fun k _ => ?_
  have hx : iblk3 V c 0 t (ix2 (j 0) k) = (V c main_v66 : FVec Ideal S50000x64 .f32) (ix2 ((((cfg3.win 2).blk t).view.emb j) 0) k) := by
    show (V c main_v66 : FVec Ideal S50000x64 .f32) (((cfg3.win 0).blk t).view.emb (ix2 (j 0) k)) = _
    refine congrArg _ (funext fun a => Fin.ext ?_)
    match a with
    | ⟨0, _⟩ =>
      show win3_0.index t (0 : Fin 2) * 1000 + 1 * (j 0).val = win3_2.index t (0 : Fin 2) * 1000 + 1 * (j 0).val
      omega
    | ⟨1, _⟩ =>
      show win3_0.index t (1 : Fin 2) * 64 + 1 * k.val = k.val
      omega
  have hw : iblk3 V c 1 t (ix2 k (j 1)) = (V c main_arg22 : FVec Ideal S64x64 .f32) (ix2 k ((((cfg3.win 2).blk t).view.emb j) 1)) := by
    show (V c main_arg22 : FVec Ideal S64x64 .f32) (((cfg3.win 1).blk t).view.emb (ix2 k (j 1))) = _
    refine congrArg _ (funext fun a => Fin.ext ?_)
    match a with
    | ⟨0, _⟩ =>
      show win3_1.index t (0 : Fin 2) * 64 + 1 * k.val = k.val
      omega
    | ⟨1, _⟩ =>
      show win3_1.index t (1 : Fin 2) * 64 + 1 * (j 1).val = win3_2.index t (1 : Fin 2) * 64 + 1 * (j 1).val
      omega
  rw [hx, hw]

/-- An index of the output array is in point `t`'s block iff each coordinate is in the block's range. -/
theorem mem_block (t : Fin cfg3.N) (i : S50000x64.Idx) :
    i ∈ ((cfg3.win 2).blk t).view.set ↔ ∀ a : Fin 2, win3_2.index t a * S1000x64.size a ≤ (i a).val
      ∧ (i a).val < win3_2.index t a * S1000x64.size a + S1000x64.size a := by
  show i ∈ ((View.whole main_v67).slice (win3_2.rect t)).set ↔ _
  rw [View.set_slice_whole, Rect.mem_set_unit]
  exact Iff.rfl

/-- The row blocks tile the output array: row `r` is in block `r / 1000`. -/
theorem blocks_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := block_onto ⟨(i 0).val / 1000, by omega⟩
  have q0 : win3_2.index t (0 : Fin 2) = (i 0).val / 1000 := congrFun ht 0
  have q1 : win3_2.index t (1 : Fin 2) = 0 := congrFun ht 1
  refine ⟨t, flush3_2 t, ?_⟩
  rw [mem_block]
  intro a
  match a with
  | ⟨0, _⟩ =>
    show win3_2.index t (0 : Fin 2) * 1000 ≤ (i 0).val ∧ (i 0).val < win3_2.index t (0 : Fin 2) * 1000 + 1000
    omega
  | ⟨1, _⟩ =>
    show win3_2.index t (1 : Fin 2) * 64 ≤ (i 1).val ∧ (i 1).val < win3_2.index t (1 : Fin 2) * 64 + 64
    omega

/-- After the launch the output array is the whole product of the two arrays the launch found. -/
theorem array_eq (c : Dev nD) :
    (dat3 V c).arrAt 2 cfg3.N
      = Cert.RowProduct.rowProduct (a := 50000) (K := 64) (b := 64) (φ₁ := .f32) (φ₂ := .f32) (V c main_v66) (V c main_arg22) :=
  (dat3 V c).arrAt_eq_of_cover 2 _ (fun t _ => flushed_eq V c t) (blocks_cover)

end Cert.KernelIdeal.Product3

end
-- ==== Proof.Head.lean ====
/-
  The last launch of the kernel program: the classifier's head,
  `out = logistic (leaky (x · W₁ + b₁) · W₂ + b₂)`, `x : [50000, 64]`, `W₁ : [64, 64]`, `W₂ : [64, 2]`,
  computed by a grid of fifty points, point `t` taking rows `1000 t … 1000 t + 999` of `x`, the whole of
  the weights and biases, and writing the same rows of the output.

  Row `r` of the hidden layer reads row `r` of `x` only, and row `r` of the output reads row `r` of the
  hidden layer only; so what point `t` writes back is rows `1000 t …` of the head applied to the whole arrays.
  The fifty row blocks tile the output array, so after the launch it is the head of the arrays the launch
  found.  The logistic function is applied to whatever extended real the second layer gives: nothing is asked
  of the numbers.
-/
import proofs.«129910_j60979945669188_1_alg».proof.Proof.Gen.KernelIdeal.Frame
import proofs.«129910_j60979945669188_1_alg».proof.Proof.DenseLayer
import proofs.«129910_j60979945669188_1_alg».proof.Proof.KernelDims

set_option maxRecDepth 16384

noncomputable section

namespace Cert.KernelIdeal.Head

open Cert.KernelIdeal Cert.KernelIdeal.Gen Cert.KernelIdeal.ProductDims Cert.DenseLayer
open Idealize.ShloMosaic Idealize.ShloMosaic.TcCoe Idealize.SL.Sem Idealize.ShloMosaic.ValueIdx
open Idealize.ShloMosaic.Pipeline (Dat)
open scoped BigOperators

/-! ## The body's stored value -/

/-- The first layer before its rectifier, in the body's spelling. -/
def pre (x0 : FVec Ideal S1000x64 .f32) (w1 : FVec Ideal S64x64 .f32) (b1 : FVec Ideal S64 .f32) :
    FVec Ideal S1000x64 .f32 :=
  addf (matmul (F := Ideal) dot_S1000x64_S64x64_S1000x64_1_0_0_1_n_n none
      (truncf .bf16 (shapeCast S1000x64 x0 shapeCasts_S1000x64_S1000x64) bitsLt_bf16_f32)
      (truncf .bf16 w1 bitsLt_bf16_f32) (constant (F := Ideal) S1000x64 .f32 0x00000000#32))
    (broadcastTo S1000x64 (shapeCast S1x64 b1 shapeCasts_S64_S1x64) broadcasts_S1x64_S1000x64)

/-- The hidden layer, in the body's spelling. -/
def hidden (x0 : FVec Ideal S1000x64 .f32) (w1 : FVec Ideal S64x64 .f32) (b1 : FVec Ideal S64 .f32) :
    FVec Ideal S1000x64 .f32 :=
  select (cmpf .oge (pre x0 w1 b1) (broadcast S1000x64 (Scalar.ofBits (F := Ideal) .f32 0x00000000#32))) (pre x0 w1 b1)
    (mulf (broadcast S1000x64 (Scalar.ofBits (F := Ideal) .f32 0x3C23D70A#32)) (pre x0 w1 b1))

/-- The body's one stored value is the logistic function of the second layer of the hidden layer. -/
theorem stored_eq (x0 : FVec Ideal S1000x64 .f32) (w1 : FVec Ideal S64x64 .f32) (b1 : FVec Ideal S64 .f32)
    (w2 : FVec Ideal S64x2 .f32) (b2 : FVec Ideal S2 .f32) :
    k4_pay1 (F := Ideal) x0 w1 b1 w2 b2
      = logistic (addf (matmul (F := Ideal) dot_S1000x64_S64x2_S1000x2_1_0_0_1_n_n none
          (truncf .bf16 (hidden x0 w1 b1) bitsLt_bf16_f32) (truncf .bf16 w2 bitsLt_bf16_f32)
          (constant (F := Ideal) S1000x2 .f32 0x00000000#32))
        (broadcastTo S1000x2 (shapeCast S1x2 b2 shapeCasts_S2_S1x2) broadcasts_S1x2_S1000x2)) := rfl

theorem pre_apply (x0 : FVec Ideal S1000x64 .f32) (w1 : FVec Ideal S64x64 .f32) (b1 : FVec Ideal S64 .f32)
    (i : S1000x64.Idx) : pre x0 w1 b1 i = affineEntry x0 w1 b1 (i 0) (i 1) := by
  unfold pre
  rw [shapeCast_self x0 shapeCasts_S1000x64_S1000x64]
  exact kernel_affine_apply dot_S1000x64_S64x64_S1000x64_1_0_0_1_n_n rfl rfl sq64_l0 sq64_l1 sq64_r0 sq64_r1
    x0 w1 b1 bitsLt_bf16_f32 shapeCasts_S64_S1x64 broadcasts_S1x64_S1000x64 (by decide) i

theorem hidden_apply (x0 : FVec Ideal S1000x64 .f32) (w1 : FVec Ideal S64x64 .f32) (b1 : FVec Ideal S64 .f32)
    (i : S1000x64.Idx) : hidden x0 w1 b1 i = leaky (affineEntry x0 w1 b1 (i 0) (i 1)) :=
  (kernel_leaky_apply (pre x0 w1 b1) i).trans (congrArg leaky (pre_apply x0 w1 b1 i))

/-- The stored value at an entry. -/
theorem stored_apply (x0 : FVec Ideal S1000x64 .f32) (w1 : FVec Ideal S64x64 .f32) (b1 : FVec Ideal S64 .f32)
    (w2 : FVec Ideal S64x2 .f32) (b2 : FVec Ideal S2 .f32) (j : S1000x2.Idx) :
    k4_pay1 (F := Ideal) x0 w1 b1 w2 b2 j = Ideal.logistic (affineEntry (hidden x0 w1 b1) w2 b2 (j 0) (j 1)) := by
  rw [stored_eq]
  show Ideal.logistic _ = _
  exact congrArg Ideal.logistic
    (kernel_affine_apply dot_S1000x64_S64x2_S1000x2_1_0_0_1_n_n rfl rfl head2_l0 head2_l1 head2_r0 head2_r1
      (hidden x0 w1 b1) w2 b2 bitsLt_bf16_f32 shapeCasts_S2_S1x2 broadcasts_S1x2_S1000x2 (by decide) j)

/-! ## From blocks to the array -/

-- the buffer contents the launch finds
variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The windows' block indices over the grid: the rows' window moves with the output's, the weights' and biases'
    windows stay at the origin, and the output's blocks are the fifty row blocks. -/
theorem block_indices : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (1 : Fin 2) = 0 ∧ win4_5.index t (0 : Fin 2) ≤ 49 :=
  (by decide +kernel : ∀ t : Fin grid4.N, _)

/-- Every row block is some point's. -/
theorem block_onto : ∀ q0 : Fin 50, ∃ t : Fin cfg4.N, win4_5.index t = ![q0.val, 0] :=
  (by decide +kernel : ∀ q0 : Fin 50, ∃ t : Fin grid4.N, win4_5.index t = ![q0.val, 0])

/-- What point `t` writes back is block `t` of the head of the arrays the launch found. -/
theorem flushed_eq (c : Dev nD) (t : Fin cfg4.N) :
    (dat4 V c).flushed 5 t = ((cfg4.win 5).blk t).view.read (Elt Ideal)
      (headOf (a := 50000) (V c main_v84) (V c main_arg24) (V c main_arg25) (V c main_arg26) (V c main_arg27)) := by
  show (cfg4.win 5).cut (grid4.coords t) ((dat4 V c).after 5 t) = _
  rw [after4_5]
  unfold out4_5
  rw [View.canon_unit_zero origin2]
  simp only [View.ld_unit_zero (S := S1000x64) origin2, View.ld_unit_zero (S := S64x64) origin2,
    View.ld_unit_zero (S := S64x2) origin2, View.ld_unit_zero (S := S64) origin1, View.ld_unit_zero (S := S2) origin1]
  obtain ⟨e0, e1, e2, e3, e4, e5, e6, e7, e8, e9⟩ := block_indices t
  funext j
  refine (stored_apply _ _ _ _ _ j).trans ?_
  show _ = headOf (a := 50000) (V c main_v84) (V c main_arg24) (V c main_arg25) (V c main_arg26) (V c main_arg27)
      (((cfg4.win 5).blk t).view.emb j)
  unfold headOf layerEntry
  refine congrArg Ideal.logistic ?_
  -- the row of the array that row `j 0` of the block is
  have hrow : ((((cfg4.win 5).blk t).view.emb j) 0).val = win4_5.index t (0 : Fin 2) * 1000 + 1 * (j 0).val := rfl
  have hcol : ((((cfg4.win 5).blk t).view.emb j) 1).val = win4_5.index t (1 : Fin 2) * 2 + 1 * (j 1).val := rfl
  have hq : (((cfg4.win 5).blk t).view.emb j) 1 = j 1 := Fin.ext (by rw [hcol]; omega)
  rw [hq]
  refine affineEntry_congr_all _ _ _ _ _ _ (j 0) ((((cfg4.win 5).blk t).view.emb j) 0) (j 1) (fun k => ?_) (fun k => ?_) ?_
  · -- the hidden layer's row
    refine (hidden_apply _ _ _ (ix2 (j 0) k)).trans (congrArg leaky ?_)
    refine affineEntry_congr_all _ _ _ _ _ _ (j 0) ((((cfg4.win 5).blk t).view.emb j) 0) k (fun k' => ?_) (fun k' => ?_) ?_
    · show (V c main_v84 : FVec Ideal S50000x64 .f32) (((cfg4.win 0).blk t).view.emb (ix2 (j 0) k')) = _
      refine congrArg _ (funext fun a => Fin.ext ?_)
      match a with
      | ⟨0, _⟩ =>
        show win4_0.index t (0 : Fin 2) * 1000 + 1 * (j 0).val = ((((cfg4.win 5).blk t).view.emb j) 0).val
        rw [hrow]; omega
      | ⟨1, _⟩ =>
        show win4_0.index t (1 : Fin 2) * 64 + 1 * k'.val = k'.val
        omega
    · show (V c main_arg24 : FVec Ideal S64x64 .f32) (((cfg4.win 1).blk t).view.emb (ix2 k' k)) = _
      refine congrArg _ (funext fun a => Fin.ext ?_)
      match a with
      | ⟨0, _⟩ =>
        show win4_1.index t (0 : Fin 2) * 64 + 1 * k'.val = k'.val
        omega
      | ⟨1, _⟩ =>
        show win4_1.index t (1 : Fin 2) * 64 + 1 * k.val = k.val
        omega
    · show (V c main_arg25 : FVec Ideal S64 .f32) (((cfg4.win 2).blk t).view.emb (ix1 k)) = _
      refine congrArg _ (funext fun a => Fin.ext ?_)
      match a with
      | ⟨0, _⟩ =>
        show win4_2.index t (0 : Fin 1) * 64 + 1 * k.val = k.val
        omega
  · show (V c main_arg26 : FVec Ideal S64x2 .f32) (((cfg4.win 3).blk t).view.emb (ix2 k (j 1))) = _
    refine congrArg _ (funext fun a => Fin.ext ?_)
    match a with
    | ⟨0, _⟩ =>
      show win4_3.index t (0 : Fin 2) * 64 + 1 * k.val = k.val
      omega
    | ⟨1, _⟩ =>
      show win4_3.index t (1 : Fin 2) * 2 + 1 * (j 1).val = (j 1).val
      omega
  · show (V c main_arg27 : FVec Ideal S2 .f32) (((cfg4.win 4).blk t).view.emb (ix1 (j 1))) = _
    refine congrArg _ (funext fun a => Fin.ext ?_)
    match a with
    | ⟨0, _⟩ =>
      show win4_4.index t (0 : Fin 1) * 2 + 1 * (j 1).val = (j 1).val
      omega

/-- An index of the output array is in point `t`'s block iff each coordinate is in the block's range. -/
theorem mem_block (t : Fin cfg4.N) (i : S50000x2.Idx) :
    i ∈ ((cfg4.win 5).blk t).view.set ↔ ∀ a : Fin 2, win4_5.index t a * S1000x2.size a ≤ (i a).val
      ∧ (i a).val < win4_5.index t a * S1000x2.size a + S1000x2.size a := by
  show i ∈ ((View.whole main_v85).slice (win4_5.rect t)).set ↔ _
  rw [View.set_slice_whole, Rect.mem_set_unit]
  exact Iff.rfl

/-- The row blocks tile the output array: row `r` is in block `r / 1000`. -/
theorem blocks_cover (i : S50000x2.Idx) :
    ∃ t : Fin cfg4.N, (cfg4.win 5).flush t = true ∧ i ∈ ((cfg4.win 5).blk t).view.set := by
  have hi0 : (i 0).val < 50000 := (i 0).isLt
  have hi1 : (i 1).val < 2 := (i 1).isLt
  obtain ⟨t, ht⟩ := block_onto ⟨(i 0).val / 1000, by omega⟩
  have q0 : win4_5.index t (0 : Fin 2) = (i 0).val / 1000 := congrFun ht 0
  have q1 : win4_5.index t (1 : Fin 2) = 0 := congrFun ht 1
  refine ⟨t, flush4_5 t, ?_⟩
  rw [mem_block]
  intro a
  match a with
  | ⟨0, _⟩ =>
    show win4_5.index t (0 : Fin 2) * 1000 ≤ (i 0).val ∧ (i 0).val < win4_5.index t (0 : Fin 2) * 1000 + 1000
    omega
  | ⟨1, _⟩ =>
    show win4_5.index t (1 : Fin 2) * 2 ≤ (i 1).val ∧ (i 1).val < win4_5.index t (1 : Fin 2) * 2 + 2
    omega

/-- After the launch the output array is the head of the arrays the launch found. -/
theorem array_eq (c : Dev nD) :
    (dat4 V c).arrAt 5 cfg4.N
      = headOf (a := 50000) (V c main_v84) (V c main_arg24) (V c main_arg25) (V c main_arg26) (V c main_arg27) :=
  (dat4 V c).arrAt_eq_of_cover 5 _ (fun t _ => flushed_eq V c t) blocks_cover

end Cert.KernelIdeal.Head

end
-- ==== Proof.RefStages.lean ====
/-
  The reference program, stage by stage, as the same whole-array functions the kernel program's launches compute.

  The reference is one straight line of host operations.  Its five encoder stages are layers with the rectifier;
  their concatenation along the columns is the five side by side; one more layer gives `x`.  Each
  graph-convolution layer is a dense product, then a gather of the product's rows by every edge's source, a
  scaling by the edge's normalisation, a sum into every edge's target, the bias and `x1` added: that
  aggregation is named here as ONE function of the product, the two index arrays, the normalisation, the bias
  and `x1`, and is never opened — the kernel program runs the same operations on the host between its launches.
  The head is two layers and the logistic function, which the reference spells `1 / (1 + exp (-z))`.
-/
import proofs.«129910_j60979945669188_1_alg».proof.Proof.RefReadPatched
import proofs.«129910_j60979945669188_1_alg».proof.Proof.DenseLayer

set_option maxRecDepth 16384

noncomputable section

namespace Cert.ReferenceIdeal.Stages

open Cert.ReferenceIdeal Cert.ReferenceIdeal.Gen Cert.ReferenceIdeal.ReadP Cert.DenseLayer Cert.RowProduct
open Idealize.ShloMosaic Idealize.ShloMosaic.TcCoe Idealize.ShloMosaic.ValueIdx
open scoped BigOperators

variable (x0 x1 x2 : (⟨S50000x768, .f32⟩ : BufTy).Contents (Elt Ideal)) (x3 : (⟨S50000x5, .f32⟩ : BufTy).Contents (Elt Ideal)) (x4 : (⟨S50000x7, .f32⟩ : BufTy).Contents (Elt Ideal))
  (x5 : (⟨S2x1600000, .i32⟩ : BufTy).Contents (Elt Ideal))
  (x6 : (⟨S768x16, .f32⟩ : BufTy).Contents (Elt Ideal)) (x7 : (⟨S16, .f32⟩ : BufTy).Contents (Elt Ideal)) (x8 : (⟨S768x16, .f32⟩ : BufTy).Contents (Elt Ideal)) (x9 : (⟨S16, .f32⟩ : BufTy).Contents (Elt Ideal))
  (x10 : (⟨S768x16, .f32⟩ : BufTy).Contents (Elt Ideal)) (x11 : (⟨S16, .f32⟩ : BufTy).Contents (Elt Ideal)) (x12 : (⟨S5x8, .f32⟩ : BufTy).Contents (Elt Ideal)) (x13 : (⟨S8, .f32⟩ : BufTy).Contents (Elt Ideal))
  (x14 : (⟨S7x8, .f32⟩ : BufTy).Contents (Elt Ideal)) (x15 : (⟨S8, .f32⟩ : BufTy).Contents (Elt Ideal)) (x16 : (⟨S64x64, .f32⟩ : BufTy).Contents (Elt Ideal)) (x17 : (⟨S64, .f32⟩ : BufTy).Contents (Elt Ideal))
  (x18 : (⟨S64x64, .f32⟩ : BufTy).Contents (Elt Ideal)) (x19 : (⟨S64, .f32⟩ : BufTy).Contents (Elt Ideal)) (x20 : (⟨S64x64, .f32⟩ : BufTy).Contents (Elt Ideal)) (x21 : (⟨S64, .f32⟩ : BufTy).Contents (Elt Ideal))
  (x22 : (⟨S64x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal))
  (x26 : (⟨S64x2, .f32⟩ : BufTy).Contents (Elt Ideal)) (x27 : (⟨S2, .f32⟩ : BufTy).Contents (Elt Ideal))

/-! ## The encoder -/

/-- The screen-name embedding's encoder. -/
theorem screen_eq : val_main_v8 (F := Ideal) x0 x6 x7
    = fun i : S50000x16.Idx => layerEntry (a := 50000) (K := 768) (n := 16) x0 x6 x7 (i 0) (i 1) :=
  funext fun i => host_layer_apply dot_S50000x768_S768x16_S50000x16_1_0_0_1_n_n rfl rfl
    lhs_main_v0_0 lhs_main_v0_1 rhs_main_v0_0 rhs_main_v0_1 x0 x6 x7
    bcast_S16_S1x16_1 bcast_S1x16_S50000x16_0_1 bcast_S_S50000x16 (by decide) i

/-- The description embedding's encoder. -/
theorem description_eq : val_main_v17 (F := Ideal) x1 x8 x9
    = fun i : S50000x16.Idx => layerEntry (a := 50000) (K := 768) (n := 16) x1 x8 x9 (i 0) (i 1) :=
  funext fun i => host_layer_apply dot_S50000x768_S768x16_S50000x16_1_0_0_1_n_n rfl rfl
    lhs_main_v9_0 lhs_main_v9_1 rhs_main_v9_0 rhs_main_v9_1 x1 x8 x9
    bcast_S16_S1x16_1 bcast_S1x16_S50000x16_0_1 bcast_S_S50000x16 (by decide) i

/-- The tweets embedding's encoder. -/
theorem tweet_eq : val_main_v26 (F := Ideal) x2 x10 x11
    = fun i : S50000x16.Idx => layerEntry (a := 50000) (K := 768) (n := 16) x2 x10 x11 (i 0) (i 1) :=
  funext fun i => host_layer_apply dot_S50000x768_S768x16_S50000x16_1_0_0_1_n_n rfl rfl
    lhs_main_v18_0 lhs_main_v18_1 rhs_main_v18_0 rhs_main_v18_1 x2 x10 x11
    bcast_S16_S1x16_1 bcast_S1x16_S50000x16_0_1 bcast_S_S50000x16 (by decide) i

/-- The profile features' encoder. -/
theorem profile_eq : val_main_v35 (F := Ideal) x3 x12 x13
    = fun i : S50000x8.Idx => layerEntry (a := 50000) (K := 5) (n := 8) x3 x12 x13 (i 0) (i 1) :=
  funext fun i => host_layer_apply dot_S50000x5_S5x8_S50000x8_1_0_0_1_n_n rfl rfl
    lhs_main_v27_0 lhs_main_v27_1 rhs_main_v27_0 rhs_main_v27_1 x3 x12 x13
    bcast_S8_S1x8_1 bcast_S1x8_S50000x8_0_1 bcast_S_S50000x8 (by decide) i

/-- The personal features' encoder. -/
theorem personal_eq : val_main_v44 (F := Ideal) x4 x14 x15
    = fun i : S50000x8.Idx => layerEntry (a := 50000) (K := 7) (n := 8) x4 x14 x15 (i 0) (i 1) :=
  funext fun i => host_layer_apply dot_S50000x7_S7x8_S50000x8_1_0_0_1_n_n rfl rfl
    lhs_main_v36_0 lhs_main_v36_1 rhs_main_v36_0 rhs_main_v36_1 x4 x14 x15
    bcast_S8_S1x8_1 bcast_S1x8_S50000x8_0_1 bcast_S_S50000x8 (by decide) i

/-- The five encoders' outputs as the pieces of a concatenation along the columns. -/
def encoderPieces : List ((s : Shape) × (s.Idx → EReal)) :=
  [⟨S50000x16, fun i => layerEntry (a := 50000) (K := 768) (n := 16) x0 x6 x7 (i 0) (i 1)⟩,
   ⟨S50000x16, fun i => layerEntry (a := 50000) (K := 768) (n := 16) x1 x8 x9 (i 0) (i 1)⟩,
   ⟨S50000x16, fun i => layerEntry (a := 50000) (K := 768) (n := 16) x2 x10 x11 (i 0) (i 1)⟩,
   ⟨S50000x8, fun i => layerEntry (a := 50000) (K := 5) (n := 8) x3 x12 x13 (i 0) (i 1)⟩,
   ⟨S50000x8, fun i => layerEntry (a := 50000) (K := 7) (n := 8) x4 x14 x15 (i 0) (i 1)⟩]

/-- The concatenation of the five along the columns is the five side by side: column `q` falls in exactly one
    piece's span, and is that piece's column `q` less the widths before it. -/
theorem joined_eq : val_main_v45 (F := Ideal) x0 x1 x2 x3 x4 x6 x7 x8 x9 x10 x11 x12 x13 x14 x15 = joinedLayers (a := 50000) x0 x1 x2 x3 x4 x6 x7 x8 x9 x10 x11 x12 x13 x14 x15 := by
  funext i
  have hi1 : (i 1).val < 64 := (i 1).isLt
  show val_main_v45 (F := Ideal) x0 x1 x2 x3 x4 x6 x7 x8 x9 x10 x11 x12 x13 x14 x15 i = joinEntry _ _ _ _ _ (i 0) (i 1)
  unfold val_main_v45
  rw [screen_eq, description_eq, tweet_eq, profile_eq, personal_eq]
  show concatenate S50000x64 1 (encoderPieces x0 x1 x2 x3 x4 x6 x7 x8 x9 x10 x11 x12 x13 x14 x15) concatenates_S50000x16_S50000x16_S50000x16_S50000x8_S50000x8_S50000x64_d1 i = _
  by_cases h0 : (i 1).val < 16
  · refine (concatenate_apply_piece (t := S50000x64) (1 : Fin 2) (encoderPieces x0 x1 x2 x3 x4 x6 x7 x8 x9 x10 x11 x12 x13 x14 x15) concatenates_S50000x16_S50000x16_S50000x16_S50000x8_S50000x8_S50000x64_d1 i 0 (by simp [encoderPieces]) S50000x16 _ rfl rfl 0 rfl
      (ix2 (i 0) (⟨(i 1).val, h0⟩ : Fin 16))
      (fun b hb => by
        match b with
        | ⟨0, _⟩ => rfl
        | ⟨1, _⟩ => exact absurd rfl hb)
      (by show 0 + (i 1).val = (i 1).val; omega)).trans ?_
    exact (joinEntry_seg0 _ _ _ _ _ (i 0) (i 1) ⟨(i 1).val, h0⟩ rfl).symm
  by_cases h1 : (i 1).val < 32
  · refine (concatenate_apply_piece (t := S50000x64) (1 : Fin 2) (encoderPieces x0 x1 x2 x3 x4 x6 x7 x8 x9 x10 x11 x12 x13 x14 x15) concatenates_S50000x16_S50000x16_S50000x16_S50000x8_S50000x8_S50000x64_d1 i 1 (by simp [encoderPieces]) S50000x16 _ rfl rfl 16 rfl
      (ix2 (i 0) (⟨(i 1).val - 16, by omega⟩ : Fin 16))
      (fun b hb => by
        match b with
        | ⟨0, _⟩ => rfl
        | ⟨1, _⟩ => exact absurd rfl hb)
      (by show 16 + ((i 1).val - 16) = (i 1).val; omega)).trans ?_
    exact (joinEntry_seg1 _ _ _ _ _ (i 0) (i 1) ⟨(i 1).val - 16, by omega⟩ (by show (i 1).val = 16 + ((i 1).val - 16); omega)).symm
  by_cases h2 : (i 1).val < 48
  · refine (concatenate_apply_piece (t := S50000x64) (1 : Fin 2) (encoderPieces x0 x1 x2 x3 x4 x6 x7 x8 x9 x10 x11 x12 x13 x14 x15) concatenates_S50000x16_S50000x16_S50000x16_S50000x8_S50000x8_S50000x64_d1 i 2 (by simp [encoderPieces]) S50000x16 _ rfl rfl 32 rfl
      (ix2 (i 0) (⟨(i 1).val - 32, by omega⟩ : Fin 16))
      (fun b hb => by
        match b with
        | ⟨0, _⟩ => rfl
        | ⟨1, _⟩ => exact absurd rfl hb)
      (by show 32 + ((i 1).val - 32) = (i 1).val; omega)).trans ?_
    exact (joinEntry_seg2 _ _ _ _ _ (i 0) (i 1) ⟨(i 1).val - 32, by omega⟩ (by show (i 1).val = 32 + ((i 1).val - 32); omega)).symm
  by_cases h3 : (i 1).val < 56
  · refine (concatenate_apply_piece (t := S50000x64) (1 : Fin 2) (encoderPieces x0 x1 x2 x3 x4 x6 x7 x8 x9 x10 x11 x12 x13 x14 x15) concatenates_S50000x16_S50000x16_S50000x16_S50000x8_S50000x8_S50000x64_d1 i 3 (by simp [encoderPieces]) S50000x8 _ rfl rfl 48 rfl
      (ix2 (i 0) (⟨(i 1).val - 48, by omega⟩ : Fin 8))
      (fun b hb => by
        match b with
        | ⟨0, _⟩ => rfl
        | ⟨1, _⟩ => exact absurd rfl hb)
      (by show 48 + ((i 1).val - 48) = (i 1).val; omega)).trans ?_
    exact (joinEntry_seg3 _ _ _ _ _ (i 0) (i 1) ⟨(i 1).val - 48, by omega⟩ (by show (i 1).val = 48 + ((i 1).val - 48); omega)).symm
  · refine (concatenate_apply_piece (t := S50000x64) (1 : Fin 2) (encoderPieces x0 x1 x2 x3 x4 x6 x7 x8 x9 x10 x11 x12 x13 x14 x15) concatenates_S50000x16_S50000x16_S50000x16_S50000x8_S50000x8_S50000x64_d1 i 4 (by simp [encoderPieces]) S50000x8 _ rfl rfl 56 rfl
      (ix2 (i 0) (⟨(i 1).val - 56, by omega⟩ : Fin 8))
      (fun b hb => by
        match b with
        | ⟨0, _⟩ => rfl
        | ⟨1, _⟩ => exact absurd rfl hb)
      (by show 56 + ((i 1).val - 56) = (i 1).val; omega)).trans ?_
    exact (joinEntry_seg4 _ _ _ _ _ (i 0) (i 1) ⟨(i 1).val - 56, by omega⟩ (by show (i 1).val = 56 + ((i 1).val - 56); omega)).symm

/-- One more layer with the rectifier on the five side by side. -/
theorem encoded_eq : val_main_v54 (F := Ideal) x0 x1 x2 x3 x4 x6 x7 x8 x9 x10 x11 x12 x13 x14 x15 x16 x17
    = encoded (a := 50000) x0 x1 x2 x3 x4 x6 x7 x8 x9 x10 x11 x12 x13 x14 x15 x16 x17 := by
  funext i
  unfold encoded
  rw [← joined_eq]
  exact host_layer_apply dot_S50000x64_S64x64_S50000x64_1_0_0_1_n_n rfl rfl
    lhs_main_v46_0 lhs_main_v46_1 rhs_main_v46_0 rhs_main_v46_1 (val_main_v45 (F := Ideal) x0 x1 x2 x3 x4 x6 x7 x8 x9 x10 x11 x12 x13 x14 x15) x16 x17
    bcast_S64_S1x64_1 bcast_S1x64_S50000x64_0_1 bcast_S_S50000x64 (by decide) i

/-! ## The edges' normalisation -/

/-- The inverse square root of every node's degree where the degree is positive, zero elsewhere, from the
    positivity mask, the inverse square roots and the zero scalar.  Composed, never opened. -/
def dinvOf (pos : (⟨S50000, .i1⟩ : BufTy).Contents (Elt Ideal)) (rs : (⟨S50000, .f32⟩ : BufTy).Contents (Elt Ideal)) (z : (⟨S_, .f32⟩ : BufTy).Contents (Elt Ideal)) : (⟨S50000, .f32⟩ : BufTy).Contents (Elt Ideal) :=
  select pos rs (broadcastInDim S50000 ![] bcast_S_S50000 z)

theorem dinv_eq : val_main_v70 (F := Ideal) x5
    = dinvOf (val_main_v68 (F := Ideal) x5) (val_main_v69 (F := Ideal) x5) (val_main_cst_14 (F := Ideal)) := rfl

/-- Every edge's and self-loop's normalisation: the product of its two ends' factors, each gathered by the end's
    index (a negative index read from the end).  Composed, never opened. -/
def normOf (dinv : (⟨S50000, .f32⟩ : BufTy).Contents (Elt Ideal)) (row col : (⟨S1650000, .i32⟩ : BufTy).Contents (Elt Ideal)) : (⟨S1650000, .f32⟩ : BufTy).Contents (Elt Ideal) :=
  mulf (F := Ideal) (φ := .f32)
    (Host.gather gather_S50000_S1650000x1_S1650000_n_0_n_n_0_1_1 dinv
      (broadcastInDim S1650000x1 ![0] bcast_S1650000_S1650000x1_0
        (select (cmpi .slt row (broadcastInDim S1650000 ![] bcast_S_S1650000 (constantI S_ 32 0#32)))
          (addi row (broadcastInDim S1650000 ![] bcast_S_S1650000 (constantI S_ 32 50000#32))) row)))
    (Host.gather gather_S50000_S1650000x1_S1650000_n_0_n_n_0_1_1 dinv
      (broadcastInDim S1650000x1 ![0] bcast_S1650000_S1650000x1_0
        (select (cmpi .slt col (broadcastInDim S1650000 ![] bcast_S_S1650000 (constantI S_ 32 0#32)))
          (addi col (broadcastInDim S1650000 ![] bcast_S_S1650000 (constantI S_ 32 50000#32))) col)))

theorem norm_eq : val_main_v85 (F := Ideal) x5
    = normOf (val_main_v70 (F := Ideal) x5) (val_main_v58 (F := Ideal) x5) (val_main_v61 (F := Ideal) x5) := rfl

/-! ## The graph-convolution layers -/

/-- A layer's aggregation: gather the product's rows by every edge's source (a negative index read from the end),
    scale each by the edge's normalisation, sum into every edge's target, add the bias row and `x1`.  The host
    operations, composed; what they compute is never needed. -/
def aggregate (proj : (⟨S50000x64, .f32⟩ : BufTy).Contents (Elt Ideal)) (row col : (⟨S1650000, .i32⟩ : BufTy).Contents (Elt Ideal)) (norm : (⟨S1650000, .f32⟩ : BufTy).Contents (Elt Ideal))
    (bias : (⟨S64, .f32⟩ : BufTy).Contents (Elt Ideal)) (x1 : (⟨S50000x64, .f32⟩ : BufTy).Contents (Elt Ideal)) : (⟨S50000x64, .f32⟩ : BufTy).Contents (Elt Ideal) :=
  addf
    (addf
      (Host.scatterAdd (F := Ideal) scatter_S50000x64_S1650000x1_S1650000x64_1_0_0_1
        (broadcastInDim S50000x64 ![] bcast_S_S50000x64 (constant (F := Ideal) S_ .f32 0x00000000#32))
        (broadcastInDim S1650000x1 ![0] bcast_S1650000_S1650000x1_0 col)
        (mulf
          (Host.gather gather_S50000x64_S1650000x1_S1650000x64_1_0_n_n_0_1_164 proj
            (broadcastInDim S1650000x1 ![0] bcast_S1650000_S1650000x1_0
              (select (cmpi .slt row (broadcastInDim S1650000 ![] bcast_S_S1650000 (constantI S_ 32 0#32)))
                (addi row (broadcastInDim S1650000 ![] bcast_S_S1650000 (constantI S_ 32 50000#32))) row)))
          (broadcastInDim S1650000x64 ![0, 1] bcast_S1650000x1_S1650000x64_0_1
            (broadcastInDim S1650000x1 ![0] bcast_S1650000_S1650000x1_0 norm))))
      (broadcastInDim S50000x64 ![0, 1] bcast_S1x64_S50000x64_0_1 (broadcastInDim S1x64 ![1] bcast_S64_S1x64_1 bias)))
    x1

theorem product1_eq : val_main_v62 (F := Ideal) x0 x1 x2 x3 x4 x6 x7 x8 x9 x10 x11 x12 x13 x14 x15 x16 x17 x18
    = rowProduct (a := 50000) (K := 64) (b := 64) (φ₁ := .f32) (φ₂ := .f32) (val_main_v54 (F := Ideal) x0 x1 x2 x3 x4 x6 x7 x8 x9 x10 x11 x12 x13 x14 x15 x16 x17) x18 :=
  dotGeneral_eq_rowProduct dot_S50000x64_S64x64_S50000x64_1_0_0_1_n_n rfl rfl
    lhs_main_v62_0 lhs_main_v62_1 rhs_main_v62_0 rhs_main_v62_1 none _ _
theorem layer1_eq : val_main_v102 (F := Ideal) x0 x1 x2 x3 x4 x5 x6 x7 x8 x9 x10 x11 x12 x13 x14 x15 x16 x17 x18 x19
    = aggregate (val_main_v62 (F := Ideal) x0 x1 x2 x3 x4 x6 x7 x8 x9 x10 x11 x12 x13 x14 x15 x16 x17 x18) (val_main_v58 (F := Ideal) x5) (val_main_v61 (F := Ideal) x5)
        (val_main_v85 (F := Ideal) x5) x19 (val_main_v45 (F := Ideal) x0 x1 x2 x3 x4 x6 x7 x8 x9 x10 x11 x12 x13 x14 x15) := rfl
theorem product2_eq : val_main_v103 (F := Ideal) x0 x1 x2 x3 x4 x5 x6 x7 x8 x9 x10 x11 x12 x13 x14 x15 x16 x17 x18 x19 x20
    = rowProduct (a := 50000) (K := 64) (b := 64) (φ₁ := .f32) (φ₂ := .f32) (val_main_v102 (F := Ideal) x0 x1 x2 x3 x4 x5 x6 x7 x8 x9 x10 x11 x12 x13 x14 x15 x16 x17 x18 x19) x20 :=
  dotGeneral_eq_rowProduct dot_S50000x64_S64x64_S50000x64_1_0_0_1_n_n rfl rfl
    lhs_main_v103_0 lhs_main_v103_1 rhs_main_v103_0 rhs_main_v103_1 none _ _
theorem layer2_eq : val_main_v143 (F := Ideal) x0 x1 x2 x3 x4 x5 x6 x7 x8 x9 x10 x11 x12 x13 x14 x15 x16 x17 x18 x19 x20 x21
    = aggregate (val_main_v103 (F := Ideal) x0 x1 x2 x3 x4 x5 x6 x7 x8 x9 x10 x11 x12 x13 x14 x15 x16 x17 x18 x19 x20) (val_main_v58 (F := Ideal) x5) (val_main_v61 (F := Ideal) x5)
        (val_main_v85 (F := Ideal) x5) x21 (val_main_v45 (F := Ideal) x0 x1 x2 x3 x4 x6 x7 x8 x9 x10 x11 x12 x13 x14 x15) := rfl
theorem product3_eq : val_main_v144 (F := Ideal) x0 x1 x2 x3 x4 x5 x6 x7 x8 x9 x10 x11 x12 x13 x14 x15 x16 x17 x18 x19 x20 x21 x22
    = rowProduct (a := 50000) (K := 64) (b := 64) (φ₁ := .f32) (φ₂ := .f32) (val_main_v143 (F := Ideal) x0 x1 x2 x3 x4 x5 x6 x7 x8 x9 x10 x11 x12 x13 x14 x15 x16 x17 x18 x19 x20 x21) x22 :=
  dotGeneral_eq_rowProduct dot_S50000x64_S64x64_S50000x64_1_0_0_1_n_n rfl rfl
    lhs_main_v144_0 lhs_main_v144_1 rhs_main_v144_0 rhs_main_v144_1 none _ _
theorem layer3_eq : val_main_v184 (F := Ideal) x0 x1 x2 x3 x4 x5 x6 x7 x8 x9 x10 x11 x12 x13 x14 x15 x16 x17 x18 x19 x20 x21 x22 x23
    = aggregate (val_main_v144 (F := Ideal) x0 x1 x2 x3 x4 x5 x6 x7 x8 x9 x10 x11 x12 x13 x14 x15 x16 x17 x18 x19 x20 x21 x22) (val_main_v58 (F := Ideal) x5) (val_main_v61 (F := Ideal) x5)
        (val_main_v85 (F := Ideal) x5) x23 (val_main_v45 (F := Ideal) x0 x1 x2 x3 x4 x6 x7 x8 x9 x10 x11 x12 x13 x14 x15) := rfl

/-! ## The head -/

theorem head_eq : val_main_v203 (F := Ideal) x0 x1 x2 x3 x4 x5 x6 x7 x8 x9 x10 x11 x12 x13 x14 x15 x16 x17 x18 x19 x20 x21 x22 x23 x24 x25 x26 x27
    = headOf (a := 50000) (val_main_v184 (F := Ideal) x0 x1 x2 x3 x4 x5 x6 x7 x8 x9 x10 x11 x12 x13 x14 x15 x16 x17 x18 x19 x20 x21 x22 x23) x24 x25 x26 x27 := by
  funext i
  have hid : val_main_v193 (F := Ideal) x0 x1 x2 x3 x4 x5 x6 x7 x8 x9 x10 x11 x12 x13 x14 x15 x16 x17 x18 x19 x20 x21 x22 x23 x24 x25
      = fun r : S50000x64.Idx => layerEntry (a := 50000) (K := 64) (n := 64) (val_main_v184 (F := Ideal) x0 x1 x2 x3 x4 x5 x6 x7 x8 x9 x10 x11 x12 x13 x14 x15 x16 x17 x18 x19 x20 x21 x22 x23) x24 x25 (r 0) (r 1) :=
    funext fun r => host_layer_apply dot_S50000x64_S64x64_S50000x64_1_0_0_1_n_n rfl rfl
      lhs_main_v185_0 lhs_main_v185_1 rhs_main_v185_0 rhs_main_v185_1 (val_main_v184 (F := Ideal) x0 x1 x2 x3 x4 x5 x6 x7 x8 x9 x10 x11 x12 x13 x14 x15 x16 x17 x18 x19 x20 x21 x22 x23) x24 x25
      bcast_S64_S1x64_1 bcast_S1x64_S50000x64_0_1 bcast_S_S50000x64 (by decide) r
  have aff : val_main_v197 (F := Ideal) x0 x1 x2 x3 x4 x5 x6 x7 x8 x9 x10 x11 x12 x13 x14 x15 x16 x17 x18 x19 x20 x21 x22 x23 x24 x25 x26 x27 i
      = affineEntry (a := 50000) (K := 64) (n := 2) (val_main_v193 (F := Ideal) x0 x1 x2 x3 x4 x5 x6 x7 x8 x9 x10 x11 x12 x13 x14 x15 x16 x17 x18 x19 x20 x21 x22 x23 x24 x25) x26 x27 (i 0) (i 1) :=
    host_affine_apply dot_S50000x64_S64x2_S50000x2_1_0_0_1_n_n rfl rfl
      lhs_main_v194_0 lhs_main_v194_1 rhs_main_v194_0 rhs_main_v194_1 (val_main_v193 (F := Ideal) x0 x1 x2 x3 x4 x5 x6 x7 x8 x9 x10 x11 x12 x13 x14 x15 x16 x17 x18 x19 x20 x21 x22 x23 x24 x25) x26 x27
      bcast_S2_S1x2_1 bcast_S1x2_S50000x2_0_1 (by decide) i
  refine (host_logistic_apply bcast_S_S50000x2 (val_main_v197 (F := Ideal) x0 x1 x2 x3 x4 x5 x6 x7 x8 x9 x10 x11 x12 x13 x14 x15 x16 x17 x18 x19 x20 x21 x22 x23 x24 x25 x26 x27) i).trans ?_
  unfold headOf
  rw [aff, hid]

end Cert.ReferenceIdeal.Stages

end
-- ==== Proof.Bridge.lean ====
/-
  The kernel program's result is the reference program's result, as one function of the launch contents of the
  twenty-eight argument arrays.

  The kernel program is eleven segments; between two of them every buffer has a known contents.  Walking from
  the launch to the return, each boundary's contents of the buffer the next segment reads is named by the
  reference program's own stage at the same place:

    after the encoder's launch   x1 is the five encoders side by side, x one more layer on them;
    after the first stretches    the edges' source and target indices and their normalisation, computed by the
                                 same host operations the reference uses, from the same edge list;
    after a layer's launch       the dense product of the layer's input and weights;
    after a layer's stretch      the aggregation of that product: the same host operations again;
    after the head's launch      the logistic function of two layers.

  A launch stage is what its grid leaves in its output array (read in the launch's own module), at the contents
  its inputs hold on entry, which the boundaries' walk traces back to where they were written.  A host stage is the
  stretch's operations composed, which is syntactically the reference's composition of the same operations.
  The only mathematics is in the launches: a row-tiled product or layer is the whole one, on every extended
  real.  The precondition is never used.
-/
import proofs.«129910_j60979945669188_1_alg».proof.Proof.Boundaries
import proofs.«129910_j60979945669188_1_alg».proof.Proof.Encoder
import proofs.«129910_j60979945669188_1_alg».proof.Proof.Product1
import proofs.«129910_j60979945669188_1_alg».proof.Proof.Product2
import proofs.«129910_j60979945669188_1_alg».proof.Proof.Product3
import proofs.«129910_j60979945669188_1_alg».proof.Proof.Head
import proofs.«129910_j60979945669188_1_alg».proof.Proof.RefStages
import Idealize.ShloMosaic.Lib.StableHlo.Run

set_option maxRecDepth 16384

noncomputable section

namespace Cert.Bridge

open Cert.KernelIdeal Cert.KernelIdeal.Gen Cert.KernelIdeal.Boundaries
open Cert.ReferenceIdeal.ReadP Cert.ReferenceIdeal.Stages Cert.DenseLayer Cert.RowProduct
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Boundary 0 is the launch memory. -/
theorem launch (b : Ref sig .tc) : W0 m ρ c (Proc.devRef .tc b) = m ((c : Thread nD τ).loc b) := rfl

/-! ## The encoder's launch -/

theorem x1_at1 : W1 m ρ c (Proc.devRef .tc main_v0_0) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W1_arr m ρ c 17).trans ((Cert.KernelIdeal.Encoder.array17_eq (V0 m ρ) c).trans ?_)
  exact (joined_eq ..).symm

theorem x_at1 : W1 m ρ c (Proc.devRef .tc main_v0_1) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W1_arr m ρ c 18).trans ((Cert.KernelIdeal.Encoder.array18_eq (V0 m ρ) c).trans ?_)
  exact (encoded_eq ..).symm

/-! ## The edges' indices and normalisation -/

/-- The edge list is untouched by the encoder's launch. -/
theorem edges_at1 : W1 m ρ c (Proc.devRef .tc main_arg5) = m ((c : Thread nD τ).loc main_arg5) :=
  (W1_main_arg5_from0 m ρ c).trans (launch m ρ c main_arg5)

set_option maxHeartbeats 8000000 in
/-- Every edge's and self-loop's source index. -/
theorem row_at2 : W2 m ρ c (Proc.devRef .tc main_v4) = val_main_v58 (F := Ideal) (m ((c : Thread nD τ).loc main_arg5)) := by
  rw [← edges_at1 m ρ c]
  show StableHlo.after hostOps1 (W1 m ρ c) (Proc.devRef .tc main_v4) = _
  after_results_simp
  rfl

set_option maxHeartbeats 8000000 in
/-- Every edge's and self-loop's target index. -/
theorem col_at2 : W2 m ρ c (Proc.devRef .tc main_v7) = val_main_v61 (F := Ideal) (m ((c : Thread nD τ).loc main_arg5)) := by
  rw [← edges_at1 m ρ c]
  show StableHlo.after hostOps1 (W1 m ρ c) (Proc.devRef .tc main_v7) = _
  after_results_simp
  rfl

set_option maxHeartbeats 8000000 in
/-- Where a node's degree is positive. -/
theorem positive_at2 : W2 m ρ c (Proc.devRef .tc main_v13) = val_main_v68 (F := Ideal) (m ((c : Thread nD τ).loc main_arg5)) := by
  rw [← edges_at1 m ρ c]
  show StableHlo.after hostOps1 (W1 m ρ c) (Proc.devRef .tc main_v13) = _
  after_results_simp
  rfl

set_option maxHeartbeats 8000000 in
/-- The inverse square root of every node's degree. -/
theorem rsqrt_at2 : W2 m ρ c (Proc.devRef .tc main_v14) = val_main_v69 (F := Ideal) (m ((c : Thread nD τ).loc main_arg5)) := by
  rw [← edges_at1 m ρ c]
  show StableHlo.after hostOps1 (W1 m ρ c) (Proc.devRef .tc main_v14) = _
  after_results_simp
  rfl

set_option maxHeartbeats 8000000 in
/-- The zero scalar. -/
theorem zero_at2 : W2 m ρ c (Proc.devRef .tc main_cst_2) = val_main_cst_14 (F := Ideal) := by
  show StableHlo.after hostOps1 (W1 m ρ c) (Proc.devRef .tc main_cst_2) = _
  after_results_simp
  rfl

/-- The source and target indices are untouched by the selection's stretch. -/
theorem row_at3 : W3 m ρ c (Proc.devRef .tc main_v4) = W2 m ρ c (Proc.devRef .tc main_v4) := by stretch_keeps hostOps1_1
theorem col_at3 : W3 m ρ c (Proc.devRef .tc main_v7) = W2 m ρ c (Proc.devRef .tc main_v7) := by stretch_keeps hostOps1_1

set_option maxHeartbeats 8000000 in
/-- Every node's factor: the inverse square root of its degree, zero where the degree is not positive. -/
theorem dinv_at3 : W3 m ρ c (Proc.devRef .tc main_v15) = val_main_v70 (F := Ideal) (m ((c : Thread nD τ).loc main_arg5)) := by
  have h : W3 m ρ c (Proc.devRef .tc main_v15)
      = dinvOf (W2 m ρ c (Proc.devRef .tc main_v13)) (W2 m ρ c (Proc.devRef .tc main_v14)) (W2 m ρ c (Proc.devRef .tc main_cst_2)) := by
    show StableHlo.after hostOps1_1 (W2 m ρ c) (Proc.devRef .tc main_v15) = _
    generalize W2 m ρ c = V
    after_results_simp
    rfl
  rw [h, positive_at2 m ρ c, rsqrt_at2 m ρ c, zero_at2 m ρ c]
  exact (dinv_eq ..).symm

set_option maxHeartbeats 8000000 in
/-- Every edge's and self-loop's normalisation: the product of its two ends' factors. -/
theorem norm_at4 : W4 m ρ c (Proc.devRef .tc main_v30) = val_main_v85 (F := Ideal) (m ((c : Thread nD τ).loc main_arg5)) := by
  have h : W4 m ρ c (Proc.devRef .tc main_v30)
      = normOf (W3 m ρ c (Proc.devRef .tc main_v15)) (W3 m ρ c (Proc.devRef .tc main_v4)) (W3 m ρ c (Proc.devRef .tc main_v7)) := by
    show StableHlo.after hostOps1_2 (W3 m ρ c) (Proc.devRef .tc main_v30) = _
    generalize W3 m ρ c = V
    after_results_simp
    rfl
  rw [h, dinv_at3 m ρ c, row_at3 m ρ c, row_at2 m ρ c, col_at3 m ρ c, col_at2 m ρ c]
  exact (norm_eq ..).symm

/-! ## The three graph-convolution layers -/

/-- The first layer's dense product. -/
theorem product_at5 : W5 m ρ c (Proc.devRef .tc main_v31) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W5_arr m ρ c 2).trans ((Cert.KernelIdeal.Product1.array_eq (V4 m ρ) c).trans ?_)
  show rowProduct (a := 50000) (K := 64) (b := 64) (φ₁ := .f32) (φ₂ := .f32) (W4 m ρ c (Proc.devRef .tc main_v0_1)) (W4 m ρ c (Proc.devRef .tc main_arg18)) = _
  rw [W4_main_v0_1_from1 m ρ c, x_at1 m ρ c, W4_main_arg18_from0 m ρ c, launch m ρ c]
  exact (product1_eq ..).symm

set_option maxHeartbeats 8000000 in
/-- The first layer's output. -/
theorem layer_at6 : W6 m ρ c (Proc.devRef .tc main_v48) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  have h : W6 m ρ c (Proc.devRef .tc main_v48)
      = aggregate (W5 m ρ c (Proc.devRef .tc main_v31)) (W5 m ρ c (Proc.devRef .tc main_v4)) (W5 m ρ c (Proc.devRef .tc main_v7))
          (W5 m ρ c (Proc.devRef .tc main_v30)) (W5 m ρ c (Proc.devRef .tc main_arg19)) (W5 m ρ c (Proc.devRef .tc main_v0_0)) := by
    show StableHlo.after hostOps2 (W5 m ρ c) (Proc.devRef .tc main_v48) = _
    after_results_simp
    rfl
  rw [h, product_at5 m ρ c, W5_main_v4_from2 m ρ c, row_at2 m ρ c, W5_main_v7_from2 m ρ c, col_at2 m ρ c,
    W5_main_v30_from4 m ρ c, norm_at4 m ρ c, W5_main_arg19_from0 m ρ c, launch m ρ c, W5_main_v0_0_from1 m ρ c, x1_at1 m ρ c]
  exact (layer1_eq ..).symm

/-- The second layer's dense product. -/
theorem product_at7 : W7 m ρ c (Proc.devRef .tc main_v49) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W7_arr m ρ c 2).trans ((Cert.KernelIdeal.Product2.array_eq (V6 m ρ) c).trans ?_)
  show rowProduct (a := 50000) (K := 64) (b := 64) (φ₁ := .f32) (φ₂ := .f32) (W6 m ρ c (Proc.devRef .tc main_v48)) (W6 m ρ c (Proc.devRef .tc main_arg20)) = _
  rw [layer_at6 m ρ c, W6_main_arg20_from0 m ρ c, launch m ρ c]
  exact (product2_eq ..).symm

set_option maxHeartbeats 8000000 in
/-- The second layer's output. -/
theorem layer_at8 : W8 m ρ c (Proc.devRef .tc main_v66) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h : W8 m ρ c (Proc.devRef .tc main_v66)
      = aggregate (W7 m ρ c (Proc.devRef .tc main_v49)) (W7 m ρ c (Proc.devRef .tc main_v4)) (W7 m ρ c (Proc.devRef .tc main_v7))
          (W7 m ρ c (Proc.devRef .tc main_v30)) (W7 m ρ c (Proc.devRef .tc main_arg21)) (W7 m ρ c (Proc.devRef .tc main_v0_0)) := by
    show StableHlo.after hostOps3 (W7 m ρ c) (Proc.devRef .tc main_v66) = _
    after_results_simp
    rfl
  rw [h, product_at7 m ρ c, W7_main_v4_from5 m ρ c, W5_main_v4_from2 m ρ c, row_at2 m ρ c, W7_main_v7_from5 m ρ c, W5_main_v7_from2 m ρ c, col_at2 m ρ c,
    W7_main_v30_from5 m ρ c, W5_main_v30_from4 m ρ c, norm_at4 m ρ c, W7_main_arg21_from0 m ρ c, launch m ρ c, W7_main_v0_0_from5 m ρ c, W5_main_v0_0_from1 m ρ c, x1_at1 m ρ c]
  exact (layer2_eq ..).symm

/-- The third layer's dense product. -/
theorem product_at9 : W9 m ρ c (Proc.devRef .tc main_v67) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W9_arr m ρ c 2).trans ((Cert.KernelIdeal.Product3.array_eq (V8 m ρ) c).trans ?_)
  show rowProduct (a := 50000) (K := 64) (b := 64) (φ₁ := .f32) (φ₂ := .f32) (W8 m ρ c (Proc.devRef .tc main_v66)) (W8 m ρ c (Proc.devRef .tc main_arg22)) = _
  rw [layer_at8 m ρ c, W8_main_arg22_from0 m ρ c, launch m ρ c]
  exact (product3_eq ..).symm

set_option maxHeartbeats 8000000 in
/-- The third layer's output. -/
theorem layer_at10 : W10 m ρ c (Proc.devRef .tc main_v84) = val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have h : W10 m ρ c (Proc.devRef .tc main_v84)
      = aggregate (W9 m ρ c (Proc.devRef .tc main_v67)) (W9 m ρ c (Proc.devRef .tc main_v4)) (W9 m ρ c (Proc.devRef .tc main_v7))
          (W9 m ρ c (Proc.devRef .tc main_v30)) (W9 m ρ c (Proc.devRef .tc main_arg23)) (W9 m ρ c (Proc.devRef .tc main_v0_0)) := by
    show StableHlo.after hostOps4 (W9 m ρ c) (Proc.devRef .tc main_v84) = _
    after_results_simp
    rfl
  rw [h, product_at9 m ρ c, W9_main_v4_from7 m ρ c, W7_main_v4_from5 m ρ c, W5_main_v4_from2 m ρ c, row_at2 m ρ c, W9_main_v7_from7 m ρ c, W7_main_v7_from5 m ρ c, W5_main_v7_from2 m ρ c, col_at2 m ρ c,
    W9_main_v30_from7 m ρ c, W7_main_v30_from5 m ρ c, W5_main_v30_from4 m ρ c, norm_at4 m ρ c, W9_main_arg23_from0 m ρ c, launch m ρ c, W9_main_v0_0_from7 m ρ c, W7_main_v0_0_from5 m ρ c, W5_main_v0_0_from1 m ρ c, x1_at1 m ρ c]
  exact (layer3_eq ..).symm

/-! ## The head's launch, and the result -/

/-- At the return the result buffer holds the reference's result term of the launch contents of the arguments. -/
theorem kernel_result : W11 m ρ c (Proc.devRef .tc main_v85) = val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  refine (W11_arr m ρ c 5).trans ((Cert.KernelIdeal.Head.array_eq (V10 m ρ) c).trans ?_)
  show headOf (a := 50000) (W10 m ρ c (Proc.devRef .tc main_v84)) (W10 m ρ c (Proc.devRef .tc main_arg24)) (W10 m ρ c (Proc.devRef .tc main_arg25))
      (W10 m ρ c (Proc.devRef .tc main_arg26)) (W10 m ρ c (Proc.devRef .tc main_arg27)) = _
  rw [layer_at10 m ρ c, W10_main_arg24_from0 m ρ c, W10_main_arg25_from0 m ρ c, W10_main_arg26_from0 m ρ c,
    W10_main_arg27_from0 m ρ c, launch m ρ c, launch m ρ c, launch m ρ c, launch m ρ c]
  exact (head_eq ..).symm

end Cert.Bridge

end
-- ==== Proof.lean ====
/-
  A graph-convolution classifier over 50000 nodes and 1.65 million edges and self-loops, as five Pallas launches
  among host operations, against the same network written in plain jnp: the two end with equal results as
  extended reals, element by element, for every input.

  The network: five per-node feature encoders (a layer `leaky (a · W + b)` each) laid side by side into x1, one more
  layer for x, three graph-convolution layers `x ← D^(-1/2) (A + I) D^(-1/2) (x · W) + b + x1`, and a head
  `logistic (leaky (x · W₁ + b₁) · W₂ + b₂)`.  The kernel program keeps the dense parts in launches tiled over
  blocks of a thousand nodes, its products taken after narrowing both operands to bfloat16, and leaves the
  gather, scaling and scatter-add of each layer to the host; the reference does everything on the host.

  On the extended reals a change of float format is the identity, and a product into a zero accumulator and the
  host's contraction are the same finite sum.  Every entry of a dense layer reads one row of its left operand, so
  a block of rows of the layer is the layer of the block, and the fifty blocks tile each output: each launch leaves
  in its output array the whole-array layer of the arrays it found (Encoder, Product1–3, Head).  Between launches the
  kernel program's host operations are, operation for operation, the reference's; they are composed and never
  opened.  A launch's logistic function and the reference's `1 / (1 + exp (-z))` are one function by definition.
  No step uses distributivity, cancellation or any other law that fails at an infinity, so the precondition (every
  float input finite) is never opened.  The ideal pass rewrote nothing, so the preserves claim is trivial.

  The frames of the two kernel programs are the generated ones; the reference has no launch, and its frame is its
  run with the result dropped.
-/
import proofs.«129910_j60979945669188_1_alg».proof.Defs
import proofs.«129910_j60979945669188_1_alg».proof.Proof.Gen.Kernel
import proofs.«129910_j60979945669188_1_alg».proof.Proof.Gen.Kernel.Frame
import proofs.«129910_j60979945669188_1_alg».proof.Proof.Gen.KernelIdeal
import proofs.«129910_j60979945669188_1_alg».proof.Proof.Gen.KernelIdeal.Frame
import proofs.«129910_j60979945669188_1_alg».proof.Proof.Gen.ReferenceIdeal
import proofs.«129910_j60979945669188_1_alg».proof.Proof.Gen.Pre_finite_inputs
import proofs.«129910_j60979945669188_1_alg».proof.Proof.KernelRun
import proofs.«129910_j60979945669188_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the reference's result term of the arguments: the kernel program by walking its
    segments (Bridge), the reference by its run, the two memories agreeing on the arguments. -/
theorem algebraic : Cert.algebraic_KernelIdeal_ReferenceIdeal := by
  intro m ρ m' ρ' _ hagree
  refine ⟨fun c => Cert.ReferenceIdeal.ReadP.val_main_v203 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27)), ?_, ?_⟩
  · exact (θ_run Cert.KernelIdeal.defs _ _).mono
      (fun r h c => ⟨(h c).1.trans (Cert.Bridge.kernel_result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v203_eq m' c]
    obtain ⟨h0, h1, h2, h3, h4, h5, h6, h7, h8, h9, h10, h11, h12, h13, h14, h15, h16, h17, h18, h19, h20, h21, h22, h23, h24, h25, h26, h27⟩ := hagree c
    rw [h0, h1, h2, h3, h4, h5, h6, h7, h8, h9, h10, h11, h12, h13, h14, h15, h16, h17, h18, h19, h20, h21, h22, h23, h24, h25, h26, h27]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
